-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S64x12x2 : Shape := ⟨3, ![64, 12, 2]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  bcast_S_S64x12x2 : S_.BroadcastsInDim S64x12x2 (![] : Fin 0 → Fin S64x12x2.rank)
  reducesTo_S64x12x2_S_d0_1_2 : S64x12x2.ReducesTo [0, 1, 2] S_

variable [Facts]

def fn {F : FTy → Type} [FloatOps F] (main_arg0 : FVec F S64x1x512x512 .f32) (main_arg1 : FVec F S64x12x2 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x12x2 .f32 := Host.absf main_arg1
  let main_cst_0 : FVec F S_ .f32 := constant S_ .f32 0x7F800000#32
  let main_v5 : FVec F S64x12x2 .f32 := broadcastInDim S64x12x2 ![] bcast_S_S64x12x2 main_cst_0
  let main_v6 : IVec S64x12x2 1 := cmpf .olt main_v4 main_v5
  let main_c_1 : IVec S_ 1 := constantI S_ 1 1#1
  let main_v7 : IVec S_ 1 := (fun x v => Host.reduce IntOp.andi x v reducesTo_S64x12x2_S_d0_1_2 h_S_) main_v6 main_c_1
  let main_v8 : IVec S_ 1 := andi main_v3 main_v7
  main_v8
-- ==== Kernel.lean ====
abbrev S64x1x512x512 : Shape := ⟨4, ![64, 1, 512, 512]⟩
abbrev S64x12x2 : Shape := ⟨3, ![64, 12, 2]⟩
abbrev S64x512x512 : Shape := ⟨3, ![64, 512, 512]⟩
abbrev S64x12x1 : Shape := ⟨3, ![64, 12, 1]⟩
abbrev S64x12 : Shape := ⟨2, ![64, 12]⟩
abbrev S_ : Shape := ⟨0, ![]⟩
abbrev S64x16 : Shape := ⟨2, ![64, 16]⟩
abbrev S64x16x1 : Shape := ⟨3, ![64, 16, 1]⟩
abbrev S64x16x512 : Shape := ⟨3, ![64, 16, 512]⟩
abbrev S64x1x1 : Shape := ⟨3, ![64, 1, 1]⟩
abbrev S4x512x512 : Shape := ⟨3, ![4, 512, 512]⟩
abbrev S4x16x512 : Shape := ⟨3, ![4, 16, 512]⟩
abbrev S4x16x1 : Shape := ⟨3, ![4, 16, 1]⟩
abbrev S4x1x1 : Shape := ⟨3, ![4, 1, 1]⟩
abbrev S4x512 : Shape := ⟨2, ![4, 512]⟩
abbrev S4x512x1 : Shape := ⟨3, ![4, 512, 1]⟩
abbrev S4x1 : Shape := ⟨2, ![4, 1]⟩
abbrev S4x16 : Shape := ⟨2, ![4, 16]⟩
abbrev S64 : Shape := ⟨1, ![64]⟩

abbrev nBuf : Space → Nat
  | .hbm => 70
  | .vmem => 10
  | .smem => 0
  | _ => 0

abbrev bufTy : (tb : Table) → Fin (tcTables nBuf tb) → BufTy
  | .hbm, ⟨0, _⟩ => ⟨S64x1x512x512, .f32⟩
  | .hbm, ⟨1, _⟩ => ⟨S64x12x2, .f32⟩
  | .hbm, ⟨2, _⟩ => ⟨S64x512x512, .f32⟩
  | .hbm, ⟨3, _⟩ => ⟨S64x12x1, .f32⟩
  | .hbm, ⟨4, _⟩ => ⟨S64x12, .f32⟩
  | .hbm, ⟨5, _⟩ => ⟨S64x12, .i32⟩
  | .hbm, ⟨6, _⟩ => ⟨S64x12x1, .f32⟩
  | .hbm, ⟨7, _⟩ => ⟨S64x12, .f32⟩
  | .hbm, ⟨8, _⟩ => ⟨S64x12, .i32⟩
  | .hbm, ⟨9, _⟩ => ⟨S_, .i32⟩
  | .hbm, ⟨10, _⟩ => ⟨S64x12, .i32⟩
  | .hbm, ⟨11, _⟩ => ⟨S64x12, .i1⟩
  | .hbm, ⟨12, _⟩ => ⟨S_, .i32⟩
  | .hbm, ⟨13, _⟩ => ⟨S64x12, .i32⟩
  | .hbm, ⟨14, _⟩ => ⟨S64x12, .i1⟩
  | .hbm, ⟨15, _⟩ => ⟨S64x12, .i1⟩
  | .hbm, ⟨16, _⟩ => ⟨S_, .i32⟩
  | .hbm, ⟨17, _⟩ => ⟨S64x12, .i32⟩
  | .hbm, ⟨18, _⟩ => ⟨S64x12, .i1⟩
  | .hbm, ⟨19, _⟩ => ⟨S64x12, .i1⟩
  | .hbm, ⟨20, _⟩ => ⟨S_, .i32⟩
  | .hbm, ⟨21, _⟩ => ⟨S64x12, .i32⟩
  | .hbm, ⟨22, _⟩ => ⟨S64x12, .i1⟩
  | .hbm, ⟨23, _⟩ => ⟨S64x12, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S64x12, .i32⟩
  | .hbm, ⟨28, _⟩ => ⟨S64x12, .i32⟩
  | .hbm, ⟨29, _⟩ => ⟨S_, .i32⟩
  | .hbm, ⟨30, _⟩ => ⟨S64x12, .i32⟩
  | .hbm, ⟨31, _⟩ => ⟨S64x12, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x12, .i32⟩
  | .hbm, ⟨36, _⟩ => ⟨S64x12, .i32⟩
  | .hbm, ⟨37, _⟩ => ⟨S_, .i32⟩
  | .hbm, ⟨38, _⟩ => ⟨S64x12, .i32⟩
  | .hbm, ⟨39, _⟩ => ⟨S64x12, .i32⟩
  | .hbm, ⟨40, _⟩ => ⟨S_, .i32⟩
  | .hbm, ⟨41, _⟩ => ⟨S_, .i32⟩
  | .hbm, ⟨42, _⟩ => ⟨S64x16, .i32⟩
  | .hbm, ⟨43, _⟩ => ⟨S_, .i32⟩
  | .hbm, ⟨44, _⟩ => ⟨S_, .i32⟩
  | .hbm, ⟨45, _⟩ => ⟨S64x16, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i1⟩
  | .hbm, ⟨51, _⟩ => ⟨S64x16, .i1⟩
  | .hbm, ⟨52, _⟩ => ⟨S64x16, .f32⟩
  | .hbm, ⟨53, _⟩ => ⟨S64x16x1, .f32⟩
  | .hbm, ⟨54, _⟩ => ⟨S64x16x512, .i32⟩
  | .hbm, ⟨55, _⟩ => ⟨S64x16x1, .i32⟩
  | .hbm, ⟨56, _⟩ => ⟨S64x16x512, .i32⟩
  | .hbm, ⟨57, _⟩ => ⟨S64x16x512, .i1⟩
  | .hbm, ⟨58, _⟩ => ⟨S64x16x512, .f32⟩
  | .hbm, ⟨59, _⟩ => ⟨S64x16x512, .i32⟩
  | .hbm, ⟨60, _⟩ => ⟨S64x16x1, .i32⟩
  | .hbm, ⟨61, _⟩ => ⟨S64x16x512, .i32⟩
  | .hbm, ⟨62, _⟩ => ⟨S64x16x512, .i1⟩
  | .hbm, ⟨63, _⟩ => ⟨S64x16x512, .f32⟩
  | .hbm, ⟨64, _⟩ => ⟨S64x1x1, .f32⟩
  | .hbm, ⟨65, _⟩ => ⟨S64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S4x16x512, .f32⟩
  | .local _ .vmem, ⟨3, _⟩ => ⟨S4x16x512, .f32⟩
  | .local _ .vmem, ⟨4, _⟩ => ⟨S4x16x512, .f32⟩
  | .local _ .vmem, ⟨5, _⟩ => ⟨S4x16x512, .f32⟩
  | .local _ .vmem, ⟨6, _⟩ => ⟨S4x16x1, .f32⟩
  | .local _ .vmem, ⟨7, _⟩ => ⟨S4x16x1, .f32⟩
  | .local _ .vmem, ⟨8, _⟩ => ⟨S4x1x1, .f32⟩
  | .local _ .vmem, ⟨9, _⟩ => ⟨S4x1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v18 : Ref sig .tc := ⟨.hbm, 31, rfl⟩
abbrev main_c_5 : Ref sig .tc := ⟨.hbm, 32, rfl⟩
abbrev main_c_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_c_7 : Ref sig .tc := ⟨.hbm, 40, rfl⟩
abbrev main_call2_v0 : Ref sig .tc := ⟨.hbm, 41, rfl⟩
abbrev main_v20 : Ref sig .tc := ⟨.hbm, 42, rfl⟩
abbrev main_c_8 : Ref sig .tc := ⟨.hbm, 43, rfl⟩
abbrev main_call3_v0 : Ref sig .tc := ⟨.hbm, 44, rfl⟩
abbrev main_v21 : Ref sig .tc := ⟨.hbm, 45, rfl⟩
abbrev main_c_9 : Ref sig .tc := ⟨.hbm, 46, rfl⟩
abbrev main_call4_c : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1x512x512_S64x512x512 : S64x1x512x512.ShapeCasts S64x512x512
  slices_S64x12x2_S64x12x1_0_0_0 : S64x12x2.Slices ![0, 0, 0] S64x12x1
  shapeCasts_S64x12x1_S64x12 : S64x12x1.ShapeCasts S64x12
  slices_S64x12x2_S64x12x1_0_0_1 : S64x12x2.Slices ![0, 0, 1] S64x12x1
  bcast_S_S64x12 : S_.BroadcastsInDim S64x12 (![] : Fin 0 → Fin S64x12.rank)
  pads_S64x12_S64x16_000_040 : S64x12.Pads (![0, 0] : Fin 2 → Nat) ![0, 4] ![0, 0] S64x16
  h_S_ : 0 < S_.numel
  bcast_S_S_ : S_.BroadcastsInDim S_ (![] : Fin 0 → Fin S_.rank)
  bcast_S64x16_S64x16x1_0_1 : S64x16.BroadcastsInDim S64x16x1 (![0, 1] : Fin 2 → Fin S64x16x1.rank)
  bcast_S64x16x1_S64x16x512_0_1_2 : S64x16x1.BroadcastsInDim S64x16x512 (![0, 1, 2] : Fin 3 → Fin S64x16x512.rank)
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  reduces_S4x512x512_S4x512 : S4x512x512.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  broadcasts_S4x1x1_S4x512x512 : S4x1x1.Broadcasts S4x512x512
  inb_S4x16x512_S4x16x512_0_0_0 : ∀ a, (![0, 0, 0] : Fin 3 → Nat) a + S4x16x512.size a ≤ S4x16x512.size a
  h_S4x16x512 : 0 < S4x16x512.numel
  shapeCasts_S4x16x512_S4x16x512 : S4x16x512.ShapeCasts S4x16x512
  reduces_S4x16x512_S4x16 : S4x16x512.Reduces [2] S4x16
  shapeCasts_S4x16_S4x16x1 : S4x16.ShapeCasts S4x16x1
  inb_S4x16x1_S4x16x1_0_0_0 : ∀ a, (![0, 0, 0] : Fin 3 → Nat) a + S4x16x1.size a ≤ S4x16x1.size a
  h_S4x16x1 : 0 < S4x16x1.numel
  shapeCasts_S4x16x1_S4x16x1 : S4x16x1.ShapeCasts S4x16x1
  reduces_S4x16x1_S4x1 : S4x16x1.Reduces [1] S4x1
  inb_S4x1x1_S4x1x1_0_0_0 : ∀ a, (![0, 0, 0] : Fin 3 → Nat) a + S4x1x1.size a ≤ S4x1x1.size a
  h_S4x1x1 : 0 < S4x1x1.numel
  shapeCasts_S64x1x1_S64 : S64x1x1.ShapeCasts S64
  reducesTo_S64_S_d0 : S64.ReducesTo [0] S_
  dot_S4x16x512_S4x512x512_S4x16x512_2_1_1_2_0_0_wf : DotDims.WF S4x16x512 S4x512x512 S4x16x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S64x512x512.size a
  hwx0_0 : ∀ i : grid0.Coords, EltTy.bits .f32 = 32 ∨ (Rect.block (s := S64x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x512.size a ≤ S64x16x512.size a
  hwx0_1 : ∀ i : grid0.Coords, EltTy.bits .f32 = 32 ∨ (Rect.block (s := S64x16x512) S4x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x512.size a ≤ S64x16x512.size a
  hwx0_2 : ∀ i : grid0.Coords, EltTy.bits .f32 = 32 ∨ (Rect.block (s := S64x16x512) S4x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x1.size a ≤ S64x16x1.size a
  hwx0_3 : ∀ i : grid0.Coords, EltTy.bits .f32 = 32 ∨ (Rect.block (s := S64x16x1) S4x16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1.size a ≤ S64x1x1.size a
  hwx0_4 : ∀ i : grid0.Coords, EltTy.bits .f32 = 32 ∨ (Rect.block (s := S64x1x1) S4x1x1.size (cc0_transform_4 i) (hinb0_4 i)).WholeWords (EltTy.packing .f32)

variable [Facts₀]

def dot_S4x16x512_S4x512x512_S4x16x512_2_1_1_2_0_0 : DotDims S4x16x512 S4x512x512 S4x16x512 where
  lhsContracting := [2]
  rhsContracting := [1]
  lhsNonContracting := [1]
  rhsNonContracting := [2]
  lhsBatch := [0]
  rhsBatch := [0]
  wf := dot_S4x16x512_S4x512x512_S4x16x512_2_1_1_2_0_0_wf

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4x16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S4x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x12x2 : Shape := ⟨3, ![64, 12, 2]⟩
abbrev S64x512x512 : Shape := ⟨3, ![64, 512, 512]⟩
abbrev S_ : Shape := ⟨0, ![]⟩
abbrev S64 : Shape := ⟨1, ![64]⟩
abbrev S64x1x1 : Shape := ⟨3, ![64, 1, 1]⟩
abbrev S64x12x1 : Shape := ⟨3, ![64, 12, 1]⟩
abbrev S64x12 : Shape := ⟨2, ![64, 12]⟩
abbrev S64x1 : Shape := ⟨2, ![64, 1]⟩
abbrev S64x12x3 : Shape := ⟨3, ![64, 12, 3]⟩

abbrev nBuf : Space → Nat
  | .hbm => 128
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x12x2, .f32⟩
  | .hbm, ⟨2, _⟩ => ⟨S64x512x512, .f32⟩
  | .hbm, ⟨3, _⟩ => ⟨S_, .f32⟩
  | .hbm, ⟨4, _⟩ => ⟨S64, .f32⟩
  | .hbm, ⟨5, _⟩ => ⟨S64x1x1, .f32⟩
  | .hbm, ⟨6, _⟩ => ⟨S_, .f32⟩
  | .hbm, ⟨7, _⟩ => ⟨S64x1x1, .f32⟩
  | .hbm, ⟨8, _⟩ => ⟨S64x1x1, .f32⟩
  | .hbm, ⟨9, _⟩ => ⟨S_, .i32⟩
  | .hbm, ⟨10, _⟩ => ⟨S_, .f32⟩
  | .hbm, ⟨11, _⟩ => ⟨S64, .f32⟩
  | .hbm, ⟨12, _⟩ => ⟨S64x1x1, .f32⟩
  | .hbm, ⟨13, _⟩ => ⟨S_, .f32⟩
  | .hbm, ⟨14, _⟩ => ⟨S64x1x1, .f32⟩
  | .hbm, ⟨15, _⟩ => ⟨S64x1x1, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64x1x1, .f32⟩
  | .hbm, ⟨25, _⟩ => ⟨S64x1x1, .f32⟩
  | .hbm, ⟨26, _⟩ => ⟨S64x1x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S64x1x1, .f32⟩
  | .hbm, ⟨32, _⟩ => ⟨S64x1x1, .f32⟩
  | .hbm, ⟨33, _⟩ => ⟨S64x1x1, .f32⟩
  | .hbm, ⟨34, _⟩ => ⟨S64x512x512, .f32⟩
  | .hbm, ⟨35, _⟩ => ⟨S64x512x512, .f32⟩
  | .hbm, ⟨36, _⟩ => ⟨S_, .f32⟩
  | .hbm, ⟨37, _⟩ => ⟨S64x1x1, .f32⟩
  | .hbm, ⟨38, _⟩ => ⟨S64x1x1, .f32⟩
  | .hbm, ⟨39, _⟩ => ⟨S64x512x512, .f32⟩
  | .hbm, ⟨40, _⟩ => ⟨S64x512x512, .f32⟩
  | .hbm, ⟨41, _⟩ => ⟨S64x12x1, .f32⟩
  | .hbm, ⟨42, _⟩ => ⟨S64x12, .f32⟩
  | .hbm, ⟨43, _⟩ => ⟨S64x12, .i32⟩
  | .hbm, ⟨44, _⟩ => ⟨S64x12x1, .f32⟩
  | .hbm, ⟨45, _⟩ => ⟨S64x12, .f32⟩
  | .hbm, ⟨46, _⟩ => ⟨S64x12, .i32⟩
  | .hbm, ⟨47, _⟩ => ⟨S_, .i32⟩
  | .hbm, ⟨48, _⟩ => ⟨S64x12, .i32⟩
  | .hbm, ⟨49, _⟩ => ⟨S64x12, .i1⟩
  | .hbm, ⟨50, _⟩ => ⟨S_, .i32⟩
  | .hbm, ⟨51, _⟩ => ⟨S64x12, .i32⟩
  | .hbm, ⟨52, _⟩ => ⟨S64x12, .i1⟩
  | .hbm, ⟨53, _⟩ => ⟨S64x12, .i1⟩
  | .hbm, ⟨54, _⟩ => ⟨S_, .i32⟩
  | .hbm, ⟨55, _⟩ => ⟨S64x12, .i32⟩
  | .hbm, ⟨56, _⟩ => ⟨S64x12, .i1⟩
  | .hbm, ⟨57, _⟩ => ⟨S64x12, .i1⟩
  | .hbm, ⟨58, _⟩ => ⟨S_, .i32⟩
  | .hbm, ⟨59, _⟩ => ⟨S64x12, .i32⟩
  | .hbm, ⟨60, _⟩ => ⟨S64x12, .i1⟩
  | .hbm, ⟨61, _⟩ => ⟨S64x12, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S64x12, .i32⟩
  | .hbm, ⟨66, _⟩ => ⟨S64x12, .i32⟩
  | .hbm, ⟨67, _⟩ => ⟨S_, .i32⟩
  | .hbm, ⟨68, _⟩ => ⟨S64x12, .i32⟩
  | .hbm, ⟨69, _⟩ => ⟨S64x12, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S64x12, .i32⟩
  | .hbm, ⟨74, _⟩ => ⟨S64x12, .i32⟩
  | .hbm, ⟨75, _⟩ => ⟨S_, .i32⟩
  | .hbm, ⟨76, _⟩ => ⟨S64x12, .i32⟩
  | .hbm, ⟨77, _⟩ => ⟨S64x12, .i32⟩
  | .hbm, ⟨78, _⟩ => ⟨S64, .i32⟩
  | .hbm, ⟨79, _⟩ => ⟨S64x1, .i32⟩
  | .hbm, ⟨80, _⟩ => ⟨S_, .i32⟩
  | .hbm, ⟨81, _⟩ => ⟨S64x1, .i32⟩
  | .hbm, ⟨82, _⟩ => ⟨S64x1, .i1⟩
  | .hbm, ⟨83, _⟩ => ⟨S_, .i32⟩
  | .hbm, ⟨84, _⟩ => ⟨S64x1, .i32⟩
  | .hbm, ⟨85, _⟩ => ⟨S64x1, .i32⟩
  | .hbm, ⟨86, _⟩ => ⟨S64x1, .i32⟩
  | .hbm, ⟨87, _⟩ => ⟨S_, .i32⟩
  | .hbm, ⟨88, _⟩ => ⟨S64x12, .i32⟩
  | .hbm, ⟨89, _⟩ => ⟨S64x12, .i1⟩
  | .hbm, ⟨90, _⟩ => ⟨S_, .i32⟩
  | .hbm, ⟨91, _⟩ => ⟨S64x12, .i32⟩
  | .hbm, ⟨92, _⟩ => ⟨S64x12, .i32⟩
  | .hbm, ⟨93, _⟩ => ⟨S64x12, .i32⟩
  | .hbm, ⟨94, _⟩ => ⟨S_, .i32⟩
  | .hbm, ⟨95, _⟩ => ⟨S64x12, .i32⟩
  | .hbm, ⟨96, _⟩ => ⟨S64x12, .i1⟩
  | .hbm, ⟨97, _⟩ => ⟨S_, .i32⟩
  | .hbm, ⟨98, _⟩ => ⟨S64x12, .i32⟩
  | .hbm, ⟨99, _⟩ => ⟨S64x12, .i32⟩
  | .hbm, ⟨100, _⟩ => ⟨S64x12, .i32⟩
  | .hbm, ⟨101, _⟩ => ⟨S64x12, .i32⟩
  | .hbm, ⟨102, _⟩ => ⟨S64x12x1, .i32⟩
  | .hbm, ⟨103, _⟩ => ⟨S64x12x1, .i32⟩
  | .hbm, ⟨104, _⟩ => ⟨S64x12x1, .i32⟩
  | .hbm, ⟨105, _⟩ => ⟨S64x12x3, .i32⟩
  | .hbm, ⟨106, _⟩ => ⟨S64x12, .f32⟩
  | .hbm, ⟨107, _⟩ => ⟨S64x12, .f32⟩
  | .hbm, ⟨108, _⟩ => ⟨S_, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .i1⟩
  | .hbm, ⟨113, _⟩ => ⟨S64x12, .f32⟩
  | .hbm, ⟨114, _⟩ => ⟨S_, .f32⟩
  | .hbm, ⟨115, _⟩ => ⟨S64, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64, .f32⟩
  | .hbm, ⟨120, _⟩ => ⟨S_, .f32⟩
  | .hbm, ⟨121, _⟩ => ⟨S_, .f32⟩
  | .hbm, ⟨122, _⟩ => ⟨S64, .f32⟩
  | .hbm, ⟨123, _⟩ => ⟨S64, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_c_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v29 : Ref sig .tc := ⟨.hbm, 69, rfl⟩
abbrev main_c_8 : Ref sig .tc := ⟨.hbm, 70, rfl⟩
abbrev main_c_9 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_10 : Ref sig .tc := ⟨.hbm, 80, rfl⟩
abbrev main_v33 : Ref sig .tc := ⟨.hbm, 81, rfl⟩
abbrev main_v34 : Ref sig .tc := ⟨.hbm, 82, rfl⟩
abbrev main_c_11 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_12 : Ref sig .tc := ⟨.hbm, 87, rfl⟩
abbrev main_v38 : Ref sig .tc := ⟨.hbm, 88, rfl⟩
abbrev main_v39 : Ref sig .tc := ⟨.hbm, 89, rfl⟩
abbrev main_c_13 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_c_14 : Ref sig .tc := ⟨.hbm, 94, rfl⟩
abbrev main_v43 : Ref sig .tc := ⟨.hbm, 95, rfl⟩
abbrev main_v44 : Ref sig .tc := ⟨.hbm, 96, rfl⟩
abbrev main_c_15 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_16 : Ref sig .tc := ⟨.hbm, 108, rfl⟩
abbrev main_v55 : Ref sig .tc := ⟨.hbm, 109, rfl⟩
abbrev main_cst_17 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_18 : Ref sig .tc := ⟨.hbm, 114, rfl⟩
abbrev main_v59 : Ref sig .tc := ⟨.hbm, 115, rfl⟩
abbrev main_cst_19 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_20 : Ref sig .tc := ⟨.hbm, 120, rfl⟩
abbrev main_call3_v0 : Ref sig .tc := ⟨.hbm, 121, rfl⟩
abbrev main_call3_v1 : Ref sig .tc := ⟨.hbm, 122, rfl⟩
abbrev main_v63 : Ref sig .tc := ⟨.hbm, 123, rfl⟩
abbrev main_cst_21 : Ref sig .tc := ⟨.hbm, 124, rfl⟩
abbrev main_v64 : Ref sig .tc := ⟨.hbm, 125, rfl⟩
abbrev main_cst_22 : Ref sig .tc := ⟨.hbm, 126, rfl⟩
abbrev main_v65 : Ref sig .tc := ⟨.hbm, 127, rfl⟩

abbrev nD : Nat := 1
abbrev τ : Topo := Topo.v7x

variable {F : FTy → Type} [FloatOps F]

class Facts₀ : Prop where
  shapeCasts_S64x1x512x512_S64x512x512 : S64x1x512x512.ShapeCasts S64x512x512
  reducesTo_S64x512x512_S64_d1_2 : S64x512x512.ReducesTo [1, 2] S64
  h_S_ : 0 < S_.numel
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x512x512_0_1_2 : S64x1x1.BroadcastsInDim S64x512x512 (![0, 1, 2] : Fin 3 → Fin S64x512x512.rank)
  slices_S64x12x2_S64x12x1_0_0_0 : S64x12x2.Slices ![0, 0, 0] S64x12x1
  shapeCasts_S64x12x1_S64x12 : S64x12x1.ShapeCasts S64x12
  slices_S64x12x2_S64x12x1_0_0_1 : S64x12x2.Slices ![0, 0, 1] S64x12x1
  bcast_S_S64x12 : S_.BroadcastsInDim S64x12 (![] : Fin 0 → Fin S64x12.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x12_0_1 : S64x1.BroadcastsInDim S64x12 (![0, 1] : Fin 2 → Fin S64x12.rank)
  bcast_S64x12_S64x12x1_0_1 : S64x12.BroadcastsInDim S64x12x1 (![0, 1] : Fin 2 → Fin S64x12x1.rank)
  concatenates_S64x12x1_S64x12x1_S64x12x1_S64x12x3_d2 : Shape.Concatenates [S64x12x1, S64x12x1, S64x12x1] S64x12x3 2
  reducesTo_S64x12_S64_d1 : S64x12.ReducesTo [1] S64
  bcast_S_S64 : S_.BroadcastsInDim S64 (![] : Fin 0 → Fin S64.rank)
  reducesTo_S64_S_d0 : S64.ReducesTo [0] S_
  gather_S64x512x512_S64x12x3_S64x12_n_012_n_n_012_2_111_wf : GatherDims.WF S64x512x512 S64x12x3 S64x12 [] [0, 1, 2] [] [0, 1, 2] [] 2 ![1, 1, 1]

variable [Facts₀]

def gather_S64x512x512_S64x12x3_S64x12_n_012_n_n_012_2_111 : GatherDims S64x512x512 S64x12x3 S64x12 where
  offsetDims := []
  collapsedSliceDims := [0, 1, 2]
  operandBatchingDims := []
  startIndicesBatchingDims := []
  startIndexMap := [0, 1, 2]
  indexVectorDim := 2
  sliceSizes := ![1, 1, 1]
  wf := gather_S64x512x512_S64x12x3_S64x12_n_012_n_n_012_2_111_wf

class Facts : Prop extends Facts₀ where

variable [Facts]
-- ==== Proof.Spec.lean ====
/-
  The normalized-scanpath-saliency score, as plain functions over literal index types.

  One sample is an image `x : Fin 512 → Fin 512 → EReal` and twelve fixation coordinates `c f 0` (column) and
  `c f 1` (row). The image is standardized, `(x − mean) / (√var + ε)` with the unbiased variance, read at each
  fixation's truncated and clipped pixel, and the readings of the fixations that fell inside the image are averaged;
  the score is the mean of the 64 samples' averages.

  Two arrangements of the same number are stated side by side. `sampleK` sums the image lanes first, takes the
  variance as `(Σx² − (Σx)²/N) / (N−1)`, and reads a pixel as a contraction with a one-hot row and a one-hot
  column over sixteen slots of which the last four are padding with mask zero. `sampleR` takes the variance as
  `Σ(x − mean)² / (N − 1)` and reads the pixel directly over the twelve fixations. `Math.lean` proves them equal
  on finite images.
-/
import Idealize.ShloMosaic.PureOps.Ideal
import Idealize.ShloMosaic.Lib.ValueIdx

noncomputable section

namespace Cert.NSS

open Idealize.ShloMosaic

/-! ## The float literals, as the extended reals their binary32 words denote -/

/-- 262144 = 512 · 512, the number of pixels. -/
abbrev cN : EReal := Ideal.ofBits .f32 0x48800000#32
/-- 262143, the unbiased variance's divisor as the first arrangement spells it. -/
abbrev cN1 : EReal := Ideal.ofBits .f32 0x487FFFC0#32
/-- The ε added to the standard deviation (the binary32 nearest 1e-8). -/
abbrev cEps : EReal := Ideal.ofBits .f32 0x322BCC77#32
abbrev cZero : EReal := Ideal.ofBits .f32 0x00000000#32
abbrev cOne : EReal := Ideal.ofBits .f32 0x3F800000#32
abbrev c64 : EReal := Ideal.ofBits .f32 0x42800000#32

/-! ## Standardizing one image -/

abbrev Img := Fin 512 → Fin 512 → EReal

/-- The sum of an image's entries. -/
def total (x : Img) : EReal := ∑ h : Fin 512, ∑ w : Fin 512, x h w

def mean (x : Img) : EReal := Ideal.div (total x) cN

/-- The unbiased variance from the sum of squares and the squared sum. -/
def varK (x : Img) : EReal :=
  Ideal.div (total (fun h w => x h w * x h w) - Ideal.div (total x * total x) cN) cN1

/-- The unbiased variance from the centred squares. -/
def varR (x : Img) : EReal :=
  Ideal.div (total (fun h w => (x h w - mean x) * (x h w - mean x))) (cN - 1)

/-- The image standardized with a given variance `v`. -/
def znorm (x : Img) (v : EReal) : Img := fun h w => Ideal.div (x h w - mean x) (Ideal.sqrt v + cEps)

def pnK (x : Img) : Img := znorm x (varK x)
def pnR (x : Img) : Img := znorm x (varR x)

/-! ## Fixations -/

/-- An unsigned integer word as an extended real. -/
def u2f {w : Nat} (b : BitVec w) : EReal := ((b.toNat : ℝ) : EReal)

/-- Twelve slots padded to sixteen with `z`. -/
def pad16 {α : Type} (z : α) (g : Fin 12 → α) (f : Fin 16) : α := if h : f.val < 12 then g ⟨f.val, h⟩ else z

/-- Slot `f`'s one-hot vector over 512 positions: 1 at the slot's index, 0 elsewhere (padding slots point at 0). -/
def oneHot (idx : Fin 12 → BitVec 32) (f : Fin 16) (k : Fin 512) : EReal :=
  u2f (IntOp.cmpi .eq (BitVec.ofNat 32 k.val) (pad16 0#32 idx f))

/-- The validity mask over sixteen slots (padding slots 0). -/
def mask16 (vb : Fin 12 → BitVec 1) (f : Fin 16) : EReal := u2f (pad16 0#1 vb f)

/-- The masked mean from its numerator and its count: `numer / max(cnt, 1)` when a fixation counted, else 0. -/
def finish (numer cnt : EReal) : EReal :=
  Scalar.select (Ideal.cmp .ogt cnt cZero) (Ideal.div numer (max cnt cOne)) cZero

/-- One sample, first arrangement: a pixel read as `Σ_w (Σ_h roh f h · pn h w) · coh f w`, sixteen slots. -/
def perK (pn : Img) (roh coh : Fin 16 → Fin 512 → EReal) (vm : Fin 16 → EReal) : EReal :=
  finish (∑ f : Fin 16, (∑ w : Fin 512, (∑ h : Fin 512, roh f h * pn h w) * coh f w) * vm f) (∑ f : Fin 16, vm f)

/-- The pixel coordinate an index word names (words below 512 name themselves). -/
def rowOf (v : BitVec 32) : Fin 512 := ⟨v.toNat % 512, Nat.mod_lt _ (by norm_num)⟩

/-- One sample, second arrangement: the pixel read directly, twelve slots. -/
def perR (pn : Img) (py px : Fin 12 → BitVec 32) (vb : Fin 12 → BitVec 1) : EReal :=
  finish (∑ f : Fin 12, pn (rowOf (py f)) (rowOf (px f)) * u2f (vb f)) (∑ f : Fin 12, u2f (vb f))

/-- An index word clipped into 0 … 511 (signed). -/
def clip511 (v : BitVec 32) : BitVec 32 := IntOp.minsi 511#32 (IntOp.maxsi 0#32 v)

/-- Whether a fixation's truncated coordinates lie inside the image. -/
def inRange (px py : BitVec 32) : BitVec 1 :=
  IntOp.andi (IntOp.andi (IntOp.andi (IntOp.cmpi .sge px 0#32) (IntOp.cmpi .slt px 512#32)) (IntOp.cmpi .sge py 0#32))
    (IntOp.cmpi .slt py 512#32)

abbrev Crd := Fin 12 → Fin 2 → EReal

/-- A fixation's column and row, truncated toward zero to a signed 32-bit word. -/
def pxRaw (c : Crd) (f : Fin 12) : BitVec 32 := Ideal.fptosi 32 (c f 0)
def pyRaw (c : Crd) (f : Fin 12) : BitVec 32 := Ideal.fptosi 32 (c f 1)

def sampleK (x : Img) (c : Crd) : EReal :=
  perK (pnK x) (oneHot fun f => clip511 (pyRaw c f)) (oneHot fun f => clip511 (pxRaw c f))
    (mask16 fun f => inRange (pxRaw c f) (pyRaw c f))

def sampleR (x : Img) (c : Crd) : EReal :=
  perR (pnR x) (fun f => clip511 (pyRaw c f)) (fun f => clip511 (pxRaw c f)) (fun f => inRange (pxRaw c f) (pyRaw c f))

/-! ## The batch -/

/-- The mean of the 64 samples' values, as a sum started from the zero word and divided by 64. -/
def tailMean (p : Fin 64 → EReal) : EReal := Ideal.div (cZero + ∑ b : Fin 64, p b) c64

/-- Sample `b`'s image, out of the `[64, 1, 512, 512]` array. -/
def imgOf (a0 : (⟨4, ![64, 1, 512, 512]⟩ : Shape).Idx → EReal) (b : Fin 64) : Img :=
  fun h w => a0 (ValueIdx.ix4 b 0 h w)

/-- Sample `b`'s coordinates, out of the `[64, 12, 2]` array. -/
def crdOf (a1 : (⟨3, ![64, 12, 2]⟩ : Shape).Idx → EReal) (b : Fin 64) : Crd :=
  fun f k => a1 (ValueIdx.ix3 b f k)

def resultK (a0 : (⟨4, ![64, 1, 512, 512]⟩ : Shape).Idx → EReal) (a1 : (⟨3, ![64, 12, 2]⟩ : Shape).Idx → EReal) : EReal :=
  tailMean fun b => sampleK (imgOf a0 b) (crdOf a1 b)

def resultR (a0 : (⟨4, ![64, 1, 512, 512]⟩ : Shape).Idx → EReal) (a1 : (⟨3, ![64, 12, 2]⟩ : Shape).Idx → EReal) : EReal :=
  tailMean fun b => sampleR (imgOf a0 b) (crdOf a1 b)

end Cert.NSS

end
-- ==== Proof.Consts.lean ====
/-
  The float literals of the two programs as the reals their binary32 words denote, evaluated once.
-/
import proofs.«105859_j53317724012633_2_alg».proof.Proof.Spec

noncomputable section

namespace Cert.NSS

open Idealize.ShloMosaic

theorem cZero_eq : cZero = 0 := by
  simp [Ideal.ofBits, Ideal.ieee]

theorem cOne_eq : cOne = 1 := by
  simp [Ideal.ofBits, Ideal.ieee, -EReal.coe_mul]; norm_num

/-- The word 0x48800000 is 2^18 = 262144. -/
theorem cN_eq : cN = ((262144 : ℝ) : EReal) := by
  simp [Ideal.ofBits, Ideal.ieee, -EReal.coe_mul]; norm_num

/-- The word 0x487FFFC0 is 262143 (exactly representable: it is below 2^24). -/
theorem cN1_eq : cN1 = ((262143 : ℝ) : EReal) := by
  simp [Ideal.ofBits, Ideal.ieee, -EReal.coe_mul]; norm_num

theorem c64_eq : c64 = ((64 : ℝ) : EReal) := by
  simp [Ideal.ofBits, Ideal.ieee, -EReal.coe_mul]; norm_num

/-- The ε word denotes a positive real. -/
theorem cEps_pos : ∃ e : ℝ, 0 < e ∧ cEps = (e : EReal) := by
  refine ⟨_, ?_, by simp [Ideal.ofBits, Ideal.ieee, -EReal.coe_mul]; rfl⟩
  norm_num

/-- 262144 − 1 = 262143 on the extended reals. -/
theorem cN_sub_one : cN - 1 = cN1 := by
  rw [cN_eq, cN1_eq, ← EReal.coe_one, ← EReal.coe_sub]; norm_num

/-- The second arrangement's guard `262144 − 1 > 0` holds. -/
theorem cmp_normalizer : Ideal.cmp .ogt (cN - 1) cZero = 1 := by
  rw [cN_sub_one, cN1_eq, cZero_eq]
  have h : ((0 : ℝ) : EReal) < ((262143 : ℝ) : EReal) := by exact_mod_cast (by norm_num : (0 : ℝ) < 262143)
  simp only [Ideal.cmp, EReal.coe_zero] at h ⊢
  simp [h]

end Cert.NSS

end
-- ==== Proof.Math.lean ====
/-
  The two arrangements of one sample's score are the same number when the image is finite.

  Three facts. (1) Over the reals, with N = 512 · 512 and S the sum of the entries,
  Σ (x − S/N)² = Σ x² − S²/N: expand the square and use Σ 1 = N. Both variances are therefore the same real divided
  by N − 1, and the standardized images agree. This is the one place finiteness is used: on the extended reals the
  expansion of the square fails at an infinity. (2) A contraction with a one-hot vector reads one entry:
  Σ_k [k = k₀] · a k = a k₀ on every extended real, because 0 · a = 0 there. A clipped index word is below 512, so
  it names the position it is compared with. (3) A sum over sixteen slots whose last four carry mask 0 is the sum
  over the first twelve: a · 0 = 0.
-/
import proofs.«105859_j53317724012633_2_alg».proof.Proof.Consts

noncomputable section

namespace Cert.NSS

open Idealize.ShloMosaic

/-! ## Finite sums of reals inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem total_coe (r : Fin 512 → Fin 512 → ℝ) :
    total (fun h w => (r h w : EReal)) = ((∑ h : Fin 512, ∑ w : Fin 512, r h w : ℝ) : EReal) := by
  unfold total
  rw [coe_sum]
  refine Finset.sum_congr rfl fun h _ => ?_
  rw [coe_sum]

theorem div_cN (a : ℝ) : Ideal.div (a : EReal) cN = ((a / 262144 : ℝ) : EReal) := by
  rw [cN_eq, Ideal.div_coe (by norm_num), ← EReal.coe_mul]
  congr 1; ring

theorem div_cN1 (a : ℝ) : Ideal.div (a : EReal) cN1 = ((a / 262143 : ℝ) : EReal) := by
  rw [cN1_eq, Ideal.div_coe (by norm_num), ← EReal.coe_mul]
  congr 1; ring

/-! ## The variance identity -/

theorem var_identity (r : Fin 512 → Fin 512 → ℝ) :
    (∑ h : Fin 512, ∑ w : Fin 512,
        (r h w - (∑ h : Fin 512, ∑ w : Fin 512, r h w) / 262144) * (r h w - (∑ h : Fin 512, ∑ w : Fin 512, r h w) / 262144))
      = (∑ h : Fin 512, ∑ w : Fin 512, r h w * r h w)
          - ((∑ h : Fin 512, ∑ w : Fin 512, r h w) * (∑ h : Fin 512, ∑ w : Fin 512, r h w)) / 262144 := by
  generalize hS : (∑ h : Fin 512, ∑ w : Fin 512, r h w) = S
  have h1 : ∀ h w, (r h w - S / 262144) * (r h w - S / 262144)
      = r h w * r h w - 2 * (S / 262144) * r h w + (S / 262144) * (S / 262144) := by intros; ring
  simp only [h1, Finset.sum_add_distrib, Finset.sum_sub_distrib, ← Finset.mul_sum, Finset.sum_const, Finset.card_univ,
    Fintype.card_fin, nsmul_eq_mul, hS]
  push_cast; ring

theorem var_eq (r : Fin 512 → Fin 512 → ℝ) :
    varK (fun h w => (r h w : EReal)) = varR (fun h w => (r h w : EReal)) := by
  have hm : mean (fun h w => (r h w : EReal)) = (((∑ h : Fin 512, ∑ w : Fin 512, r h w) / 262144 : ℝ) : EReal) := by
    unfold mean; rw [total_coe, div_cN]
  unfold varK varR
  rw [hm, cN_sub_one]
  simp only [← EReal.coe_mul, ← EReal.coe_sub]
  rw [total_coe (fun h w => r h w * r h w), total_coe r,
    total_coe (fun h w => (r h w - (∑ h : Fin 512, ∑ w : Fin 512, r h w) / 262144)
      * (r h w - (∑ h : Fin 512, ∑ w : Fin 512, r h w) / 262144)),
    ← EReal.coe_mul, div_cN, ← EReal.coe_sub, div_cN1, div_cN1, var_identity]

/-- On a finite image the two standardizations are one. -/
theorem pn_eq (x : Img) (hx : ∀ h w, ∃ r : ℝ, x h w = (r : EReal)) : pnK x = pnR x := by
  choose r hr using hx
  obtain rfl : x = fun h w => (r h w : EReal) := funext fun h => funext fun w => hr h w
  unfold pnK pnR
  rw [var_eq]

/-! ## One-hot contractions -/

theorem clip511_lt (v : BitVec 32) : (clip511 v).toNat < 512 := by
  have h0 : (0#32 : BitVec 32).toInt = 0 := by decide
  have h511 : (511#32 : BitVec 32).toInt = 511 := by decide
  have hv := BitVec.toInt_eq_toNat_cond v
  unfold clip511 IntOp.minsi IntOp.maxsi
  split_ifs <;> simp only [BitVec.slt, decide_eq_true_eq, not_lt, h0, h511] at * <;>
    first | decide | (split at hv <;> omega)

theorem rowOf_val (v : BitVec 32) (hv : v.toNat < 512) : (rowOf v).val = v.toNat := Nat.mod_eq_of_lt hv

theorem u2f_cmpi_eq (k : Fin 512) (v : BitVec 32) (hv : v.toNat < 512) :
    u2f (IntOp.cmpi .eq (BitVec.ofNat 32 k.val) v) = if k = rowOf v then 1 else 0 := by
  have hk : (BitVec.ofNat 32 k.val).toNat = k.val := by
    rw [BitVec.toNat_ofNat]; exact Nat.mod_eq_of_lt (by have := k.isLt; omega)
  by_cases h : k = rowOf v
  · have e : BitVec.ofNat 32 k.val = v := BitVec.eq_of_toNat_eq (by rw [hk, h, rowOf_val v hv])
    rw [if_pos h, e]; simp [u2f, IntOp.cmpi]
  · have e : BitVec.ofNat 32 k.val ≠ v := fun e => h (Fin.ext (by rw [rowOf_val v hv, ← e, hk]))
    rw [if_neg h]; simp [u2f, IntOp.cmpi, e]

/-- A contraction with a one-hot vector reads the entry it points at. -/
theorem onehot_sum (v : BitVec 32) (hv : v.toNat < 512) (a : Fin 512 → EReal) :
    ∑ k : Fin 512, u2f (IntOp.cmpi .eq (BitVec.ofNat 32 k.val) v) * a k = a (rowOf v) := by
  rw [Finset.sum_eq_single (rowOf v)]
  · rw [u2f_cmpi_eq _ _ hv, if_pos rfl, one_mul]
  · intro k _ hk; rw [u2f_cmpi_eq _ _ hv, if_neg hk, zero_mul]
  · intro h; exact absurd (Finset.mem_univ _) h

/-! ## Sixteen slots, twelve of them real -/

theorem sum16 (g : Fin 16 → EReal) :
    ∑ f : Fin 16, g f = ∑ f : Fin 12, g (Fin.castAdd 4 f) + ∑ f : Fin 4, g (Fin.natAdd 12 f) :=
  Fin.sum_univ_add (a := 12) (b := 4) g

theorem pad16_castAdd {α : Type} (z : α) (g : Fin 12 → α) (f : Fin 12) : pad16 z g (Fin.castAdd 4 f) = g f := by
  unfold pad16
  rw [dif_pos (by simp : (Fin.castAdd 4 f).val < 12)]
  rfl

theorem pad16_natAdd {α : Type} (z : α) (g : Fin 12 → α) (f : Fin 4) : pad16 z g (Fin.natAdd 12 f) = z := by
  unfold pad16
  rw [dif_neg (by simp : ¬ (Fin.natAdd 12 f).val < 12)]

theorem u2f_zero1 : u2f (0#1) = 0 := by simp [u2f]

/-- The one-hot, sixteen-slot reading of the fixations is the direct twelve-slot reading. -/
theorem perK_eq_perR (pn : Img) (py px : Fin 12 → BitVec 32) (hpy : ∀ f, (py f).toNat < 512)
    (hpx : ∀ f, (px f).toNat < 512) (vb : Fin 12 → BitVec 1) :
    perK pn (oneHot py) (oneHot px) (mask16 vb) = perR pn py px vb := by
  unfold perK perR
  have hm : ∀ f : Fin 12, mask16 vb (Fin.castAdd 4 f) = u2f (vb f) := fun f => by unfold mask16; rw [pad16_castAdd]
  have hz : ∀ f : Fin 4, mask16 vb (Fin.natAdd 12 f) = 0 := fun f => by unfold mask16; rw [pad16_natAdd, u2f_zero1]
  refine congrArg₂ finish ?_ ?_
  · rw [sum16]
    have hpadz : ∑ f : Fin 4, (∑ w : Fin 512, (∑ h : Fin 512, oneHot py (Fin.natAdd 12 f) h * pn h w) * oneHot px (Fin.natAdd 12 f) w)
        * mask16 vb (Fin.natAdd 12 f) = 0 := Finset.sum_eq_zero fun f _ => by rw [hz f, mul_zero]
    rw [hpadz, add_zero]
    refine Finset.sum_congr rfl fun f _ => ?_
    have hrow : ∀ w, ∑ h : Fin 512, oneHot py (Fin.castAdd 4 f) h * pn h w = pn (rowOf (py f)) w := fun w => by
      unfold oneHot; rw [pad16_castAdd]; exact onehot_sum (py f) (hpy f) fun h => pn h w
    have hcol : ∑ w : Fin 512, pn (rowOf (py f)) w * oneHot px (Fin.castAdd 4 f) w = pn (rowOf (py f)) (rowOf (px f)) := by
      unfold oneHot; rw [pad16_castAdd]
      simp only [mul_comm (pn (rowOf (py f)) _)]
      exact onehot_sum (px f) (hpx f) fun w => pn (rowOf (py f)) w
    simp only [hrow]
    rw [hcol, hm]
  · rw [sum16]
    have hpadz : ∑ f : Fin 4, mask16 vb (Fin.natAdd 12 f) = 0 := Finset.sum_eq_zero fun f _ => hz f
    rw [hpadz, add_zero]
    exact Finset.sum_congr rfl fun f _ => hm f

/-- One sample: on a finite image the two arrangements give the same score. -/
theorem sample_eq (x : Img) (c : Crd) (hx : ∀ h w, ∃ r : ℝ, x h w = (r : EReal)) : sampleK x c = sampleR x c := by
  unfold sampleK sampleR
  rw [perK_eq_perR _ _ _ (fun f => clip511_lt _) (fun f => clip511_lt _), pn_eq x hx]

/-- The batch: on finite images the two results are one number. -/
theorem result_eq (a0 : (⟨4, ![64, 1, 512, 512]⟩ : Shape).Idx → EReal) (a1 : (⟨3, ![64, 12, 2]⟩ : Shape).Idx → EReal)
    (h0 : ∀ i, ∃ r : ℝ, a0 i = (r : EReal)) : resultK a0 a1 = resultR a0 a1 := by
  unfold resultK resultR
  refine congrArg tailMean (funext fun b => ?_)
  exact sample_eq _ _ fun h w => h0 _

end Cert.NSS

end
-- ==== Proof.Finite.lean ====
/-
  The precondition says every entry of both inputs is a real number.

  The predicate is `jnp.all(|x| < +∞)` of each input, conjoined. An `and`-reduction that came out 1 met only 1s,
  so every entry satisfies `max x (−x) < ⊤` on the extended reals, which excludes both infinities.
-/
import proofs.«105859_j53317724012633_2_alg».proof.Pre_finite_inputs
import Idealize.ShloMosaic.PureOps.Ideal
import Idealize.ShloMosaic.Lib.ValueIdx
import Idealize.ShloMosaic.Lib.ReduceAll

noncomputable section

namespace Cert.NSS

open Idealize.ShloMosaic

instance : Subsingleton Cert.Pre_finite_inputs.S_.Idx := ⟨fun a b => funext fun d => d.elim0⟩

/-- The binary32 word of +∞ is the top of the extended reals. -/
theorem inf_word : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

theorem finite_of_pre [Cert.Pre_finite_inputs.Facts]
    (a0 : FVec Ideal Cert.Pre_finite_inputs.S64x1x512x512 .f32) (a1 : FVec Ideal Cert.Pre_finite_inputs.S64x12x2 .f32)
    (h : Cert.Pre_finite_inputs.fn (F := Ideal) a0 a1 = fun _ => 1#1) : ∀ i, ∃ r : ℝ, a0 i = (r : EReal) := by
  intro i
  have h0 := congrFun h ValueIdx.ix0
  dsimp only [Cert.Pre_finite_inputs.fn] at h0
  obtain ⟨h1, -⟩ := IntOp.andi_eq_one.1 h0
  have h2 := Host.reduce_andi_all _ _ _ _ _ h1 i
  have h3 : Ideal.cmp .olt (max (a0 i) (-(a0 i))) (Ideal.ofBits .f32 0x7F800000#32) = 1#1 := h2
  rw [inf_word] at h3
  have h4 : max (a0 i) (-(a0 i)) < ⊤ := by
    by_contra hn
    simp [Ideal.cmp, hn] at h3
  exact real_of_abs_lt_top _ h4

end Cert.NSS

end
-- ==== Proof.KerArrays.lean ====
/-
  The four arrays the kernel's grid reads, as the host operations before it leave them: each is a short chain of
  layout and integer operations applied to the two argument arrays. The chains are named stage by stage, and each
  array is then read at an index: the image array is the first argument with its unit axis dropped; a one-hot array
  has, at slot f and position k, the word "k equals the slot's clipped coordinate" as a number; the mask has the
  word "both truncated coordinates lie inside the image"; slots twelve to fifteen are padding, with coordinate
  zero and mask zero.
-/
import proofs.«105859_j53317724012633_2_alg».proof.Proof.Gen.KernelIdeal.Frame
import proofs.«105859_j53317724012633_2_alg».proof.Proof.Spec
import Idealize.ShloMosaic.Lib.Pipeline.Value
import Idealize.ShloMosaic.Lib.KernelVsHost
import Idealize.ShloMosaic.Lib.IdealHost

noncomputable section

namespace Cert.KernelIdeal.Ker

open Cert.KernelIdeal Cert.KernelIdeal.Gen Idealize.ShloMosaic Idealize.ShloMosaic.TcCoe Idealize.SL.Sem
open Idealize.ShloMosaic.ValueIdx

section Stages
variable {F : FTy → Type} [FloatOps F]

/-- The fixations' coordinate `k` (0 the column, 1 the row) of every sample, truncated to a signed word. -/
def crdX (a1 : S64x12x2.Idx → Elt F .f32) : IVec S64x12 32 :=
  fptosi 32 (shapeCast S64x12 (extractStridedSlice S64x12x1 ![0, 0, 0] a1 slices_S64x12x2_S64x12x1_0_0_0) shapeCasts_S64x12x1_S64x12)
def crdY (a1 : S64x12x2.Idx → Elt F .f32) : IVec S64x12 32 :=
  fptosi 32 (shapeCast S64x12 (extractStridedSlice S64x12x1 ![0, 0, 1] a1 slices_S64x12x2_S64x12x1_0_0_1) shapeCasts_S64x12x1_S64x12)

/-- A coordinate word clipped into 0 … 511: the larger of it and 0, then the smaller of that and 511. -/
def clipV (v : IVec S64x12 32) : IVec S64x12 32 :=
  minsi (broadcastInDim S64x12 ![] bcast_S_S64x12 (constantI S_ 32 511#32))
    (maxsi (broadcastInDim S64x12 ![] bcast_S_S64x12 (constantI S_ 32 0#32)) v)

/-- Twelve slots padded to sixteen with the scalar `z`. -/
def padV {w : Nat} (v : IVec S64x12 w) (z : IVec S_ w) : IVec S64x16 w :=
  pad S64x16 ![0, 0] ![0, 4] ![0, 0] v z pads_S64x12_S64x16_000_040 h_S_

/-- Both truncated coordinates lie in 0 … 511. -/
def validV (a1 : S64x12x2.Idx → Elt F .f32) : IVec S64x12 1 :=
  andi (andi (andi (cmpi .sge (crdX a1) (broadcastInDim S64x12 ![] bcast_S_S64x12 (constantI S_ 32 0#32)))
        (cmpi .slt (crdX a1) (broadcastInDim S64x12 ![] bcast_S_S64x12 (constantI S_ 32 512#32))))
      (cmpi .sge (crdY a1) (broadcastInDim S64x12 ![] bcast_S_S64x12 (constantI S_ 32 0#32))))
    (cmpi .slt (crdY a1) (broadcastInDim S64x12 ![] bcast_S_S64x12 (constantI S_ 32 512#32)))

/-- The one-hot array of sixteen index words per sample over 512 positions. -/
def hotV (idx : IVec S64x16 32) : FVec F S64x16x512 .f32 :=
  uitofp .f32 (cmpi .eq (iotaInDim S64x16x512 32 2)
    (broadcastInDim S64x16x512 ![0, 1, 2] bcast_S64x16x1_S64x16x512_0_1_2
      (broadcastInDim S64x16x1 ![0, 1] bcast_S64x16_S64x16x1_0_1 idx)))

/-- The padding value of the mask: the word "0 differs from 0". -/
def maskPad : IVec S_ 1 := cmpi .ne (constantI S_ 32 0#32) (broadcastInDim S_ ![] bcast_S_S_ (constantI S_ 32 0#32))

/-- The validity mask over sixteen slots, as numbers, with a trailing unit axis. -/
def maskV (a1 : S64x12x2.Idx → Elt F .f32) : FVec F S64x16x1 .f32 :=
  broadcastInDim S64x16x1 ![0, 1] bcast_S64x16_S64x16x1_0_1 (uitofp .f32 (padV (validV a1) maskPad))

end Stages

section Arrays
variable {F : FTy → Type} [FloatOps F]
variable (m : (ℓ : Loc nD τ sig) → Buf (Elt F) ℓ)

/-- The image array the grid reads is the first argument with its unit axis dropped. -/
theorem V_v0 (c : Dev nD) : (V m c main_v0 : S64x512x512.Idx → Elt F .f32)
    = shapeCast S64x512x512 (m ((c : Thread nD τ).loc main_arg0)) shapeCasts_S64x1x512x512_S64x512x512 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

set_option maxHeartbeats 1000000 in
/-- The mask array is the validity words of the second argument's coordinates, padded, as numbers. -/
theorem V_v24 (c : Dev nD) : (V m c main_v24 : S64x16x1.Idx → Elt F .f32) = maskV (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

set_option maxHeartbeats 1000000 in
/-- The first one-hot array is over the clipped ROW coordinates. -/
theorem V_v29 (c : Dev nD) : (V m c main_v29 : S64x16x512.Idx → Elt F .f32)
    = hotV (padV (clipV (crdY (m ((c : Thread nD τ).loc main_arg1)))) (constantI S_ 32 0#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

set_option maxHeartbeats 1000000 in
/-- The second one-hot array is over the clipped COLUMN coordinates. -/
theorem V_v34 (c : Dev nD) : (V m c main_v34 : S64x16x512.Idx → Elt F .f32)
    = hotV (padV (clipV (crdX (m ((c : Thread nD τ).loc main_arg1)))) (constantI S_ 32 0#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  rfl

end Arrays

/-! ## The stages read at an index -/

section Read

theorem crdX_apply (a1 : S64x12x2.Idx → Elt Ideal .f32) (b : Fin 64) (f : Fin 12) :
    crdX a1 (ix2 b f) = NSS.pxRaw (NSS.crdOf a1 b) f := by
  show Ideal.fptosi 32 (shapeCast S64x12 (extractStridedSlice S64x12x1 ![0, 0, 0] a1 slices_S64x12x2_S64x12x1_0_0_0) shapeCasts_S64x12x1_S64x12 (ix2 b f))
    = Ideal.fptosi 32 (a1 (ix3 b f 0))
  refine congrArg (Ideal.fptosi 32) ?_
  refine (shapeCast_apply _ _ (ix2 b f) (ix3 b f 0) (by
    rw [Shape.rowMajor_val_three, Shape.rowMajor_val_two]
    show (b.val * 12 + f.val) * 1 + 0 = b.val * 12 + f.val
    omega)).trans ?_
  exact extractStridedSlice_apply _ _ _ _ (ix3 b f 0) (fun a => match a with
    | ⟨0, _⟩ => by show b.val = 0 + b.val; omega
    | ⟨1, _⟩ => by show f.val = 0 + f.val; omega
    | ⟨2, _⟩ => by show 0 = 0 + 0; omega)

theorem crdY_apply (a1 : S64x12x2.Idx → Elt Ideal .f32) (b : Fin 64) (f : Fin 12) :
    crdY a1 (ix2 b f) = NSS.pyRaw (NSS.crdOf a1 b) f := by
  show Ideal.fptosi 32 (shapeCast S64x12 (extractStridedSlice S64x12x1 ![0, 0, 1] a1 slices_S64x12x2_S64x12x1_0_0_1) shapeCasts_S64x12x1_S64x12 (ix2 b f))
    = Ideal.fptosi 32 (a1 (ix3 b f 1))
  refine congrArg (Ideal.fptosi 32) ?_
  refine (shapeCast_apply _ _ (ix2 b f) (ix3 b f 0) (by
    rw [Shape.rowMajor_val_three, Shape.rowMajor_val_two]
    show (b.val * 12 + f.val) * 1 + 0 = b.val * 12 + f.val
    omega)).trans ?_
  exact extractStridedSlice_apply _ _ _ _ (ix3 b f 1) (fun a => match a with
    | ⟨0, _⟩ => by show b.val = 0 + b.val; omega
    | ⟨1, _⟩ => by show f.val = 0 + f.val; omega
    | ⟨2, _⟩ => by show 1 = 1 + 0; omega)

theorem clipV_apply (v : IVec S64x12 32) (j : S64x12.Idx) : clipV v j = NSS.clip511 (v j) := rfl

theorem validV_apply {F : FTy → Type} [FloatOps F] (a1 : S64x12x2.Idx → Elt F .f32) (j : S64x12.Idx) :
    validV a1 j = NSS.inRange (crdX a1 j) (crdY a1 j) := rfl

/-- The padded array at slot `f`: the operand below twelve, the padding value from twelve on. -/
theorem padV_apply {w : Nat} (v : IVec S64x12 w) (z : IVec S_ w) (b : Fin 64) (f : Fin 16) :
    padV v z (ix2 b f) = NSS.pad16 (z ix0) (fun f' => v (ix2 b f')) f := by
  unfold NSS.pad16 padV
  split
  · rename_i h
    exact pad_apply_of_inside _ _ _ _ _ _ _ (ix2 b f) (ix2 b ⟨f.val, h⟩) (fun a => match a with
      | ⟨0, _⟩ => by show b.val = 0 + b.val * (0 + 1); omega
      | ⟨1, _⟩ => by show f.val = 0 + f.val * (0 + 1); omega)
  · rename_i h
    refine (pad_apply_of_not_inside _ _ _ _ _ _ _ (ix2 b f) (1 : Fin 2) ?_).trans (congrArg z (eq_ix0 _))
    show ¬(0 ≤ f.val ∧ (f.val - 0) % (0 + 1) = 0 ∧ (f.val - 0) / (0 + 1) < 12)
    omega

/-- The one-hot array at slot `f`, position `k`: the word "k is the slot's index" as a number. -/
theorem hotV_apply (idx : IVec S64x16 32) (b : Fin 64) (f : Fin 16) (k : Fin 512) :
    (hotV idx : FVec Ideal S64x16x512 .f32) (ix3 b f k) = NSS.u2f (IntOp.cmpi .eq (BitVec.ofNat 32 k.val) (idx (ix2 b f))) := by
  show NSS.u2f (IntOp.cmpi .eq (BitVec.ofNat 32 k.val)
      (broadcastInDim S64x16x512 ![0, 1, 2] bcast_S64x16x1_S64x16x512_0_1_2
        (broadcastInDim S64x16x1 ![0, 1] bcast_S64x16_S64x16x1_0_1 idx) (ix3 b f k))) = _
  refine congrArg (fun x => NSS.u2f (IntOp.cmpi .eq (BitVec.ofNat 32 k.val) x)) ?_
  refine (broadcastInDim_apply _ _ _ (ix3 b f k) (ix3 b f 0) (fun a => match a with
    | ⟨0, _⟩ => rfl
    | ⟨1, _⟩ => rfl
    | ⟨2, _⟩ => rfl)).trans ?_
  exact broadcastInDim_apply _ _ _ (ix3 b f 0) (ix2 b f) (fun a => match a with
    | ⟨0, _⟩ => rfl
    | ⟨1, _⟩ => rfl)

theorem maskV_apply (a1 : S64x12x2.Idx → Elt Ideal .f32) (b : Fin 64) (f : Fin 16) :
    maskV a1 (ix3 b f 0) = NSS.u2f (padV (validV a1) maskPad (ix2 b f)) := by
  show broadcastInDim S64x16x1 ![0, 1] bcast_S64x16_S64x16x1_0_1 (uitofp .f32 (padV (validV a1) maskPad)) (ix3 b f 0) = _
  exact broadcastInDim_apply _ _ _ (ix3 b f 0) (ix2 b f) (fun a => match a with
    | ⟨0, _⟩ => rfl
    | ⟨1, _⟩ => rfl)

end Read

/-! ## The four arrays at an index, in the specification's words -/

section AtIndex
variable (m : (ℓ : Loc nD τ sig) → Buf (Elt Ideal) ℓ)

theorem v0_apply (c : Dev nD) (b : Fin 64) (h w : Fin 512) :
    (V m c main_v0 : S64x512x512.Idx → Elt Ideal .f32) (ix3 b h w) = NSS.imgOf (m ((c : Thread nD τ).loc main_arg0)) b h w := by
  rw [V_v0]
  exact shapeCast_apply _ _ (ix3 b h w) (ix4 b 0 h w) (by
    rw [Shape.rowMajor_val_four, Shape.rowMajor_val_three]
    show ((b.val * 1 + 0) * 512 + h.val) * 512 + w.val = (b.val * 512 + h.val) * 512 + w.val
    omega)

theorem v29_apply (c : Dev nD) (b : Fin 64) (f : Fin 16) (k : Fin 512) :
    (V m c main_v29 : S64x16x512.Idx → Elt Ideal .f32) (ix3 b f k)
      = NSS.oneHot (fun f' => NSS.clip511 (NSS.pyRaw (NSS.crdOf (m ((c : Thread nD τ).loc main_arg1)) b) f')) f k := by
  rw [V_v29, hotV_apply, padV_apply]
  unfold NSS.oneHot
  refine congrArg (fun g => NSS.u2f (IntOp.cmpi .eq (BitVec.ofNat 32 k.val) (NSS.pad16 0#32 g f))) (funext fun f' => ?_)
  rw [clipV_apply, crdY_apply]

theorem v34_apply (c : Dev nD) (b : Fin 64) (f : Fin 16) (k : Fin 512) :
    (V m c main_v34 : S64x16x512.Idx → Elt Ideal .f32) (ix3 b f k)
      = NSS.oneHot (fun f' => NSS.clip511 (NSS.pxRaw (NSS.crdOf (m ((c : Thread nD τ).loc main_arg1)) b) f')) f k := by
  rw [V_v34, hotV_apply, padV_apply]
  unfold NSS.oneHot
  refine congrArg (fun g => NSS.u2f (IntOp.cmpi .eq (BitVec.ofNat 32 k.val) (NSS.pad16 0#32 g f))) (funext fun f' => ?_)
  rw [clipV_apply, crdX_apply]

theorem v24_apply (c : Dev nD) (b : Fin 64) (f : Fin 16) :
    (V m c main_v24 : S64x16x1.Idx → Elt Ideal .f32) (ix3 b f 0)
      = NSS.mask16 (fun f' => NSS.inRange (NSS.pxRaw (NSS.crdOf (m ((c : Thread nD τ).loc main_arg1)) b) f')
          (NSS.pyRaw (NSS.crdOf (m ((c : Thread nD τ).loc main_arg1)) b) f')) f := by
  rw [V_v24, maskV_apply, padV_apply]
  unfold NSS.mask16
  refine congrArg (fun g => NSS.u2f (NSS.pad16 0#1 g f)) (funext fun f' => ?_)
  rw [validV_apply, crdX_apply, crdY_apply]

end AtIndex

end Cert.KernelIdeal.Ker

end
-- ==== Proof.LibKeepdims3.lean ====
/-
  The keepdims layout moves of a rank-3 array [a, b, c], read at an index, at the extended reals: what a
  `sum(axis=-1, keepdims=True)` followed by a `sum(axis=1, keepdims=True)` and a `sum(axis=0, keepdims=True)` lowers to,
  one operation at a time, over arbitrary extents.

  * the sum along the lanes of an [a, b, c] array at (p, q) is `∑ k, v (p, q, k)` (`laneSum`);
  * an [a, b] array viewed as [a, b, 1] reads at (p, q, 0) the array at (p, q) (`addLaneUnit`);
  * the sum along the middle axis of an [a, b, 1] array at (p, 0) is `∑ q, v (p, q, 0)` (`rowSum`);
  * an [a, 1] array viewed as [a, 1, 1] reads at (p, 0, 0) the array at (p, 0) (`addLaneUnit` again);
  * the sum along the leading axis of an [a, 1, 1] array at (0, 0) is `∑ p, v (p, 0, 0)` (`leadSum`);
  * an [a, 1, 1] array spread over [a, b, c] reads at (p, q, k) the array at (p, 0, 0) (`spread`);
  * an [a, 1, b, c] array viewed as [a, b, c] reads at (p, q, k) the array at (p, 0, q, k) (`dropMidUnit`).
-/
import Idealize.ShloMosaic.Lib.Pipeline.Value
import Idealize.ShloMosaic.Lib.ValueIdx
import Idealize.ShloMosaic.PureOps.Ideal.Laws

namespace Idealize.ShloMosaic.LibKeepdims3

open Idealize.ShloMosaic Idealize.ShloMosaic.ValueIdx

variable {a b c : Nat} {φ : FTy}

/-- The sum along the lanes (the last axis) of an [a, b, c] array, at row (p, q): the sum of that row's entries. -/
theorem laneSum (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) := by
  refine (Ideal.multiReduction_add_single v acc h hφ hacc (ix2 p q)).trans ?_
  refine Finset.sum_congr rfl fun k _ => congrArg v ?_
  funext x
  match x with
  | ⟨0, _⟩ => rfl
  | ⟨1, _⟩ => rfl
  | ⟨2, _⟩ => rfl

/-- The sum along the middle axis of an [a, b, 1] array, at (p, 0): the sum over the middle coordinate. -/
theorem rowSum (v : FVec Ideal ⟨3, ![a, b, 1]⟩ φ) (acc : BitVec φ.bits)
    (h : (⟨3, ![a, b, 1]⟩ : Shape).Reduces [1] ⟨2, ![a, 1]⟩) (hφ : FKind.Formats φ) (hacc : acc = FKind.add.neutral φ hφ)
    (p : Fin a) :
    multiReduction .add [1] ⟨2, ![a, 1]⟩ v acc h hφ hacc (ix2 p (0 : Fin 1)) = ∑ q : Fin b, v (ix3 p q (0 : Fin 1)) := by
  refine (Ideal.multiReduction_add_single v acc h hφ hacc (ix2 p (0 : Fin 1))).trans ?_
  refine Finset.sum_congr rfl fun k _ => congrArg v ?_
  funext x
  match x with
  | ⟨0, _⟩ => rfl
  | ⟨1, _⟩ => rfl
  | ⟨2, _⟩ => rfl

/-- The sum along the leading axis of an [a, 1, 1] array, at (0, 0): the sum over the leading coordinate. -/
theorem leadSum (v : FVec Ideal ⟨3, ![a, 1, 1]⟩ φ) (acc : BitVec φ.bits)
    (h : (⟨3, ![a, 1, 1]⟩ : Shape).Reduces [0] ⟨2, ![1, 1]⟩) (hφ : FKind.Formats φ) (hacc : acc = FKind.add.neutral φ hφ) :
    multiReduction .add [0] ⟨2, ![1, 1]⟩ v acc h hφ hacc (ix2 (0 : Fin 1) (0 : Fin 1)) = ∑ p : Fin a, v (ix3 p (0 : Fin 1) (0 : Fin 1)) := by
  refine (Ideal.multiReduction_add_single v acc h hφ hacc (ix2 (0 : Fin 1) (0 : Fin 1))).trans ?_
  refine Finset.sum_congr rfl fun k _ => congrArg v ?_
  funext x
  match x with
  | ⟨0, _⟩ => rfl
  | ⟨1, _⟩ => rfl
  | ⟨2, _⟩ => rfl

variable {α : Type}

/-- An [m, n] array viewed as [m, n, 1] reads at (p, q, 0) the array at (p, q). -/
theorem addLaneUnit {m n : Nat} (v : (⟨2, ![m, n]⟩ : Shape).Idx → α) (h : (⟨2, ![m, n]⟩ : Shape).ShapeCasts ⟨3, ![m, n, 1]⟩)
    (p : Fin m) (q : Fin n) :
    shapeCast ⟨3, ![m, n, 1]⟩ v h (ix3 p q (0 : Fin 1)) = v (ix2 p q) := by
  refine shapeCast_apply v h _ _ ?_
  rw [Shape.rowMajor_val_two, Shape.rowMajor_val_three]
  show p.val * n + q.val = (p.val * n + q.val) * 1 + 0
  omega

/-- An [a, 1, 1] array spread over [a, b, c] reads at (p, q, k) the array at (p, 0, 0). -/
theorem spread (v : (⟨3, ![a, 1, 1]⟩ : Shape).Idx → α) (h : (⟨3, ![a, 1, 1]⟩ : Shape).Broadcasts ⟨3, ![a, b, c]⟩)
    (ha : a ≠ 1) (p : Fin a) (q : Fin b) (k : Fin c) :
    broadcastTo ⟨3, ![a, b, c]⟩ v h (ix3 p q k) = v (ix3 p (0 : Fin 1) (0 : Fin 1)) := by
  refine broadcastTo_apply v h _ _ fun x => ?_
  match x with
  | ⟨0, _⟩ => show p.val = if a = 1 then 0 else p.val; rw [if_neg ha]
  | ⟨1, _⟩ => show 0 = if (1 : Nat) = 1 then 0 else q.val; rw [if_pos rfl]
  | ⟨2, _⟩ => show 0 = if (1 : Nat) = 1 then 0 else k.val; rw [if_pos rfl]

/-- An [a, 1, b, c] array viewed as [a, b, c] reads at (p, q, k) the array at (p, 0, q, k). -/
theorem dropMidUnit (v : (⟨4, ![a, 1, b, c]⟩ : Shape).Idx → α) (h : (⟨4, ![a, 1, b, c]⟩ : Shape).ShapeCasts ⟨3, ![a, b, c]⟩)
    (p : Fin a) (q : Fin b) (k : Fin c) :
    shapeCast ⟨3, ![a, b, c]⟩ v h (ix3 p q k) = v (ix4 p (0 : Fin 1) q k) := by
  refine shapeCast_apply v h _ _ ?_
  rw [Shape.rowMajor_val_three, Shape.rowMajor_val_four]
  show ((p.val * 1 + 0) * b + q.val) * c + k.val = (p.val * b + q.val) * c + k.val
  simp

end Idealize.ShloMosaic.LibKeepdims3
-- ==== Proof.PayStats.lean ====
/-
  The per-sample statistics of one block of four images, read at a sample.

  The kernel adds up a [4, 512, 512] block in two steps: along the lanes (the last axis), giving a [4, 512]
  array that is viewed as a column [4, 512, 1], and then along the rows of that column, giving [4, 1], viewed
  as [4, 1, 1].  At sample s the result is the sum of all 512 · 512 entries of image s, rows outermost:
  `Σ_h Σ_w x (s, h, w)` (`total_apply`).  The same two steps over a [4, 16, 1] column add up its sixteen
  entries (`colSum_apply`), and a [4, 1, 1] array spread over the block reads its own entry of the sample
  (`spread_apply`).
-/
import proofs.«105859_j53317724012633_2_alg».proof.Proof.Gen.KernelIdeal.Skeleton
import proofs.«105859_j53317724012633_2_alg».proof.Proof.Spec
import proofs.«105859_j53317724012633_2_alg».proof.Proof.LibKeepdims3

noncomputable section

namespace Cert.KernelIdeal.Pay

open Idealize.ShloMosaic Idealize.ShloMosaic.ValueIdx Idealize.ShloMosaic.LibKeepdims3
open Cert.KernelIdeal

/-- The lane sums of a block, then the sum of the column of lane sums: at sample `s` the total of image `s`. -/
theorem total_apply (v : FVec Ideal S4x512x512 .f32)
    (h1 : S4x512x512.Reduces [2] S4x512) (h2 : S4x512.ShapeCasts S4x512x1)
    (h3 : S4x512x1.Reduces [1] S4x1) (h4 : S4x1.ShapeCasts S4x1x1)
    (hφ : FKind.Formats .f32) (hacc : (0x00000000#32 : BitVec 32) = FKind.add.neutral .f32 hφ) (s : Fin 4) :
    shapeCast S4x1x1 (multiReduction (F := Ideal) .add [1] S4x1
        (shapeCast S4x512x1 (multiReduction (F := Ideal) .add [2] S4x512 v 0x00000000#32 h1 hφ hacc) h2)
        0x00000000#32 h3 hφ hacc) h4 (ix3 s 0 0)
      = NSS.total fun h w => v (ix3 s h w) := by
  refine (addLaneUnit _ h4 s 0).trans ?_
  refine (rowSum _ _ h3 hφ hacc s).trans ?_
  unfold NSS.total
  refine Finset.sum_congr rfl fun h _ => ?_
  refine (addLaneUnit _ h2 s h).trans ?_
  exact laneSum v _ h1 hφ hacc s h

/-- The sum of a [4, 16, 1] column over its sixteen rows, kept as [4, 1, 1]: at sample `s` the sum of the
    sample's sixteen entries. -/
theorem colSum_apply (v : FVec Ideal S4x16x1 .f32)
    (h3 : S4x16x1.Reduces [1] S4x1) (h4 : S4x1.ShapeCasts S4x1x1)
    (hφ : FKind.Formats .f32) (hacc : (0x00000000#32 : BitVec 32) = FKind.add.neutral .f32 hφ) (s : Fin 4) :
    shapeCast S4x1x1 (multiReduction (F := Ideal) .add [1] S4x1 v 0x00000000#32 h3 hφ hacc) h4 (ix3 s 0 0)
      = ∑ f : Fin 16, v (ix3 s f 0) := by
  refine (addLaneUnit _ h4 s 0).trans ?_
  exact rowSum v _ h3 hφ hacc s

/-- A [4, 1, 1] array spread over a [4, 512, 512] block reads, at (s, h, w), its entry of sample `s`. -/
theorem spread_apply (v : FVec Ideal S4x1x1 .f32) (hb : S4x1x1.Broadcasts S4x512x512) (s : Fin 4) (h w : Fin 512) :
    broadcastTo S4x512x512 v hb (ix3 s h w) = v (ix3 s 0 0) :=
  spread v hb (by decide) s h w

end Cert.KernelIdeal.Pay

end
-- ==== Proof.LibMatmul3.lean ====
/-
  A batched matrix product of rank-3 arrays read at an entry of the result, at the ideal values.  The
  left operand is [B, M, K], the right operand [B, K, N], the result [B, M, N]: the leading axis is a batch
  axis shared by both operands, the left operand is contracted on its last axis and the right operand on
  its middle axis.  Into a zero accumulator the product at (b, m, n) is the sum over the contracted
  coordinate of the products of the operands' entries of batch b:

      out[b, m, n] = Σ_c A[b, m, c] · R[b, c, n]      (`bmm_apply`).

  The two operand indices the contraction reads at (b, m, n) and c are (b, m, c) and (b, c, n)
  (`bmm_lhsIdx`, `bmm_rhsIdx`).
-/
import Idealize.ShloMosaic.PureOps.Ideal.Laws
import Idealize.ShloMosaic.Lib.ValueIdx

namespace LibMatmul3

open Idealize.ShloMosaic Idealize.ShloMosaic.ValueIdx

variable {B M K N : Nat} {φ₁ φ₂ : FTy}

/-- The dimension numbers of the batched product: batch axis 0 on both sides, the left operand contracted on
    axis 2, the right operand on axis 1. -/
abbrev bmmDims (w : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ :=
  ⟨[2], [1], [1], [2], [0], [0], w⟩

/-- The left operand's index at result index (b, m, n) and contraction coordinate c is (b, m, c). -/
theorem bmm_lhsIdx (w : DotDims.WF ⟨3, ![B, M, K]⟩ ⟨3, ![B, K, N]⟩ ⟨3, ![B, M, N]⟩ [2] [1] [1] [2] [0] [0])
    (b : Fin B) (m : Fin M) (n : Fin N) (c : Fin K) :
    (bmmDims w).lhsIdx (ix3 b m n) ((contrEquiv1 (bmmDims w) K rfl rfl).symm c) = ix3 b m c := by
  have c2 := contrEquiv1_symm_val (bmmDims w) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- The right operand's index at result index (b, m, n) and contraction coordinate c is (b, c, n). -/
theorem bmm_rhsIdx (w : DotDims.WF ⟨3, ![B, M, K]⟩ ⟨3, ![B, K, N]⟩ ⟨3, ![B, M, N]⟩ [2] [1] [1] [2] [0] [0])
    (b : Fin B) (m : Fin M) (n : Fin N) (c : Fin K) :
    (bmmDims w).rhsIdx (ix3 b m n) ((contrEquiv1 (bmmDims w) K rfl rfl).symm c) = ix3 b c n := by
  have c2 := contrEquiv1_symm_val (bmmDims w) K rfl rfl c
  funext ax; apply Fin.ext
  match ax with
  | ⟨0, _⟩ => simp [DotDims.rhsIdx]; rfl
  | ⟨1, _⟩ => simp [DotDims.rhsIdx]; exact c2
  | ⟨2, _⟩ => simp [DotDims.rhsIdx]; rfl

/-- The batched product into a zero accumulator, at (b, m, n): the sum over the contracted coordinate. -/
theorem bmm_apply (w : DotDims.WF ⟨3, ![B, M, K]⟩ ⟨3, ![B, K, N]⟩ ⟨3, ![B, M, N]⟩ [2] [1] [1] [2] [0] [0])
    (prec : Option ContractPrecision) (A : FVec Ideal ⟨3, ![B, M, K]⟩ φ₁) (R : FVec Ideal ⟨3, ![B, K, N]⟩ φ₂)
    (b : Fin B) (m : Fin M) (n : Fin N) :
    FloatOps.matmul (bmmDims w) prec A R (constant _ .f32 0x00000000#32) (ix3 b m n)
      = ∑ c : Fin K, A (ix3 b m c) * R (ix3 b c n) := by
  rw [Ideal.matmul_constant_zero_apply, ← Equiv.sum_comp (contrEquiv1 (bmmDims w) K rfl rfl).symm]
  refine Finset.sum_congr rfl fun c _ => ?_
  rw [bmm_lhsIdx w b m n c, bmm_rhsIdx w b m n c]

end LibMatmul3
-- ==== Proof.PayNorm.lean ====
/-
  The standardized block, read at a pixel.

  From a [4, 512, 512] block the kernel forms, per sample, the total `T` of the image and the total `Q` of its
  squares (each kept as a [4, 1, 1] array), the mean `T / N`, the variance `(Q − T·T / N) / (N − 1)`, its square
  root plus ε, and then spreads the mean and that denominator back over the block:
  `(x − mean) / (√var + ε)`.  Read at (s, h, w) this is the standardized image of sample `s` at pixel (h, w)
  (`pnBlock_apply`): every operation between the totals and the quotient is pointwise, so only the totals and
  the two spreads need a lemma.
-/
import proofs.«105859_j53317724012633_2_alg».proof.Proof.Gen.KernelIdeal.Skeleton
import proofs.«105859_j53317724012633_2_alg».proof.Proof.Spec
import proofs.«105859_j53317724012633_2_alg».proof.Proof.PayStats

noncomputable section

namespace Cert.KernelIdeal.Pay

open Idealize.ShloMosaic Idealize.ShloMosaic.ValueIdx
open Cert.KernelIdeal Cert.KernelIdeal.Gen

/-- The total of each image of a block, kept as a [4, 1, 1] array: lane sums, then the sum of their column. -/
def tot3 (v : FVec Ideal S4x512x512 .f32) : FVec Ideal S4x1x1 .f32 :=
  shapeCast S4x1x1 (multiReduction .add [1] S4x1
    (shapeCast S4x512x1 (multiReduction .add [2] S4x512 v 0x00000000#32 reduces_S4x512x512_S4x512 (.inl rfl) rfl)
      shapeCasts_S4x512_S4x512x1)
    0x00000000#32 reduces_S4x512x1_S4x1 (.inl rfl) rfl) shapeCasts_S4x1_S4x1x1

theorem tot3_apply (v : FVec Ideal S4x512x512 .f32) (s : Fin 4) :
    tot3 v (ix3 s 0 0) = NSS.total fun h w => v (ix3 s h w) :=
  total_apply v _ _ _ _ _ _ s

/-- The per-sample mean, as a [4, 1, 1] array. -/
def meanV (v : FVec Ideal S4x512x512 .f32) : FVec Ideal S4x1x1 .f32 :=
  divf (tot3 v) (broadcast S4x1x1 (Scalar.ofBits .f32 0x48800000#32))

/-- The per-sample unbiased variance from the total of squares and the squared total, as a [4, 1, 1] array. -/
def varV (v : FVec Ideal S4x512x512 .f32) : FVec Ideal S4x1x1 .f32 :=
  divf (subf (tot3 (mulf v v)) (divf (mulf (tot3 v) (tot3 v)) (broadcast S4x1x1 (Scalar.ofBits .f32 0x48800000#32))))
    (broadcast S4x1x1 (Scalar.ofBits .f32 0x487FFFC0#32))

/-- The block standardized sample by sample. -/
def pnBlock (v : FVec Ideal S4x512x512 .f32) : FVec Ideal S4x512x512 .f32 :=
  divf (subf v (broadcastTo S4x512x512 (meanV v) broadcasts_S4x1x1_S4x512x512))
    (broadcastTo S4x512x512 (addf (sqrt (varV v)) (broadcast S4x1x1 (Scalar.ofBits .f32 0x322BCC77#32)))
      broadcasts_S4x1x1_S4x512x512)

theorem meanV_apply (v : FVec Ideal S4x512x512 .f32) (s : Fin 4) :
    meanV v (ix3 s 0 0) = NSS.mean fun h w => v (ix3 s h w) := by
  show Ideal.div (tot3 v (ix3 s 0 0)) NSS.cN = _
  rw [tot3_apply]; rfl

theorem varV_apply (v : FVec Ideal S4x512x512 .f32) (s : Fin 4) :
    varV v (ix3 s 0 0) = NSS.varK fun h w => v (ix3 s h w) := by
  show Ideal.div (tot3 (mulf v v) (ix3 s 0 0) - Ideal.div (tot3 v (ix3 s 0 0) * tot3 v (ix3 s 0 0)) NSS.cN) NSS.cN1 = _
  rw [tot3_apply, tot3_apply]; rfl

/-- The standardized block at (s, h, w) is the standardized image of sample `s` at (h, w). -/
theorem pnBlock_apply (v : FVec Ideal S4x512x512 .f32) (s : Fin 4) (h w : Fin 512) :
    pnBlock v (ix3 s h w) = NSS.pnK (fun h w => v (ix3 s h w)) h w := by
  show Ideal.div (v (ix3 s h w) - broadcastTo S4x512x512 (meanV v) broadcasts_S4x1x1_S4x512x512 (ix3 s h w))
      (broadcastTo S4x512x512 (addf (sqrt (varV v)) (broadcast S4x1x1 (Scalar.ofBits .f32 0x322BCC77#32)))
        broadcasts_S4x1x1_S4x512x512 (ix3 s h w)) = _
  rw [spread_apply, spread_apply]
  show Ideal.div (v (ix3 s h w) - meanV v (ix3 s 0 0)) (Ideal.sqrt (varV v (ix3 s 0 0)) + NSS.cEps) = _
  rw [meanV_apply, varV_apply]; rfl

end Cert.KernelIdeal.Pay

end
-- ==== Proof.PayGather.lean ====
/-
  Reading the standardized image at the fixations: the batched product with the one-hot rows, the product with
  the one-hot columns, and the lane sum.

  For a block of four samples the kernel multiplies, sample by sample, the [16, 512] array of row weights into the
  [512, 512] standardized image (a batched matrix product into a zero accumulator: at (s, f, w) the sum over h of
  `roh (s, f, h) · pn (s, h, w)`), multiplies the result entry by entry with the [16, 512] array of column weights,
  adds each row up along the lanes, views the [4, 16] result as a column [4, 16, 1], and multiplies by the mask
  column.  At (s, f, 0) this is `(Σ_w (Σ_h roh · pn) · coh) · vm` (`gatherCol_apply`).
-/
import proofs.«105859_j53317724012633_2_alg».proof.Proof.Gen.KernelIdeal.Skeleton
import proofs.«105859_j53317724012633_2_alg».proof.Proof.Spec
import proofs.«105859_j53317724012633_2_alg».proof.Proof.LibKeepdims3
import proofs.«105859_j53317724012633_2_alg».proof.Proof.LibMatmul3
import proofs.«105859_j53317724012633_2_alg».proof.Proof.PayNorm

noncomputable section

namespace Cert.KernelIdeal.Pay

open Idealize.ShloMosaic Idealize.ShloMosaic.ValueIdx Idealize.ShloMosaic.LibKeepdims3
open Cert.KernelIdeal Cert.KernelIdeal.Gen

/-- The masked readings of a block as a [4, 16, 1] column, from the block and the three weight arrays. -/
def gatherCol (v1 : FVec Ideal S4x512x512 .f32) (v27 v30 : FVec Ideal S4x16x512 .f32) (v35 : FVec Ideal S4x16x1 .f32) :
    FVec Ideal S4x16x1 .f32 :=
  mulf (shapeCast S4x16x1 (multiReduction .add [2] S4x16
      (mulf (matmul dot_S4x16x512_S4x512x512_S4x16x512_2_1_1_2_0_0 (some .fp32) v27 (pnBlock v1)
        (constant S4x16x512 .f32 0x00000000#32)) v30)
      0x00000000#32 reduces_S4x16x512_S4x16 (.inl rfl) rfl) shapeCasts_S4x16_S4x16x1) v35

/-- The batched product of the row weights with the standardized block, at (s, f, w): the sum over the rows. -/
theorem rowProduct_apply (v1 : FVec Ideal S4x512x512 .f32) (v27 : FVec Ideal S4x16x512 .f32) (s : Fin 4) (f : Fin 16)
    (w : Fin 512) :
    matmul dot_S4x16x512_S4x512x512_S4x16x512_2_1_1_2_0_0 (some .fp32) v27 (pnBlock v1)
        (constant S4x16x512 .f32 0x00000000#32) (ix3 s f w)
      = ∑ h : Fin 512, v27 (ix3 s f h) * NSS.pnK (fun h w => v1 (ix3 s h w)) h w := by
  refine (LibMatmul3.bmm_apply dot_S4x16x512_S4x512x512_S4x16x512_2_1_1_2_0_0_wf (some .fp32) v27 (pnBlock v1) s f w).trans ?_
  refine Finset.sum_congr rfl fun h _ => ?_
  rw [pnBlock_apply]

/-- The masked reading of slot `f` of sample `s`. -/
theorem gatherCol_apply (v1 : FVec Ideal S4x512x512 .f32) (v27 v30 : FVec Ideal S4x16x512 .f32)
    (v35 : FVec Ideal S4x16x1 .f32) (s : Fin 4) (f : Fin 16) :
    gatherCol v1 v27 v30 v35 (ix3 s f 0)
      = (∑ w : Fin 512, (∑ h : Fin 512, v27 (ix3 s f h) * NSS.pnK (fun h w => v1 (ix3 s h w)) h w) * v30 (ix3 s f w))
          * v35 (ix3 s f 0) := by
  show shapeCast S4x16x1 (multiReduction .add [2] S4x16
      (mulf (matmul dot_S4x16x512_S4x512x512_S4x16x512_2_1_1_2_0_0 (some .fp32) v27 (pnBlock v1)
        (constant S4x16x512 .f32 0x00000000#32)) v30)
      0x00000000#32 reduces_S4x16x512_S4x16 (.inl rfl) rfl) shapeCasts_S4x16_S4x16x1 (ix3 s f 0) * v35 (ix3 s f 0) = _
  refine congrArg (· * v35 (ix3 s f 0)) ?_
  refine (addLaneUnit _ shapeCasts_S4x16_S4x16x1 s f).trans ?_
  refine (laneSum _ _ reduces_S4x16x512_S4x16 (.inl rfl) rfl s f).trans ?_
  refine Finset.sum_congr rfl fun w _ => ?_
  show matmul dot_S4x16x512_S4x512x512_S4x16x512_2_1_1_2_0_0 (some .fp32) v27 (pnBlock v1)
      (constant S4x16x512 .f32 0x00000000#32) (ix3 s f w) * v30 (ix3 s f w) = _
  rw [rowProduct_apply]

end Cert.KernelIdeal.Pay

end
-- ==== Proof.PayFinal.lean ====
/-
  The value the kernel body stores, read at a sample.

  The body stores one [4, 1, 1] value per block of four samples.  It is computed from the four loaded blocks — the
  images `x0`, the row weights `x1`, the column weights `x2` and the mask column `x3` — as follows: the masked
  readings of the sixteen slots are added up, the masks are added up, and the store is
  `select (count > 0, sum / max (count, 1), 0)`.  At sample `s` that is the specification's per-sample function of
  the sample's image and of the sample's rows of the three weight arrays (`payload`).
-/
import proofs.«105859_j53317724012633_2_alg».proof.Proof.Gen.KernelIdeal.Skeleton
import proofs.«105859_j53317724012633_2_alg».proof.Proof.Spec
import proofs.«105859_j53317724012633_2_alg».proof.Proof.PayStats
import proofs.«105859_j53317724012633_2_alg».proof.Proof.PayGather

noncomputable section

namespace Cert.KernelIdeal.Pay

open Idealize.ShloMosaic Idealize.ShloMosaic.ValueIdx
open Cert.KernelIdeal Cert.KernelIdeal.Gen

/-- The mask column is stored as loaded: a cast to its own shape changes nothing. -/
theorem pay2_eq (x3 : FVec Ideal S4x16x1 .f32) : Gen.k0_pay2 x3 = x3 :=
  shapeCast_self x3 shapeCasts_S4x16x1_S4x16x1

/-- The column of masked readings the body computes is `gatherCol` of the loaded blocks. -/
theorem pay3_eq (x0 : FVec Ideal S4x512x512 .f32) (x1 x2 : FVec Ideal S4x16x512 .f32) (x3 : FVec Ideal S4x16x1 .f32) :
    Gen.k0_pay3 x0 x1 x2 x3 = gatherCol x0 x1 x2 x3 := by
  have e : Gen.k0_pay3 x0 x1 x2 x3
      = gatherCol (shapeCast S4x512x512 x0 shapeCasts_S4x512x512_S4x512x512)
          (shapeCast S4x16x512 x1 shapeCasts_S4x16x512_S4x16x512)
          (shapeCast S4x16x512 x2 shapeCasts_S4x16x512_S4x16x512) (Gen.k0_pay2 x3) := rfl
  rw [e, shapeCast_self, shapeCast_self, shapeCast_self, pay2_eq]

/-- The stored value at sample `s`, from the column of masked readings and the mask column. -/
theorem pay1_apply (v35 v36 : FVec Ideal S4x16x1 .f32) (s : Fin 4) :
    Gen.k0_pay1 v35 v36 (ix3 s 0 0) = NSS.finish (∑ f : Fin 16, v36 (ix3 s f 0)) (∑ f : Fin 16, v35 (ix3 s f 0)) := by
  show NSS.finish
      (shapeCast S4x1x1 (multiReduction .add [1] S4x1 v36 0x00000000#32 reduces_S4x16x1_S4x1 (.inl rfl) rfl)
        shapeCasts_S4x1_S4x1x1 (ix3 s 0 0))
      (shapeCast S4x1x1 (multiReduction .add [1] S4x1 v35 0x00000000#32 reduces_S4x16x1_S4x1 (.inl rfl) rfl)
        shapeCasts_S4x1_S4x1x1 (ix3 s 0 0)) = _
  exact congrArg₂ NSS.finish (colSum_apply v36 reduces_S4x16x1_S4x1 shapeCasts_S4x1_S4x1x1 (.inl rfl) rfl s)
    (colSum_apply v35 reduces_S4x16x1_S4x1 shapeCasts_S4x1_S4x1x1 (.inl rfl) rfl s)

/-- The stored value at sample `s` is the specification's per-sample function of the four loaded blocks. -/
theorem payload (x0 : FVec Ideal S4x512x512 .f32) (x1 x2 : FVec Ideal S4x16x512 .f32) (x3 : FVec Ideal S4x16x1 .f32)
    (s : Fin 4) :
    Gen.k0_pay1 (F := Ideal) (Gen.k0_pay2 x3) (Gen.k0_pay3 x0 x1 x2 x3) (ValueIdx.ix3 s 0 0)
      = Cert.NSS.perK (Cert.NSS.pnK fun h w => x0 (ValueIdx.ix3 s h w)) (fun f h => x1 (ValueIdx.ix3 s f h))
          (fun f w => x2 (ValueIdx.ix3 s f w)) (fun f => x3 (ValueIdx.ix3 s f 0)) := by
  refine (pay1_apply _ _ s).trans ?_
  rw [pay2_eq, pay3_eq]
  unfold NSS.perK
  refine congrArg (fun n => NSS.finish n (∑ f : Fin 16, x3 (ix3 s f 0))) ?_
  exact Finset.sum_congr rfl fun f _ => gatherCol_apply x0 x1 x2 x3 s f

end Cert.KernelIdeal.Pay

end
-- ==== Proof.KerBlocks.lean ====
/-
  From the blocks the grid writes back to the output array. Point t of the grid reads samples 4t … 4t+3 of each of
  the four input arrays (a block's element sits at block index times four plus its place in the block on the sample
  axis, and at its own place on the other axes) and writes back four numbers, one per sample: the sample's score
  as the specification's first arrangement states it. The sixteen blocks tile the 64 samples, so the array after
  the last write-back is that score at every sample.
-/
import proofs.«105859_j53317724012633_2_alg».proof.Proof.KerArrays
import proofs.«105859_j53317724012633_2_alg».proof.Proof.PayFinal

noncomputable section

namespace Cert.KernelIdeal.Ker

open Cert.KernelIdeal Cert.KernelIdeal.Gen Idealize.ShloMosaic Idealize.ShloMosaic.TcCoe Idealize.SL.Sem
open Idealize.ShloMosaic.Pipeline (Dat)
open Idealize.ShloMosaic.ValueIdx

theorem hz3 : (![0, 0, 0] : Fin 3 → Nat) = fun _ => 0 := funext fun a => by fin_cases a <;> rfl

/-- The output array: at sample `b` that sample's score. -/
def outArr (a0 : S64x1x512x512.Idx → Elt Ideal .f32) (a1 : S64x12x2.Idx → Elt Ideal .f32) : S64x1x1.Idx → Elt Ideal .f32 :=
  fun j => NSS.sampleK (NSS.imgOf a0 (j 0)) (NSS.crdOf a1 (j 0))

/-- At each of the sixteen points of the grid every window's block index is the point itself on the sample axis and
    zero on the other two axes. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

section Blocks
variable {F : FTy → Type} [FloatOps F]
variable (m : (ℓ : Loc nD τ sig) → Buf (Elt F) ℓ)

/-- The image block at point `t` holds samples 4t … 4t+3 of the image array. -/
theorem blk0_apply (c : Dev nD) (t : Fin cfg0.N) (s : Fin 4) (h w : Fin 512) (b : Fin 64) (hb : b.val = t.val * 4 + s.val) :
    (iblk m c 0 t : Vec F S4x512x512 .f32) (ix3 s h w) = (V m c main_v0 : S64x512x512.Idx → Elt F .f32) (ix3 b h w) := by
  obtain ⟨⟨e0, e1, e2⟩, -⟩ := idx_facts t
  show (V m c main_v0 : S64x512x512.Idx → Elt F .f32) (((cfg0.win 0).blk t).view.emb (ix3 s h w)) = _
  refine congrArg (V m c main_v0 : S64x512x512.Idx → Elt F .f32) (funext fun a => Fin.ext ?_)
  match a with
  | ⟨0, _⟩ => show win0_0.index t (0 : Fin 3) * 4 + 1 * s.val = b.val; omega
  | ⟨1, _⟩ => show win0_0.index t (1 : Fin 3) * 512 + 1 * h.val = h.val; omega
  | ⟨2, _⟩ => show win0_0.index t (2 : Fin 3) * 512 + 1 * w.val = w.val; omega

theorem blk1_apply (c : Dev nD) (t : Fin cfg0.N) (s : Fin 4) (f : Fin 16) (k : Fin 512) (b : Fin 64) (hb : b.val = t.val * 4 + s.val) :
    (iblk m c 1 t : Vec F S4x16x512 .f32) (ix3 s f k) = (V m c main_v29 : S64x16x512.Idx → Elt F .f32) (ix3 b f k) := by
  obtain ⟨-, ⟨e0, e1, e2⟩, -⟩ := idx_facts t
  show (V m c main_v29 : S64x16x512.Idx → Elt F .f32) (((cfg0.win 1).blk t).view.emb (ix3 s f k)) = _
  refine congrArg (V m c main_v29 : S64x16x512.Idx → Elt F .f32) (funext fun a => Fin.ext ?_)
  match a with
  | ⟨0, _⟩ => show win0_1.index t (0 : Fin 3) * 4 + 1 * s.val = b.val; omega
  | ⟨1, _⟩ => show win0_1.index t (1 : Fin 3) * 16 + 1 * f.val = f.val; omega
  | ⟨2, _⟩ => show win0_1.index t (2 : Fin 3) * 512 + 1 * k.val = k.val; omega

theorem blk2_apply (c : Dev nD) (t : Fin cfg0.N) (s : Fin 4) (f : Fin 16) (k : Fin 512) (b : Fin 64) (hb : b.val = t.val * 4 + s.val) :
    (iblk m c 2 t : Vec F S4x16x512 .f32) (ix3 s f k) = (V m c main_v34 : S64x16x512.Idx → Elt F .f32) (ix3 b f k) := by
  obtain ⟨-, -, ⟨e0, e1, e2⟩, -⟩ := idx_facts t
  show (V m c main_v34 : S64x16x512.Idx → Elt F .f32) (((cfg0.win 2).blk t).view.emb (ix3 s f k)) = _
  refine congrArg (V m c main_v34 : S64x16x512.Idx → Elt F .f32) (funext fun a => Fin.ext ?_)
  match a with
  | ⟨0, _⟩ => show win0_2.index t (0 : Fin 3) * 4 + 1 * s.val = b.val; omega
  | ⟨1, _⟩ => show win0_2.index t (1 : Fin 3) * 16 + 1 * f.val = f.val; omega
  | ⟨2, _⟩ => show win0_2.index t (2 : Fin 3) * 512 + 1 * k.val = k.val; omega

theorem blk3_apply (c : Dev nD) (t : Fin cfg0.N) (s : Fin 4) (f : Fin 16) (b : Fin 64) (hb : b.val = t.val * 4 + s.val) :
    (iblk m c 3 t : Vec F S4x16x1 .f32) (ix3 s f 0) = (V m c main_v24 : S64x16x1.Idx → Elt F .f32) (ix3 b f 0) := by
  obtain ⟨-, -, -, ⟨e0, e1, e2⟩, -⟩ := idx_facts t
  show (V m c main_v24 : S64x16x1.Idx → Elt F .f32) (((cfg0.win 3).blk t).view.emb (ix3 s f 0)) = _
  refine congrArg (V m c main_v24 : S64x16x1.Idx → Elt F .f32) (funext fun a => Fin.ext ?_)
  match a with
  | ⟨0, _⟩ => show win0_3.index t (0 : Fin 3) * 4 + 1 * s.val = b.val; omega
  | ⟨1, _⟩ => show win0_3.index t (1 : Fin 3) * 16 + 1 * f.val = f.val; omega
  | ⟨2, _⟩ => show win0_3.index t (2 : Fin 3) * 1 + 1 * 0 = 0; omega

end Blocks

section Array
variable (m : (ℓ : Loc nD τ sig) → Buf (Elt Ideal) ℓ)

/-- What point `t` leaves for the sample at place `s` of its block is the score of sample 4t + s. -/
theorem point_value (c : Dev nD) (t : Fin cfg0.N) (s : Fin 4) (b : Fin 64) (hb : b.val = t.val * 4 + s.val) :
    Gen.k0_pay1 (Gen.k0_pay2 (iblk m c 3 t)) (Gen.k0_pay3 (iblk m c 0 t) (iblk m c 1 t) (iblk m c 2 t) (iblk m c 3 t)) (ix3 s 0 0)
      = NSS.sampleK (NSS.imgOf (m ((c : Thread nD τ).loc main_arg0)) b) (NSS.crdOf (m ((c : Thread nD τ).loc main_arg1)) b) := by
  refine (Pay.payload (iblk m c 0 t) (iblk m c 1 t) (iblk m c 2 t) (iblk m c 3 t) s).trans ?_
  unfold NSS.sampleK
  have h0 : (fun h w => (iblk m c 0 t : Vec Ideal S4x512x512 .f32) (ix3 s h w)) = NSS.imgOf (m ((c : Thread nD τ).loc main_arg0)) b :=
    funext fun h => funext fun w => (blk0_apply m c t s h w b hb).trans (v0_apply m c b h w)
  have h1 : (fun f k => (iblk m c 1 t : Vec Ideal S4x16x512 .f32) (ix3 s f k))
      = NSS.oneHot fun f' => NSS.clip511 (NSS.pyRaw (NSS.crdOf (m ((c : Thread nD τ).loc main_arg1)) b) f') :=
    funext fun f => funext fun k => (blk1_apply m c t s f k b hb).trans (v29_apply m c b f k)
  have h2 : (fun f k => (iblk m c 2 t : Vec Ideal S4x16x512 .f32) (ix3 s f k))
      = NSS.oneHot fun f' => NSS.clip511 (NSS.pxRaw (NSS.crdOf (m ((c : Thread nD τ).loc main_arg1)) b) f') :=
    funext fun f => funext fun k => (blk2_apply m c t s f k b hb).trans (v34_apply m c b f k)
  have h3 : (fun f => (iblk m c 3 t : Vec Ideal S4x16x1 .f32) (ix3 s f 0))
      = NSS.mask16 fun f' => NSS.inRange (NSS.pxRaw (NSS.crdOf (m ((c : Thread nD τ).loc main_arg1)) b) f')
          (NSS.pyRaw (NSS.crdOf (m ((c : Thread nD τ).loc main_arg1)) b) f') :=
    funext fun f => (blk3_apply m c t s f b hb).trans (v24_apply m c b f)
  rw [h0, h1, h2, h3]

end Array

section Final
variable (m : (ℓ : Loc nD τ sig) → Buf (Elt Ideal) ℓ)

/-- WHAT POINT `t` WRITES BACK is block `t` of the score array. -/
theorem flushed_eq (c : Dev nD) (t : Fin cfg0.N) :
    (dats m 0 c).flushed 4 t = ((cfg0.win 4).blk t).view.read (Elt Ideal)
      (outArr (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz3]
  simp only [View.ld_unit_zero (S := S4x512x512) hz3, View.ld_unit_zero (S := S4x16x512) hz3, View.ld_unit_zero (S := S4x16x1) hz3]
  funext j
  obtain ⟨-, -, -, -, ⟨e0, e1, e2⟩⟩ := idx_facts t
  have hN : cfg0.N = 16 := N_0
  have hj0 : (j 0).val < 4 := (j 0).isLt
  have hj1 : (j 1).val < 1 := (j 1).isLt
  have hj2 : (j 2).val < 1 := (j 2).isLt
  have ht : t.val < 16 := hN ▸ t.isLt
  have hx : (cfg0.win 4).xinj (grid0.coords t) j = ix3 (⟨(j 0).val, hj0⟩ : Fin 4) (0 : Fin 1) (0 : Fin 1) :=
    funext fun a => Fin.ext (match a with
      | ⟨0, _⟩ => rfl
      | ⟨1, _⟩ => by show (j 1).val = 0; omega
      | ⟨2, _⟩ => by show (j 2).val = 0; omega)
  have hy : ((cfg0.win 4).blk t).view.emb j = ix3 (⟨t.val * 4 + (j 0).val, by omega⟩ : Fin 64) (0 : Fin 1) (0 : Fin 1) :=
    funext fun a => Fin.ext (match a with
      | ⟨0, _⟩ => by show win0_4.index t (0 : Fin 3) * 4 + 1 * (j 0).val = t.val * 4 + (j 0).val; omega
      | ⟨1, _⟩ => by show win0_4.index t (1 : Fin 3) * 1 + 1 * (j 1).val = 0; omega
      | ⟨2, _⟩ => by show win0_4.index t (2 : Fin 3) * 1 + 1 * (j 2).val = 0; omega)
  show Gen.k0_pay1 (F := Ideal) (Gen.k0_pay2 (iblk m c 3 t)) (Gen.k0_pay3 (iblk m c 0 t) (iblk m c 1 t) (iblk m c 2 t) (iblk m c 3 t))
      ((cfg0.win 4).xinj (grid0.coords t) j)
    = outArr (m ((c : Thread nD τ).loc main_arg0)) (m ((c : Thread nD τ).loc main_arg1)) (((cfg0.win 4).blk t).view.emb j)
  rw [hx, hy]
  exact point_value m c t ⟨(j 0).val, hj0⟩ ⟨t.val * 4 + (j 0).val, by omega⟩ rfl

/-- An index of the array is in point `t`'s block iff each coordinate is in the block's range on its axis. -/
theorem mem_blk (t : Fin cfg0.N) (i : S64x1x1.Idx) :
    i ∈ ((cfg0.win 4).blk t).view.set ↔ ∀ a : Fin 3, win0_4.index t a * S4x1x1.size a ≤ (i a).val ∧ (i a).val < win0_4.index t a * S4x1x1.size a + S4x1x1.size a := by
  show i ∈ ((View.whole main_v35).slice (win0_4.rect t)).set ↔ _
  rw [View.set_slice_whole, Rect.mem_set_unit]
  exact Iff.rfl

/-- Sample `b` lies in the block of point `b / 4`. -/
theorem cover (i : S64x1x1.Idx) : ∃ t : Fin cfg0.N, (cfg0.win 4).flush t = true ∧ i ∈ ((cfg0.win 4).blk t).view.set := by
  have hN : cfg0.N = 16 := N_0
  have hi0 : (i 0).val < 64 := (i 0).isLt
  have hi1 : (i 1).val < 1 := (i 1).isLt
  have hi2 : (i 2).val < 1 := (i 2).isLt
  have hq : (i 0).val / 4 < cfg0.N := by rw [hN]; omega
  refine ⟨⟨(i 0).val / 4, hq⟩, flush0_4 _, ?_⟩
  rw [mem_blk]
  obtain ⟨-, -, -, -, ⟨e0, e1, e2⟩⟩ := idx_facts ⟨(i 0).val / 4, hq⟩
  have e0' : win0_4.index ⟨(i 0).val / 4, hq⟩ (0 : Fin 3) = (i 0).val / 4 := e0
  intro a
  match a with
  | ⟨0, _⟩ => show win0_4.index _ (0 : Fin 3) * 4 ≤ (i 0).val ∧ (i 0).val < win0_4.index _ (0 : Fin 3) * 4 + 4; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 1 ≤ (i 2).val ∧ (i 2).val < win0_4.index _ (2 : Fin 3) * 1 + 1; omega

/-- THE ARRAY after the run: every sample's score. -/
theorem final (c : Dev nD) :
    (dats m 0 c).arrAt 4 cfg0.N = outArr (m ((c : Thread nD τ).loc main_arg0)) (m ((c : Thread nD τ).loc main_arg1)) :=
  (dats m 0 c).arrAt_eq_of_cover 4 _ (fun t _ => flushed_eq m c t) cover

end Final

section Tail

/-- An index of a one-axis array is its one coordinate. -/
def idx1Equiv : S64.Idx ≃ Fin 64 where
  toFun i := i 0
  invFun a := ix1 a
  left_inv i := (eq_ix1 i).symm
  right_inv _ := rfl

/-- The three operations after the grid — drop the two unit axes, add the 64 numbers onto the zero word, divide by the
    64 word — applied to an array of 64 numbers are the specification's batch mean of them. -/
theorem tail_eq (A : S64x1x1.Idx → Elt Ideal .f32) :
    Host.divf (F := Ideal)
        (Host.reduceAdd (F := Ideal) (shapeCast S64 A shapeCasts_S64x1x1_S64) (constant (F := Ideal) S_ .f32 0x00000000#32) reducesTo_S64_S_d0 h_S_)
        (constant (F := Ideal) S_ .f32 0x42800000#32)
      = fun _ => NSS.tailMean fun b => A (ix3 b 0 0) := by
  funext j
  rw [hostDivf_apply, hostReduceAdd_apply, Ideal.hostReduceAdd_total reducesTo_S64_S_d0 (fun b => b.elim0)]
  unfold NSS.tailMean
  show Ideal.div (NSS.cZero + ∑ i : S64.Idx, shapeCast S64 A shapeCasts_S64x1x1_S64 i) NSS.c64 = _
  refine congrArg (fun x => Ideal.div (NSS.cZero + x) NSS.c64) (Fintype.sum_equiv idx1Equiv _ _ fun i => ?_)
  exact shapeCast_apply _ _ i (ix3 (idx1Equiv i) 0 0) (by
    rw [Shape.rowMajor_val_three, Shape.rowMajor_val_one]
    show ((i 0).val * 1 + 0) * 1 + 0 = (i 0).val
    omega)

end Tail

end Cert.KernelIdeal.Ker

end
-- ==== Proof.KerRun.lean ====
/-
  The kernel program's run, read: every weakly fair execution of the program terminates with the result buffer at
  the specification's first arrangement of the score — the batch mean, over the 64 samples, of each sample's
  masked mean of its standardized image at the fixations — and with the two argument arrays as they were. The
  result buffer is written by the three host operations after the grid, applied to the array the grid's blocks
  leave; that array is every sample's score.
-/
import proofs.«105859_j53317724012633_2_alg».proof.Proof.KerBlocks

noncomputable section

namespace Cert.KernelIdeal.KerRun

open Cert.KernelIdeal Cert.KernelIdeal.Gen Cert.KernelIdeal.Ker Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The result buffer after the host operations that follow the grid: the batch mean of the samples' scores. -/
theorem tail_read (c : Dev nD) :
    Pipeline.afterTail₀ cfgs (dats m) 0 (V0 m) [hostOps1] c main_v38
      = fun _ => NSS.resultK (m ((c : Thread nD τ).loc main_arg0)) (m ((c : Thread nD τ).loc main_arg1)) := by
  unfold Pipeline.afterTail₀
  show StableHlo.after hostOps1 _ (Proc.devRef .tc main_v38) = _
  after_results
  have hA : Pipeline.withArrays (cfgs 0).spec c (V0 m c) (fun w => (dats m 0 c).arrAt w (cfgs 0).N) (Proc.devRef .tc main_v35)
      = outArr (m ((c : Thread nD τ).loc main_arg0)) (m ((c : Thread nD τ).loc main_arg1)) :=
    (Pipeline.withArrays_arr spec0 launch0.win.arr_inj c _ _ 4).trans (final m c)
  rw [hA]
  exact tail_eq _

/-- THE RUN: the result buffer ends at the specification's first arrangement of the score, the arguments unchanged. -/
theorem run [Cert.KernelIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = (fun _ => Cert.NSS.resultK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v38 (Pipeline.mem_restRefs_of main_v38 (by decide) (by decide))).trans (tail_read m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerRun

end
-- ==== Proof.RefRun.lean ====
/-
  The reference program's run, read back.

  @main is a straight line of 126 host operations once the functions it calls are unfolded at their calls
  (the deviation through the variance and its guard, the two clips, the final guard). They are listed here in
  nine consecutive stretches, named after what each computes; `main_eq` says @main is exactly that line, and
  `run_main` that every weakly fair execution ends with every buffer at the line's fold over the launch contents.
-/
import proofs.«105859_j53317724012633_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The image as `[64,512,512]`, its per-sample sum over both pixel axes, the mean, and the literal 1 the deviation takes. -/
abbrev opsMean : List (HloOp τ sig (Elt F)) :=
  [ reshape main_arg0 main_v0 rfl shapeCasts_S64x1x512x512_S64x512x512,
    nullary main_cst (constant S_ .f32 0x00000000#32),
    binary main_v0 main_cst main_v1 ((fun x v => Host.reduceAdd x v reducesTo_S64x512x512_S64_d1_2 h_S_) : (⟨S64x512x512, .f32⟩ : BufTy).Contents (Elt F) → (⟨S_, .f32⟩ : BufTy).Contents (Elt F) → (⟨S64, .f32⟩ : BufTy).Contents (Elt F)),
    unary main_v1 main_v2 (broadcastInDim S64x1x1 ![0] bcast_S64_S64x1x1_0 : (⟨S64, .f32⟩ : BufTy).Contents (Elt F) → (⟨S64x1x1, .f32⟩ : BufTy).Contents (Elt F)),
    nullary main_cst_0 (constant S_ .f32 0x48800000#32),
    unary main_cst_0 main_v3 (broadcastInDim S64x1x1 ![] bcast_S_S64x1x1 : (⟨S_, .f32⟩ : BufTy).Contents (Elt F) → (⟨S64x1x1, .f32⟩ : BufTy).Contents (Elt F)),
    binary main_v2 main_v3 main_v4 (Host.divf : (⟨S64x1x1, .f32⟩ : BufTy).Contents (Elt F) → (⟨S64x1x1, .f32⟩ : BufTy).Contents (Elt F) → (⟨S64x1x1, .f32⟩ : BufTy).Contents (Elt F)),
    nullary main_c (constantI S_ 32 1#32) ]

/-- The standard deviation: the mean again, the centred squares' sum over the pixel count less the converted 1, the guard that this divisor is positive, the square root. -/
abbrev opsStd : List (HloOp τ sig (Elt F)) :=
  [ TRef.nullary main_call0.call0.cst (constant S_ .f32 0x00000000#32),
    TRef.binary (.of main_v0 : TRef sig ⟨S64x512x512, .f32⟩) main_call0.call0.cst main_call0.call0.v0 (fun x v => Host.reduceAdd x v reducesTo_S64x512x512_S64_d1_2 h_S_),
    TRef.unary main_call0.call0.v0 main_call0.call0.v1 (broadcastInDim S64x1x1 ![0] bcast_S64_S64x1x1_0),
    TRef.nullary main_call0.call0.cst_0 (constant S_ .f32 0x48800000#32),
    TRef.unary main_call0.call0.cst_0 main_call0.call0.v2 (broadcastInDim S64x1x1 ![] bcast_S_S64x1x1),
    TRef.binary main_call0.call0.v1 main_call0.call0.v2 main_call0.call0.v3 Host.divf,
    TRef.unary main_call0.call0.v3 main_call0.call0.v4 (broadcastInDim S64x512x512 ![0, 1, 2] bcast_S64x1x1_S64x512x512_0_1_2),
    TRef.binary (.of main_v0 : TRef sig ⟨S64x512x512, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x48800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S64x512x512_S64_d1_2 h_S_),
    TRef.unary main_call0.call0.v9 main_call0.call0.v10 (broadcastInDim S64x1x1 ![0] bcast_S64_S64x1x1_0),
    TRef.unary main_call0.call0.v8 main_call0.call0.v11 (broadcastInDim S64x1x1 ![] bcast_S_S64x1x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S64x1x1 ![] bcast_S_S64x1x1),
    TRef.ternary main_call0.call0.v13 main_call0.call0.v12 main_call0.call0.call0.v1 main_call0.call0.call0.v2 (fun p a b => select (broadcastInDim S64x1x1 ![] bcast_S_S64x1x1 p) a b),
    TRef.unary main_call0.call0.call0.v2 main_call0.v1 Host.sqrt ]

/-- The standardized image: the centred image over the deviation plus ε. -/
abbrev opsNorm : List (HloOp τ sig (Elt F)) :=
  [ unary main_v4 main_v6 (broadcastInDim S64x512x512 ![0, 1, 2] bcast_S64x1x1_S64x512x512_0_1_2 : (⟨S64x1x1, .f32⟩ : BufTy).Contents (Elt F) → (⟨S64x512x512, .f32⟩ : BufTy).Contents (Elt F)),
    binary main_v0 main_v6 main_v7 (subf : (⟨S64x512x512, .f32⟩ : BufTy).Contents (Elt F) → (⟨S64x512x512, .f32⟩ : BufTy).Contents (Elt F) → (⟨S64x512x512, .f32⟩ : BufTy).Contents (Elt F)),
    nullary main_cst_1 (constant S_ .f32 0x322BCC77#32),
    unary main_cst_1 main_v8 (broadcastInDim S64x1x1 ![] bcast_S_S64x1x1 : (⟨S_, .f32⟩ : BufTy).Contents (Elt F) → (⟨S64x1x1, .f32⟩ : BufTy).Contents (Elt F)),
    binary main_v5 main_v8 main_v9 (addf : (⟨S64x1x1, .f32⟩ : BufTy).Contents (Elt F) → (⟨S64x1x1, .f32⟩ : BufTy).Contents (Elt F) → (⟨S64x1x1, .f32⟩ : BufTy).Contents (Elt F)),
    unary main_v9 main_v10 (broadcastInDim S64x512x512 ![0, 1, 2] bcast_S64x1x1_S64x512x512_0_1_2 : (⟨S64x1x1, .f32⟩ : BufTy).Contents (Elt F) → (⟨S64x512x512, .f32⟩ : BufTy).Contents (Elt F)),
    binary main_v7 main_v10 main_v11 (Host.divf : (⟨S64x512x512, .f32⟩ : BufTy).Contents (Elt F) → (⟨S64x512x512, .f32⟩ : BufTy).Contents (Elt F) → (⟨S64x512x512, .f32⟩ : BufTy).Contents (Elt F)) ]

/-- The fixations' truncated column and row words and the four range tests, conjoined. -/
abbrev opsCoord : List (HloOp τ sig (Elt F)) :=
  [ unary main_arg1 main_v12 ((extractStridedSlice S64x12x1 ![0, 0, 0] · slices_S64x12x2_S64x12x1_0_0_0) : (⟨S64x12x2, .f32⟩ : BufTy).Contents (Elt F) → (⟨S64x12x1, .f32⟩ : BufTy).Contents (Elt F)),
    reshape main_v12 main_v13 rfl shapeCasts_S64x12x1_S64x12,
    unary main_v13 main_v14 (fptosi 32 : (⟨S64x12, .f32⟩ : BufTy).Contents (Elt F) → (⟨S64x12, .i32⟩ : BufTy).Contents (Elt F)),
    unary main_arg1 main_v15 ((extractStridedSlice S64x12x1 ![0, 0, 1] · slices_S64x12x2_S64x12x1_0_0_1) : (⟨S64x12x2, .f32⟩ : BufTy).Contents (Elt F) → (⟨S64x12x1, .f32⟩ : BufTy).Contents (Elt F)),
    reshape main_v15 main_v16 rfl shapeCasts_S64x12x1_S64x12,
    unary main_v16 main_v17 (fptosi 32 : (⟨S64x12, .f32⟩ : BufTy).Contents (Elt F) → (⟨S64x12, .i32⟩ : BufTy).Contents (Elt F)),
    nullary main_c_2 (constantI S_ 32 0#32),
    unary main_c_2 main_v18 (broadcastInDim S64x12 ![] bcast_S_S64x12 : (⟨S_, .i32⟩ : BufTy).Contents (Elt F) → (⟨S64x12, .i32⟩ : BufTy).Contents (Elt F)),
    binary main_v14 main_v18 main_v19 (cmpi .sge : (⟨S64x12, .i32⟩ : BufTy).Contents (Elt F) → (⟨S64x12, .i32⟩ : BufTy).Contents (Elt F) → (⟨S64x12, .i1⟩ : BufTy).Contents (Elt F)),
    nullary main_c_3 (constantI S_ 32 512#32),
    unary main_c_3 main_v20 (broadcastInDim S64x12 ![] bcast_S_S64x12 : (⟨S_, .i32⟩ : BufTy).Contents (Elt F) → (⟨S64x12, .i32⟩ : BufTy).Contents (Elt F)),
    binary main_v14 main_v20 main_v21 (cmpi .slt : (⟨S64x12, .i32⟩ : BufTy).Contents (Elt F) → (⟨S64x12, .i32⟩ : BufTy).Contents (Elt F) → (⟨S64x12, .i1⟩ : BufTy).Contents (Elt F)),
    binary main_v19 main_v21 main_v22 (andi : (⟨S64x12, .i1⟩ : BufTy).Contents (Elt F) → (⟨S64x12, .i1⟩ : BufTy).Contents (Elt F) → (⟨S64x12, .i1⟩ : BufTy).Contents (Elt F)),
    nullary main_c_4 (constantI S_ 32 0#32),
    unary main_c_4 main_v23 (broadcastInDim S64x12 ![] bcast_S_S64x12 : (⟨S_, .i32⟩ : BufTy).Contents (Elt F) → (⟨S64x12, .i32⟩ : BufTy).Contents (Elt F)),
    binary main_v17 main_v23 main_v24 (cmpi .sge : (⟨S64x12, .i32⟩ : BufTy).Contents (Elt F) → (⟨S64x12, .i32⟩ : BufTy).Contents (Elt F) → (⟨S64x12, .i1⟩ : BufTy).Contents (Elt F)),
    binary main_v22 main_v24 main_v25 (andi : (⟨S64x12, .i1⟩ : BufTy).Contents (Elt F) → (⟨S64x12, .i1⟩ : BufTy).Contents (Elt F) → (⟨S64x12, .i1⟩ : BufTy).Contents (Elt F)),
    nullary main_c_5 (constantI S_ 32 512#32),
    unary main_c_5 main_v26 (broadcastInDim S64x12 ![] bcast_S_S64x12 : (⟨S_, .i32⟩ : BufTy).Contents (Elt F) → (⟨S64x12, .i32⟩ : BufTy).Contents (Elt F)),
    binary main_v17 main_v26 main_v27 (cmpi .slt : (⟨S64x12, .i32⟩ : BufTy).Contents (Elt F) → (⟨S64x12, .i32⟩ : BufTy).Contents (Elt F) → (⟨S64x12, .i1⟩ : BufTy).Contents (Elt F)),
    binary main_v25 main_v27 main_v28 (andi : (⟨S64x12, .i1⟩ : BufTy).Contents (Elt F) → (⟨S64x12, .i1⟩ : BufTy).Contents (Elt F) → (⟨S64x12, .i1⟩ : BufTy).Contents (Elt F)) ]

/-- Both coordinate words clipped into 0 … 511. -/
abbrev opsClip : List (HloOp τ sig (Elt F)) :=
  [ nullary main_c_6 (constantI S_ 32 0#32),
    nullary main_c_7 (constantI S_ 32 511#32),
    TRef.unary (.of main_c_6 : TRef sig ⟨S_, .i32⟩) main_call1.v0 id,
    TRef.unary main_call1.v0 main_call1.v1 (broadcastInDim S64x12 ![] bcast_S_S64x12),
    TRef.binary main_call1.v1 (.of main_v14 : TRef sig ⟨S64x12, .i32⟩) main_call1.v2 maxsi,
    TRef.unary (.of main_c_7 : TRef sig ⟨S_, .i32⟩) main_call1.v3 id,
    TRef.unary main_call1.v3 main_call1.v4 (broadcastInDim S64x12 ![] bcast_S_S64x12),
    TRef.binary main_call1.v4 main_call1.v2 main_call1.v5 minsi,
    nullary main_c_8 (constantI S_ 32 0#32),
    nullary main_c_9 (constantI S_ 32 511#32),
    TRef.unary (.of main_c_8 : TRef sig ⟨S_, .i32⟩) main_call2.v0 id,
    TRef.unary main_call2.v0 main_call2.v1 (broadcastInDim S64x12 ![] bcast_S_S64x12),
    TRef.binary main_call2.v1 (.of main_v17 : TRef sig ⟨S64x12, .i32⟩) main_call2.v2 maxsi,
    TRef.unary (.of main_c_9 : TRef sig ⟨S_, .i32⟩) main_call2.v3 id,
    TRef.unary main_call2.v3 main_call2.v4 (broadcastInDim S64x12 ![] bcast_S_S64x12),
    TRef.binary main_call2.v4 main_call2.v2 main_call2.v5 minsi ]

/-- The sample numbers and the clipped row words, each with a negative value wrapped by the axis length. -/
abbrev opsWrap : List (HloOp τ sig (Elt F)) :=
  [ nullary main_v31 (iotaInDim S64 32 0),
    unary main_v31 main_v32 (broadcastInDim S64x1 ![0] bcast_S64_S64x1_0 : (⟨S64, .i32⟩ : BufTy).Contents (Elt F) → (⟨S64x1, .i32⟩ : BufTy).Contents (Elt F)),
    nullary main_c_10 (constantI S_ 32 0#32),
    unary main_c_10 main_v33 (broadcastInDim S64x1 ![] bcast_S_S64x1 : (⟨S_, .i32⟩ : BufTy).Contents (Elt F) → (⟨S64x1, .i32⟩ : BufTy).Contents (Elt F)),
    binary main_v32 main_v33 main_v34 (cmpi .slt : (⟨S64x1, .i32⟩ : BufTy).Contents (Elt F) → (⟨S64x1, .i32⟩ : BufTy).Contents (Elt F) → (⟨S64x1, .i1⟩ : BufTy).Contents (Elt F)),
    nullary main_c_11 (constantI S_ 32 64#32),
    unary main_c_11 main_v35 (broadcastInDim S64x1 ![] bcast_S_S64x1 : (⟨S_, .i32⟩ : BufTy).Contents (Elt F) → (⟨S64x1, .i32⟩ : BufTy).Contents (Elt F)),
    binary main_v32 main_v35 main_v36 (addi : (⟨S64x1, .i32⟩ : BufTy).Contents (Elt F) → (⟨S64x1, .i32⟩ : BufTy).Contents (Elt F) → (⟨S64x1, .i32⟩ : BufTy).Contents (Elt F)),
    ternary main_v34 main_v36 main_v32 main_v37 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_12 (constantI S_ 32 0#32),
    unary main_c_12 main_v38 (broadcastInDim S64x12 ![] bcast_S_S64x12 : (⟨S_, .i32⟩ : BufTy).Contents (Elt F) → (⟨S64x12, .i32⟩ : BufTy).Contents (Elt F)),
    binary main_v30 main_v38 main_v39 (cmpi .slt : (⟨S64x12, .i32⟩ : BufTy).Contents (Elt F) → (⟨S64x12, .i32⟩ : BufTy).Contents (Elt F) → (⟨S64x12, .i1⟩ : BufTy).Contents (Elt F)),
    nullary main_c_13 (constantI S_ 32 512#32),
    unary main_c_13 main_v40 (broadcastInDim S64x12 ![] bcast_S_S64x12 : (⟨S_, .i32⟩ : BufTy).Contents (Elt F) → (⟨S64x12, .i32⟩ : BufTy).Contents (Elt F)),
    binary main_v30 main_v40 main_v41 (addi : (⟨S64x12, .i32⟩ : BufTy).Contents (Elt F) → (⟨S64x12, .i32⟩ : BufTy).Contents (Elt F) → (⟨S64x12, .i32⟩ : BufTy).Contents (Elt F)),
    ternary main_v39 main_v41 main_v30 main_v42 (select : (⟨S64x12, .i1⟩ : BufTy).Contents (Elt F) → (⟨S64x12, .i32⟩ : BufTy).Contents (Elt F) → (⟨S64x12, .i32⟩ : BufTy).Contents (Elt F) → (⟨S64x12, .i32⟩ : BufTy).Contents (Elt F)),
    nullary main_c_14 (constantI S_ 32 0#32) ]

/-- The clipped column words wrapped likewise; the three index columns joined into `[64,12,3]`. -/
abbrev opsIndex : List (HloOp τ sig (Elt F)) :=
  [ unary main_c_14 main_v43 (broadcastInDim S64x12 ![] bcast_S_S64x12 : (⟨S_, .i32⟩ : BufTy).Contents (Elt F) → (⟨S64x12, .i32⟩ : BufTy).Contents (Elt F)),
    binary main_v29 main_v43 main_v44 (cmpi .slt : (⟨S64x12, .i32⟩ : BufTy).Contents (Elt F) → (⟨S64x12, .i32⟩ : BufTy).Contents (Elt F) → (⟨S64x12, .i1⟩ : BufTy).Contents (Elt F)),
    nullary main_c_15 (constantI S_ 32 512#32),
    unary main_c_15 main_v45 (broadcastInDim S64x12 ![] bcast_S_S64x12 : (⟨S_, .i32⟩ : BufTy).Contents (Elt F) → (⟨S64x12, .i32⟩ : BufTy).Contents (Elt F)),
    binary main_v29 main_v45 main_v46 (addi : (⟨S64x12, .i32⟩ : BufTy).Contents (Elt F) → (⟨S64x12, .i32⟩ : BufTy).Contents (Elt F) → (⟨S64x12, .i32⟩ : BufTy).Contents (Elt F)),
    ternary main_v44 main_v46 main_v29 main_v47 (select : (⟨S64x12, .i1⟩ : BufTy).Contents (Elt F) → (⟨S64x12, .i32⟩ : BufTy).Contents (Elt F) → (⟨S64x12, .i32⟩ : BufTy).Contents (Elt F) → (⟨S64x12, .i32⟩ : BufTy).Contents (Elt F)),
    unary main_v37 main_v48 (broadcastInDim S64x12 ![0, 1] bcast_S64x1_S64x12_0_1 : (⟨S64x1, .i32⟩ : BufTy).Contents (Elt F) → (⟨S64x12, .i32⟩ : BufTy).Contents (Elt F)),
    unary main_v48 main_v49 (broadcastInDim S64x12x1 ![0, 1] bcast_S64x12_S64x12x1_0_1 : (⟨S64x12, .i32⟩ : BufTy).Contents (Elt F) → (⟨S64x12x1, .i32⟩ : BufTy).Contents (Elt F)),
    unary main_v42 main_v50 (broadcastInDim S64x12x1 ![0, 1] bcast_S64x12_S64x12x1_0_1 : (⟨S64x12, .i32⟩ : BufTy).Contents (Elt F) → (⟨S64x12x1, .i32⟩ : BufTy).Contents (Elt F)),
    unary main_v47 main_v51 (broadcastInDim S64x12x1 ![0, 1] bcast_S64x12_S64x12x1_0_1 : (⟨S64x12, .i32⟩ : BufTy).Contents (Elt F) → (⟨S64x12x1, .i32⟩ : BufTy).Contents (Elt F)),
    nary ![main_v49, main_v50, main_v51] main_v52 (fun u => concatenate S64x12x3 2 [⟨S64x12x1, u 0⟩, ⟨S64x12x1, u 1⟩, ⟨S64x12x1, u 2⟩] concatenates_S64x12x1_S64x12x1_S64x12x1_S64x12x3_d2) ]

/-- The gathered pixels, the validity mask, the count, the masked sum over the count floored at 1, zero where nothing counted. -/
abbrev opsScore : List (HloOp τ sig (Elt F)) :=
  [ binary main_v11 main_v52 main_v53 ((fun x i => Host.gather gather_S64x512x512_S64x12x3_S64x12_n_012_n_n_012_2_111 x i) : (⟨S64x512x512, .f32⟩ : BufTy).Contents (Elt F) → (⟨S64x12x3, .i32⟩ : BufTy).Contents (Elt F) → (⟨S64x12, .f32⟩ : BufTy).Contents (Elt F)),
    unary main_v28 main_v54 (uitofp .f32 : (⟨S64x12, .i1⟩ : BufTy).Contents (Elt F) → (⟨S64x12, .f32⟩ : BufTy).Contents (Elt F)),
    nullary main_cst_16 (constant S_ .f32 0x00000000#32),
    binary main_v54 main_cst_16 main_v55 ((fun x v => Host.reduceAdd x v reducesTo_S64x12_S64_d1 h_S_) : (⟨S64x12, .f32⟩ : BufTy).Contents (Elt F) → (⟨S_, .f32⟩ : BufTy).Contents (Elt F) → (⟨S64, .f32⟩ : BufTy).Contents (Elt F)),
    nullary main_cst_17 (constant S_ .f32 0x00000000#32),
    unary main_cst_17 main_v56 (broadcastInDim S64 ![] bcast_S_S64 : (⟨S_, .f32⟩ : BufTy).Contents (Elt F) → (⟨S64, .f32⟩ : BufTy).Contents (Elt F)),
    binary main_v55 main_v56 main_v57 (cmpf .ogt : (⟨S64, .f32⟩ : BufTy).Contents (Elt F) → (⟨S64, .f32⟩ : BufTy).Contents (Elt F) → (⟨S64, .i1⟩ : BufTy).Contents (Elt F)),
    binary main_v53 main_v54 main_v58 (mulf : (⟨S64x12, .f32⟩ : BufTy).Contents (Elt F) → (⟨S64x12, .f32⟩ : BufTy).Contents (Elt F) → (⟨S64x12, .f32⟩ : BufTy).Contents (Elt F)),
    nullary main_cst_18 (constant S_ .f32 0x00000000#32),
    binary main_v58 main_cst_18 main_v59 ((fun x v => Host.reduceAdd x v reducesTo_S64x12_S64_d1 h_S_) : (⟨S64x12, .f32⟩ : BufTy).Contents (Elt F) → (⟨S_, .f32⟩ : BufTy).Contents (Elt F) → (⟨S64, .f32⟩ : BufTy).Contents (Elt F)),
    nullary main_cst_19 (constant S_ .f32 0x3F800000#32),
    unary main_cst_19 main_v60 (broadcastInDim S64 ![] bcast_S_S64 : (⟨S_, .f32⟩ : BufTy).Contents (Elt F) → (⟨S64, .f32⟩ : BufTy).Contents (Elt F)),
    binary main_v55 main_v60 main_v61 (maximumf : (⟨S64, .f32⟩ : BufTy).Contents (Elt F) → (⟨S64, .f32⟩ : BufTy).Contents (Elt F) → (⟨S64, .f32⟩ : BufTy).Contents (Elt F)),
    binary main_v59 main_v61 main_v62 (Host.divf : (⟨S64, .f32⟩ : BufTy).Contents (Elt F) → (⟨S64, .f32⟩ : BufTy).Contents (Elt F) → (⟨S64, .f32⟩ : BufTy).Contents (Elt F)),
    nullary main_cst_20 (constant S_ .f32 0x00000000#32),
    TRef.unary (.of main_cst_20 : TRef sig ⟨S_, .f32⟩) main_call3.v0 id,
    TRef.unary main_call3.v0 main_call3.v1 (broadcastInDim S64 ![] bcast_S_S64),
    TRef.ternary (.of main_v57 : TRef sig ⟨S64, .i1⟩) (.of main_v62 : TRef sig ⟨S64, .f32⟩) main_call3.v1 main_call3.v2 select ]

/-- The sum of the 64 per-sample values from zero, divided by 64. -/
abbrev opsTail : List (HloOp τ sig (Elt F)) :=
  [ nullary main_cst_21 (constant S_ .f32 0x00000000#32),
    binary main_v63 main_cst_21 main_v64 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_22 (constant S_ .f32 0x42800000#32),
    binary main_v64 main_cst_22 main_v65 (Host.divf : (⟨S_, .f32⟩ : BufTy).Contents (Elt F) → (⟨S_, .f32⟩ : BufTy).Contents (Elt F) → (⟨S_, .f32⟩ : BufTy).Contents (Elt F)) ]

/-- The operations @main's first window runs, in order. -/
abbrev opsA : List (HloOp τ sig (Elt F)) := opsMean ++ (opsStd ++ (opsNorm ++ (opsCoord ++ (opsClip ++ opsWrap))))
/-- The operations @main's second window runs, in order. -/
abbrev opsB : List (HloOp τ sig (Elt F)) := opsIndex ++ (opsScore ++ opsTail)
/-- @main's 126 operations, in order. -/
abbrev ops : List (HloOp τ sig (Elt F)) := opsA ++ opsB

/-- The fold over two stretches is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- The first window is its line: the called functions unfolded at their calls, sequencing reassociated. -/
theorem main_part0_eq (c : Dev nD) : main_part0 (F := F) c = seq opsA := by
  simp only [main_part0, fn_std.body, fn_var.body, fn_where.body, fn_clip.body, seq, bind_assoc, pure_bind]
  rfl

set_option maxRecDepth 8192 in
set_option maxHeartbeats 4000000 in
theorem main_part1_eq (c : Dev nD) : main_part1 (F := F) c = seq opsB := by
  simp only [main_part1, fn_where_0.body, seq, bind_assoc, pure_bind]
  rfl

theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsMean_sub : (opsMean : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., nullary_bufs_sub ..⟩

theorem opsStd_sub : (opsStd : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..⟩

theorem opsNorm_sub : (opsNorm : List (HloOp τ sig (Elt F))).Forall fun op => op.bufs ⊆ tcRefs τ sig :=
  ⟨unary_bufs_sub .., binary_bufs_sub .., nullary_bufs_sub .., unary_bufs_sub .., binary_bufs_sub .., unary_bufs_sub ..,
    binary_bufs_sub ..⟩

theorem opsCoord_sub : (opsCoord : List (HloOp τ sig (Elt F))).Forall fun op => op.bufs ⊆ tcRefs τ sig :=
  ⟨unary_bufs_sub .., reshape_bufs_sub .., unary_bufs_sub .., unary_bufs_sub .., reshape_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub ..⟩

theorem opsClip_sub : (opsClip : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub ..⟩

theorem opsWrap_sub : (opsWrap : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub ..⟩

theorem opsIndex_sub : (opsIndex : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., unary_bufs_sub .., unary_bufs_sub .., unary_bufs_sub .., nary_bufs_sub ..⟩

theorem opsScore_sub : (opsScore : List (HloOp τ sig (Elt F))).Forall fun op => op.bufs ⊆ tcRefs τ sig :=
  ⟨binary_bufs_sub .., unary_bufs_sub .., nullary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., binary_bufs_sub .., nullary_bufs_sub .., unary_bufs_sub .., unary_bufs_sub .., ternary_bufs_sub ..⟩

theorem opsTail_sub : (opsTail : List (HloOp τ sig (Elt F))).Forall fun op => op.bufs ⊆ tcRefs τ sig :=
  ⟨nullary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h | h) | h | h | h
    exacts [List.forall_iff_forall_mem.mp opsMean_sub op h,
      List.forall_iff_forall_mem.mp opsStd_sub op h,
      List.forall_iff_forall_mem.mp opsNorm_sub op h,
      List.forall_iff_forall_mem.mp opsCoord_sub op h,
      List.forall_iff_forall_mem.mp opsClip_sub op h,
      List.forall_iff_forall_mem.mp opsWrap_sub op h,
      List.forall_iff_forall_mem.mp opsIndex_sub op h,
      List.forall_iff_forall_mem.mp opsScore_sub op h,
      List.forall_iff_forall_mem.mp opsTail_sub op h]

/-- From any memory with zero counters, for any float values: every weakly fair execution of @main terminates, and
    every buffer ends at the fold of the 126 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStages.lean ====
/-
  The reference's computation as a composition of small named stages.

  Each stage is the term the reference's host operations build for one quantity of the score: the image without
  its channel axis, a sample's pixel sum, mean, centred image, unbiased variance (with its guard) and deviation, the
  standardized image; the fixations' truncated coordinate words, their range test, the clipped words, the wrap of a
  negative index by the axis length, the three-column index array; the gathered pixels, the mask, the count, the
  per-sample masked mean, and the batch mean. The run's fold is proved equal to `outS`; each stage is then read at
  an index on its own.
-/
import proofs.«105859_j53317724012633_2_alg».proof.Proof.Gen.ReferenceIdeal

noncomputable section

namespace Cert.ReferenceIdeal.Stages

open Cert.ReferenceIdeal Cert.ReferenceIdeal.Gen Idealize.ShloMosaic

variable {F : FTy → Type} [FloatOps F]

/-! ## Standardizing the images -/

/-- The images with the channel axis of extent one removed. -/
def img (a0 : FVec F S64x1x512x512 .f32) : FVec F S64x512x512 .f32 :=
  shapeCast S64x512x512 a0 shapeCasts_S64x1x512x512_S64x512x512

/-- Each sample's sum over both pixel axes, from the zero word. -/
def sumHW (p : FVec F S64x512x512 .f32) : FVec F S64 .f32 :=
  Host.reduceAdd p (constant S_ .f32 0x00000000#32) reducesTo_S64x512x512_S64_d1_2 h_S_

/-- Each sample's mean, kept as `[64,1,1]`. -/
def meanS (p : FVec F S64x512x512 .f32) : FVec F S64x1x1 .f32 :=
  Host.divf (broadcastInDim S64x1x1 ![0] bcast_S64_S64x1x1_0 (sumHW p))
    (broadcastInDim S64x1x1 ![] bcast_S_S64x1x1 (constant S_ .f32 0x48800000#32))

/-- The images less their means. -/
def devS (p : FVec F S64x512x512 .f32) : FVec F S64x512x512 .f32 :=
  subf p (broadcastInDim S64x512x512 ![0, 1, 2] bcast_S64x1x1_S64x512x512_0_1_2 (meanS p))

/-- The unbiased variance's divisor: the pixel count less the converted integer one. -/
def nrmS : FVec F S_ .f32 :=
  subf (constant S_ .f32 0x48800000#32) (sitofp .f32 (constantI S_ 32 1#32))

/-- Each sample's unbiased variance: the centred squares' sum over the divisor where the divisor is positive (it is), a
    quiet NaN word otherwise. -/
def varS (p : FVec F S64x512x512 .f32) : FVec F S64x1x1 .f32 :=
  select (broadcastInDim S64x1x1 ![] bcast_S_S64x1x1 (cmpf .ogt (nrmS (F := F)) (constant S_ .f32 0x00000000#32)))
    (Host.divf (broadcastInDim S64x1x1 ![0] bcast_S64_S64x1x1_0 (sumHW (mulf (devS p) (devS p))))
      (broadcastInDim S64x1x1 ![] bcast_S_S64x1x1 nrmS))
    (broadcastInDim S64x1x1 ![] bcast_S_S64x1x1 (constant S_ .f32 0x7FC00000#32))

/-- Each sample's standard deviation. -/
def stdS (p : FVec F S64x512x512 .f32) : FVec F S64x1x1 .f32 := Host.sqrt (varS p)

/-- The standardized images: centred, over the deviation plus ε. -/
def pnS (p : FVec F S64x512x512 .f32) : FVec F S64x512x512 .f32 :=
  Host.divf (devS p)
    (broadcastInDim S64x512x512 ![0, 1, 2] bcast_S64x1x1_S64x512x512_0_1_2
      (addf (stdS p) (broadcastInDim S64x1x1 ![] bcast_S_S64x1x1 (constant S_ .f32 0x322BCC77#32))))

/-! ## The fixations -/

/-- The fixations' coordinate `k` (0: column, 1: row) as `[64,12]`. -/
def colS (c : FVec F S64x12x2 .f32) : FVec F S64x12 .f32 :=
  shapeCast S64x12 (extractStridedSlice S64x12x1 ![0, 0, 0] c slices_S64x12x2_S64x12x1_0_0_0) shapeCasts_S64x12x1_S64x12
def rowS (c : FVec F S64x12x2 .f32) : FVec F S64x12 .f32 :=
  shapeCast S64x12 (extractStridedSlice S64x12x1 ![0, 0, 1] c slices_S64x12x2_S64x12x1_0_0_1) shapeCasts_S64x12x1_S64x12

/-- The truncated column and row words. -/
def pxS (c : FVec F S64x12x2 .f32) : IVec S64x12 32 := fptosi 32 (colS c)
def pyS (c : FVec F S64x12x2 .f32) : IVec S64x12 32 := fptosi 32 (rowS c)

/-- An integer word at every fixation. -/
def bc12 (v : BitVec 32) : IVec S64x12 32 := broadcastInDim S64x12 ![] bcast_S_S64x12 (constantI S_ 32 v)

/-- Whether both words lie in 0 … 511. -/
def validS (c : FVec F S64x12x2 .f32) : IVec S64x12 1 :=
  andi (andi (andi (cmpi .sge (pxS c) (bc12 0#32)) (cmpi .slt (pxS c) (bc12 512#32))) (cmpi .sge (pyS c) (bc12 0#32)))
    (cmpi .slt (pyS c) (bc12 512#32))

/-- A word array clipped into 0 … 511. -/
def clipS (x : IVec S64x12 32) : IVec S64x12 32 := minsi (bc12 511#32) (maxsi (bc12 0#32) x)

/-- A negative index wrapped by the axis length 512. -/
def wrapS (x : IVec S64x12 32) : IVec S64x12 32 := select (cmpi .slt x (bc12 0#32)) (addi x (bc12 512#32)) x

/-- The sample numbers as a column, a negative one wrapped by 64. -/
def bcolS : IVec S64x1 32 := broadcastInDim S64x1 ![0] bcast_S64_S64x1_0 (iotaInDim S64 32 0)
def bidxS : IVec S64x1 32 :=
  select (cmpi .slt bcolS (broadcastInDim S64x1 ![] bcast_S_S64x1 (constantI S_ 32 0#32)))
    (addi bcolS (broadcastInDim S64x1 ![] bcast_S_S64x1 (constantI S_ 32 64#32))) bcolS

/-- A `[64,12]` index column as `[64,12,1]`. -/
def col1 (x : IVec S64x12 32) : IVec S64x12x1 32 := broadcastInDim S64x12x1 ![0, 1] bcast_S64x12_S64x12x1_0_1 x

/-- The gather's start indices: (sample, row, column) per fixation. -/
def idxS (c : FVec F S64x12x2 .f32) : IVec S64x12x3 32 :=
  concatenate S64x12x3 2
    [⟨S64x12x1, col1 (broadcastInDim S64x12 ![0, 1] bcast_S64x1_S64x12_0_1 bidxS)⟩,
     ⟨S64x12x1, col1 (wrapS (clipS (pyS c)))⟩,
     ⟨S64x12x1, col1 (wrapS (clipS (pxS c)))⟩]
    concatenates_S64x12x1_S64x12x1_S64x12x1_S64x12x3_d2

/-! ## The score -/

/-- The standardized image read at each fixation's pixel. -/
def valsS (p : FVec F S64x512x512 .f32) (c : FVec F S64x12x2 .f32) : FVec F S64x12 .f32 :=
  Host.gather gather_S64x512x512_S64x12x3_S64x12_n_012_n_n_012_2_111 (pnS p) (idxS c)

/-- The range test as a float: 1 or 0. -/
def maskS (c : FVec F S64x12x2 .f32) : FVec F S64x12 .f32 := uitofp .f32 (validS c)

/-- Each sample's number of fixations inside the image. -/
def cntS (c : FVec F S64x12x2 .f32) : FVec F S64 .f32 :=
  Host.reduceAdd (maskS c) (constant S_ .f32 0x00000000#32) reducesTo_S64x12_S64_d1 h_S_

/-- Each sample's masked sum of readings. -/
def numS (p : FVec F S64x512x512 .f32) (c : FVec F S64x12x2 .f32) : FVec F S64 .f32 :=
  Host.reduceAdd (mulf (valsS p c) (maskS c)) (constant S_ .f32 0x00000000#32) reducesTo_S64x12_S64_d1 h_S_

/-- Each sample's masked mean: the sum over the count floored at one where the count is positive, zero otherwise. -/
def perS (p : FVec F S64x512x512 .f32) (c : FVec F S64x12x2 .f32) : FVec F S64 .f32 :=
  select (cmpf .ogt (cntS c) (broadcastInDim S64 ![] bcast_S_S64 (constant S_ .f32 0x00000000#32)))
    (Host.divf (numS p c) (maximumf (cntS c) (broadcastInDim S64 ![] bcast_S_S64 (constant S_ .f32 0x3F800000#32))))
    (broadcastInDim S64 ![] bcast_S_S64 (constant S_ .f32 0x00000000#32))

/-- The batch mean: the sum of the 64 values from the zero word, over 64. -/
def tailS (v : FVec F S64 .f32) : FVec F S_ .f32 :=
  Host.divf (Host.reduceAdd v (constant S_ .f32 0x00000000#32) reducesTo_S64_S_d0 h_S_) (constant S_ .f32 0x42800000#32)

/-- The reference's result as a function of its two arguments. -/
def outS (a0 : FVec F S64x1x512x512 .f32) (a1 : FVec F S64x12x2 .f32) : FVec F S_ .f32 :=
  tailS (perS (img a0) a1)

end Cert.ReferenceIdeal.Stages

end
-- ==== Proof.RefOut.lean ====
/-
  The reference's fold, stretch by stretch, is the composition of the named stages.

  `valK V0` is what the buffers hold after the first K stretches of the line from contents `V0`. For every buffer a
  later stretch still reads, a lemma gives its contents as a stage applied to the two arguments' contents; a buffer a
  stretch does not write is carried through it. The last lemma reads the result buffer: the whole line computes
  `outS` of the two arguments, which it leaves unchanged.
-/
import proofs.«105859_j53317724012633_2_alg».proof.Proof.RefRun
import proofs.«105859_j53317724012633_2_alg».proof.Proof.RefStages

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- An operation's one written buffer is among a literal list of references. -/
local macro "wr" : tactic =>
  `(tactic| (simp only [nullary_writes, unary_writes, binary_writes, ternary_writes, reshape_writes, nary_writes, Finset.singleton_subset_iff, List.mem_toFinset]
             exact List.mem_map_of_mem (by decide)))

/-- An operation of three operands given as a literal family reads each at its own reference. -/
theorem nary3_result' {Val : EltTy → Type} {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [nary_result]; congr 1; funext k; fin_cases k <;> rfl

/-- The buffers' contents before the line. -/
def val0 (V0 : Valuation τ sig (Elt F)) : Valuation τ sig (Elt F) := V0

/-- The buffers' contents after the first 1 stretch. -/
def val1 (V0 : Valuation τ sig (Elt F)) : Valuation τ sig (Elt F) := after opsMean (val0 V0)
/-- The buffers stretch 1 writes. -/
abbrev opsMean_W : List (Ref sig .tc) := [main_v0, main_cst, main_v1, main_v2, main_cst_0, main_v3, main_v4, main_c]
set_option maxRecDepth 8192 in
theorem opsMean_writes : (opsMean : List (HloOp τ sig (Elt F))).Forall fun op => op.writes ⊆ (opsMean_W.map (Proc.devRef (τ := τ) .tc)).toFinset := by
  simp only [List.Forall]
  exact ⟨by wr, by wr, by wr, by wr, by wr, by wr, by wr, by wr⟩
/-- A buffer stretch 1 does not write keeps its contents through it. -/
theorem val1_keep (V0 : Valuation τ sig (Elt F)) (r : Ref sig .tc) (h : r ∉ opsMean_W) :
    val1 V0 (Proc.devRef .tc r) = val0 V0 (Proc.devRef .tc r) :=
  after_of_writes_sub opsMean _ opsMean_writes h
theorem val1_main_arg0 (V0 : Valuation τ sig (Elt F)) : val1 V0 (no_index (Proc.devRef .tc main_arg0)) = V0 (Proc.devRef .tc main_arg0) :=
  (val1_keep V0 main_arg0 (by decide)).trans (rfl)
theorem val1_main_arg1 (V0 : Valuation τ sig (Elt F)) : val1 V0 (no_index (Proc.devRef .tc main_arg1)) = V0 (Proc.devRef .tc main_arg1) :=
  (val1_keep V0 main_arg1 (by decide)).trans (rfl)
set_option maxRecDepth 8192 in
set_option maxHeartbeats 2000000 in
theorem val1_main_v0 (V0 : Valuation τ sig (Elt F)) : val1 V0 (no_index (Proc.devRef .tc main_v0)) = (img (V0 (Proc.devRef .tc main_arg0)) : FVec F S64x512x512 .f32) := by
  unfold val1 val0
  simp only [opsMean]
  after_results_simp
  rfl
set_option maxRecDepth 8192 in
set_option maxHeartbeats 2000000 in
theorem val1_main_v4 (V0 : Valuation τ sig (Elt F)) : val1 V0 (no_index (Proc.devRef .tc main_v4)) = (meanS (img (V0 (Proc.devRef .tc main_arg0))) : FVec F S64x1x1 .f32) := by
  unfold val1 val0
  simp only [opsMean]
  after_results_simp
  rfl
set_option maxRecDepth 8192 in
set_option maxHeartbeats 2000000 in
theorem val1_main_c (V0 : Valuation τ sig (Elt F)) : val1 V0 (no_index (Proc.devRef .tc main_c)) = (constantI S_ 32 1#32 : IVec S_ 32) := by
  unfold val1 val0
  simp only [opsMean]
  after_results_simp

/-- The buffers' contents after the first 2 stretches. -/
def val2 (V0 : Valuation τ sig (Elt F)) : Valuation τ sig (Elt F) := after opsStd (val1 V0)
/-- The buffers stretch 2 writes. -/
abbrev opsStd_W : List (Ref sig .tc) := [main_call0.call0.cst.ref, main_call0.call0.v0.ref, main_call0.call0.v1.ref, main_call0.call0.cst_0.ref, main_call0.call0.v2.ref, main_call0.call0.v3.ref, main_call0.call0.v4.ref, main_call0.call0.v5.ref, main_call0.call0.v6.ref, main_call0.call0.v7.ref, main_call0.call0.cst_1.ref, main_call0.call0.v8.ref, main_call0.call0.cst_2.ref, main_call0.call0.v9.ref, main_call0.call0.v10.ref, main_call0.call0.v11.ref, main_call0.call0.v12.ref, main_call0.call0.cst_3.ref, main_call0.call0.v13.ref, main_call0.call0.cst_4.ref, main_call0.call0.call0.v0.ref, main_call0.call0.call0.v1.ref, main_call0.call0.call0.v2.ref, main_call0.v1.ref]
set_option maxRecDepth 8192 in
theorem opsStd_writes : (opsStd : List (HloOp τ sig (Elt F))).Forall fun op => op.writes ⊆ (opsStd_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr, by wr, by wr, by wr⟩
/-- A buffer stretch 2 does not write keeps its contents through it. -/
theorem val2_keep (V0 : Valuation τ sig (Elt F)) (r : Ref sig .tc) (h : r ∉ opsStd_W) :
    val2 V0 (Proc.devRef .tc r) = val1 V0 (Proc.devRef .tc r) :=
  after_of_writes_sub opsStd _ opsStd_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v0 (V0 : Valuation τ sig (Elt F)) : val2 V0 (no_index (Proc.devRef .tc main_v0)) = (img (V0 (Proc.devRef .tc main_arg0)) : FVec F S64x512x512 .f32) :=
  (val2_keep V0 main_v0 (by decide)).trans (val1_main_v0 V0)
theorem val2_main_v4 (V0 : Valuation τ sig (Elt F)) : val2 V0 (no_index (Proc.devRef .tc main_v4)) = (meanS (img (V0 (Proc.devRef .tc main_arg0))) : FVec F S64x1x1 .f32) :=
  (val2_keep V0 main_v4 (by decide)).trans (val1_main_v4 V0)
set_option maxRecDepth 8192 in
set_option maxHeartbeats 2000000 in
theorem val2_main_v5 (V0 : Valuation τ sig (Elt F)) : val2 V0 (no_index (Proc.devRef .tc main_v5)) = (stdS (img (V0 (Proc.devRef .tc main_arg0))) : FVec F S64x1x1 .f32) := by
  unfold val2
  simp only [opsStd]
  after_results_simp
  simp only [val1_main_v0, val1_main_c]
  rfl

/-- The buffers' contents after the first 3 stretches. -/
def val3 (V0 : Valuation τ sig (Elt F)) : Valuation τ sig (Elt F) := after opsNorm (val2 V0)
/-- The buffers stretch 3 writes. -/
abbrev opsNorm_W : List (Ref sig .tc) := [main_v6, main_v7, main_cst_1, main_v8, main_v9, main_v10, main_v11]
set_option maxRecDepth 8192 in
theorem opsNorm_writes : (opsNorm : List (HloOp τ sig (Elt F))).Forall fun op => op.writes ⊆ (opsNorm_W.map (Proc.devRef (τ := τ) .tc)).toFinset := by
  simp only [List.Forall]
  exact ⟨by wr, by wr, by wr, by wr, by wr, by wr, by wr⟩
/-- A buffer stretch 3 does not write keeps its contents through it. -/
theorem val3_keep (V0 : Valuation τ sig (Elt F)) (r : Ref sig .tc) (h : r ∉ opsNorm_W) :
    val3 V0 (Proc.devRef .tc r) = val2 V0 (Proc.devRef .tc r) :=
  after_of_writes_sub opsNorm _ opsNorm_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
set_option maxRecDepth 8192 in
set_option maxHeartbeats 2000000 in
theorem val3_main_v11 (V0 : Valuation τ sig (Elt F)) : val3 V0 (no_index (Proc.devRef .tc main_v11)) = (pnS (img (V0 (Proc.devRef .tc main_arg0))) : FVec F S64x512x512 .f32) := by
  unfold val3
  simp only [opsNorm]
  after_results_simp
  simp only [val2_main_v0, val2_main_v4, val2_main_v5]
  rfl

/-- The buffers' contents after the first 4 stretches. -/
def val4 (V0 : Valuation τ sig (Elt F)) : Valuation τ sig (Elt F) := after opsCoord (val3 V0)
/-- The buffers stretch 4 writes. -/
abbrev opsCoord_W : List (Ref sig .tc) := [main_v12, main_v13, main_v14, main_v15, main_v16, main_v17, main_c_2, main_v18, main_v19, main_c_3, main_v20, main_v21, main_v22, main_c_4, main_v23, main_v24, main_v25, main_c_5, main_v26, main_v27, main_v28]
set_option maxRecDepth 8192 in
theorem opsCoord_writes : (opsCoord : List (HloOp τ sig (Elt F))).Forall fun op => op.writes ⊆ (opsCoord_W.map (Proc.devRef (τ := τ) .tc)).toFinset := by
  simp only [List.Forall]
  exact ⟨by wr, by wr, by wr, by wr, by wr, by wr, by wr, by wr, by wr, by wr, by wr, by wr,
    by wr, by wr, by wr, by wr, by wr, by wr, by wr, by wr, by wr⟩
/-- A buffer stretch 4 does not write keeps its contents through it. -/
theorem val4_keep (V0 : Valuation τ sig (Elt F)) (r : Ref sig .tc) (h : r ∉ opsCoord_W) :
    val4 V0 (Proc.devRef .tc r) = val3 V0 (Proc.devRef .tc r) :=
  after_of_writes_sub opsCoord _ opsCoord_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_v11 (V0 : Valuation τ sig (Elt F)) : val4 V0 (no_index (Proc.devRef .tc main_v11)) = (pnS (img (V0 (Proc.devRef .tc main_arg0))) : FVec F S64x512x512 .f32) :=
  (val4_keep V0 main_v11 (by decide)).trans (val3_main_v11 V0)
set_option maxRecDepth 8192 in
set_option maxHeartbeats 2000000 in
theorem val4_main_v14 (V0 : Valuation τ sig (Elt F)) : val4 V0 (no_index (Proc.devRef .tc main_v14)) = (pxS (V0 (Proc.devRef .tc main_arg1)) : IVec S64x12 32) := by
  unfold val4
  simp only [opsCoord]
  after_results_simp
  simp only [val3_main_arg1]
  rfl
set_option maxRecDepth 8192 in
set_option maxHeartbeats 2000000 in
theorem val4_main_v17 (V0 : Valuation τ sig (Elt F)) : val4 V0 (no_index (Proc.devRef .tc main_v17)) = (pyS (V0 (Proc.devRef .tc main_arg1)) : IVec S64x12 32) := by
  unfold val4
  simp only [opsCoord]
  after_results_simp
  simp only [val3_main_arg1]
  rfl
set_option maxRecDepth 8192 in
set_option maxHeartbeats 2000000 in
theorem val4_main_v28 (V0 : Valuation τ sig (Elt F)) : val4 V0 (no_index (Proc.devRef .tc main_v28)) = (validS (V0 (Proc.devRef .tc main_arg1)) : IVec S64x12 1) := by
  unfold val4
  simp only [opsCoord]
  after_results_simp
  simp only [val3_main_arg1]
  rfl

/-- The buffers' contents after the first 5 stretches. -/
def val5 (V0 : Valuation τ sig (Elt F)) : Valuation τ sig (Elt F) := after opsClip (val4 V0)
/-- The buffers stretch 5 writes. -/
abbrev opsClip_W : List (Ref sig .tc) := [main_c_6, main_c_7, main_call1.v0.ref, main_call1.v1.ref, main_call1.v2.ref, main_call1.v3.ref, main_call1.v4.ref, main_call1.v5.ref, main_c_8, main_c_9, main_call2.v0.ref, main_call2.v1.ref, main_call2.v2.ref, main_call2.v3.ref, main_call2.v4.ref, main_call2.v5.ref]
set_option maxRecDepth 8192 in
theorem opsClip_writes : (opsClip : List (HloOp τ sig (Elt F))).Forall fun op => op.writes ⊆ (opsClip_W.map (Proc.devRef (τ := τ) .tc)).toFinset := by
  simp only [List.Forall]
  exact ⟨by wr, by wr, by wr, by wr, by wr, by wr, by wr, by wr, by wr, by wr, by wr, by wr,
    by wr, by wr, by wr, by wr⟩
/-- A buffer stretch 5 does not write keeps its contents through it. -/
theorem val5_keep (V0 : Valuation τ sig (Elt F)) (r : Ref sig .tc) (h : r ∉ opsClip_W) :
    val5 V0 (Proc.devRef .tc r) = val4 V0 (Proc.devRef .tc r) :=
  after_of_writes_sub opsClip _ opsClip_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_v11 (V0 : Valuation τ sig (Elt F)) : val5 V0 (no_index (Proc.devRef .tc main_v11)) = (pnS (img (V0 (Proc.devRef .tc main_arg0))) : FVec F S64x512x512 .f32) :=
  (val5_keep V0 main_v11 (by decide)).trans (val4_main_v11 V0)
theorem val5_main_v28 (V0 : Valuation τ sig (Elt F)) : val5 V0 (no_index (Proc.devRef .tc main_v28)) = (validS (V0 (Proc.devRef .tc main_arg1)) : IVec S64x12 1) :=
  (val5_keep V0 main_v28 (by decide)).trans (val4_main_v28 V0)
set_option maxRecDepth 8192 in
set_option maxHeartbeats 2000000 in
theorem val5_main_v29 (V0 : Valuation τ sig (Elt F)) : val5 V0 (no_index (Proc.devRef .tc main_v29)) = (clipS (pxS (V0 (Proc.devRef .tc main_arg1))) : IVec S64x12 32) := by
  unfold val5
  simp only [opsClip]
  after_results_simp
  simp only [val4_main_v14]
  rfl
set_option maxRecDepth 8192 in
set_option maxHeartbeats 2000000 in
theorem val5_main_v30 (V0 : Valuation τ sig (Elt F)) : val5 V0 (no_index (Proc.devRef .tc main_v30)) = (clipS (pyS (V0 (Proc.devRef .tc main_arg1))) : IVec S64x12 32) := by
  unfold val5
  simp only [opsClip]
  after_results_simp
  simp only [val4_main_v17]
  rfl

/-- The buffers' contents after the first 6 stretches. -/
def val6 (V0 : Valuation τ sig (Elt F)) : Valuation τ sig (Elt F) := after opsWrap (val5 V0)
/-- The buffers stretch 6 writes. -/
abbrev opsWrap_W : List (Ref sig .tc) := [main_v31, main_v32, main_c_10, main_v33, main_v34, main_c_11, main_v35, main_v36, main_v37, main_c_12, main_v38, main_v39, main_c_13, main_v40, main_v41, main_v42, main_c_14]
set_option maxRecDepth 8192 in
theorem opsWrap_writes : (opsWrap : List (HloOp τ sig (Elt F))).Forall fun op => op.writes ⊆ (opsWrap_W.map (Proc.devRef (τ := τ) .tc)).toFinset := by
  simp only [List.Forall]
  exact ⟨by wr, by wr, by wr, by wr, by wr, by wr, by wr, by wr, by wr, by wr, by wr, by wr,
    by wr, by wr, by wr, by wr, by wr⟩
/-- A buffer stretch 6 does not write keeps its contents through it. -/
theorem val6_keep (V0 : Valuation τ sig (Elt F)) (r : Ref sig .tc) (h : r ∉ opsWrap_W) :
    val6 V0 (Proc.devRef .tc r) = val5 V0 (Proc.devRef .tc r) :=
  after_of_writes_sub opsWrap _ opsWrap_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_v11 (V0 : Valuation τ sig (Elt F)) : val6 V0 (no_index (Proc.devRef .tc main_v11)) = (pnS (img (V0 (Proc.devRef .tc main_arg0))) : FVec F S64x512x512 .f32) :=
  (val6_keep V0 main_v11 (by decide)).trans (val5_main_v11 V0)
theorem val6_main_v28 (V0 : Valuation τ sig (Elt F)) : val6 V0 (no_index (Proc.devRef .tc main_v28)) = (validS (V0 (Proc.devRef .tc main_arg1)) : IVec S64x12 1) :=
  (val6_keep V0 main_v28 (by decide)).trans (val5_main_v28 V0)
theorem val6_main_v29 (V0 : Valuation τ sig (Elt F)) : val6 V0 (no_index (Proc.devRef .tc main_v29)) = (clipS (pxS (V0 (Proc.devRef .tc main_arg1))) : IVec S64x12 32) :=
  (val6_keep V0 main_v29 (by decide)).trans (val5_main_v29 V0)
set_option maxRecDepth 8192 in
set_option maxHeartbeats 2000000 in
theorem val6_main_v37 (V0 : Valuation τ sig (Elt F)) : val6 V0 (no_index (Proc.devRef .tc main_v37)) = (bidxS : IVec S64x1 32) := by
  unfold val6
  simp only [opsWrap]
  after_results_simp
  rfl
set_option maxRecDepth 8192 in
set_option maxHeartbeats 2000000 in
theorem val6_main_v42 (V0 : Valuation τ sig (Elt F)) : val6 V0 (no_index (Proc.devRef .tc main_v42)) = (wrapS (clipS (pyS (V0 (Proc.devRef .tc main_arg1)))) : IVec S64x12 32) := by
  unfold val6
  simp only [opsWrap]
  after_results_simp
  simp only [val5_main_v30]
  rfl
set_option maxRecDepth 8192 in
set_option maxHeartbeats 2000000 in
theorem val6_main_c_14 (V0 : Valuation τ sig (Elt F)) : val6 V0 (no_index (Proc.devRef .tc main_c_14)) = (constantI S_ 32 0#32 : IVec S_ 32) := by
  unfold val6
  simp only [opsWrap]
  after_results_simp

/-- The buffers' contents after the first 7 stretches. -/
def val7 (V0 : Valuation τ sig (Elt F)) : Valuation τ sig (Elt F) := after opsIndex (val6 V0)
/-- The buffers stretch 7 writes. -/
abbrev opsIndex_W : List (Ref sig .tc) := [main_v43, main_v44, main_c_15, main_v45, main_v46, main_v47, main_v48, main_v49, main_v50, main_v51, main_v52]
set_option maxRecDepth 8192 in
theorem opsIndex_writes : (opsIndex : List (HloOp τ sig (Elt F))).Forall fun op => op.writes ⊆ (opsIndex_W.map (Proc.devRef (τ := τ) .tc)).toFinset := by
  simp only [List.Forall]
  exact ⟨by wr, by wr, by wr, by wr, by wr, by wr, by wr, by wr, by wr, by wr, by wr⟩
/-- A buffer stretch 7 does not write keeps its contents through it. -/
theorem val7_keep (V0 : Valuation τ sig (Elt F)) (r : Ref sig .tc) (h : r ∉ opsIndex_W) :
    val7 V0 (Proc.devRef .tc r) = val6 V0 (Proc.devRef .tc r) :=
  after_of_writes_sub opsIndex _ opsIndex_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_v11 (V0 : Valuation τ sig (Elt F)) : val7 V0 (no_index (Proc.devRef .tc main_v11)) = (pnS (img (V0 (Proc.devRef .tc main_arg0))) : FVec F S64x512x512 .f32) :=
  (val7_keep V0 main_v11 (by decide)).trans (val6_main_v11 V0)
theorem val7_main_v28 (V0 : Valuation τ sig (Elt F)) : val7 V0 (no_index (Proc.devRef .tc main_v28)) = (validS (V0 (Proc.devRef .tc main_arg1)) : IVec S64x12 1) :=
  (val7_keep V0 main_v28 (by decide)).trans (val6_main_v28 V0)
/-- Stretch 7 without its last operation, the join of the three index columns. -/
abbrev opsIndexA : List (HloOp τ sig (Elt F)) :=
  [ unary main_c_14 main_v43 (broadcastInDim S64x12 ![] bcast_S_S64x12 : (⟨S_, .i32⟩ : BufTy).Contents (Elt F) → (⟨S64x12, .i32⟩ : BufTy).Contents (Elt F)),
    binary main_v29 main_v43 main_v44 (cmpi .slt : (⟨S64x12, .i32⟩ : BufTy).Contents (Elt F) → (⟨S64x12, .i32⟩ : BufTy).Contents (Elt F) → (⟨S64x12, .i1⟩ : BufTy).Contents (Elt F)),
    nullary main_c_15 (constantI S_ 32 512#32),
    unary main_c_15 main_v45 (broadcastInDim S64x12 ![] bcast_S_S64x12 : (⟨S_, .i32⟩ : BufTy).Contents (Elt F) → (⟨S64x12, .i32⟩ : BufTy).Contents (Elt F)),
    binary main_v29 main_v45 main_v46 (addi : (⟨S64x12, .i32⟩ : BufTy).Contents (Elt F) → (⟨S64x12, .i32⟩ : BufTy).Contents (Elt F) → (⟨S64x12, .i32⟩ : BufTy).Contents (Elt F)),
    ternary main_v44 main_v46 main_v29 main_v47 (select : (⟨S64x12, .i1⟩ : BufTy).Contents (Elt F) → (⟨S64x12, .i32⟩ : BufTy).Contents (Elt F) → (⟨S64x12, .i32⟩ : BufTy).Contents (Elt F) → (⟨S64x12, .i32⟩ : BufTy).Contents (Elt F)),
    unary main_v37 main_v48 (broadcastInDim S64x12 ![0, 1] bcast_S64x1_S64x12_0_1 : (⟨S64x1, .i32⟩ : BufTy).Contents (Elt F) → (⟨S64x12, .i32⟩ : BufTy).Contents (Elt F)),
    unary main_v48 main_v49 (broadcastInDim S64x12x1 ![0, 1] bcast_S64x12_S64x12x1_0_1 : (⟨S64x12, .i32⟩ : BufTy).Contents (Elt F) → (⟨S64x12x1, .i32⟩ : BufTy).Contents (Elt F)),
    unary main_v42 main_v50 (broadcastInDim S64x12x1 ![0, 1] bcast_S64x12_S64x12x1_0_1 : (⟨S64x12, .i32⟩ : BufTy).Contents (Elt F) → (⟨S64x12x1, .i32⟩ : BufTy).Contents (Elt F)),
    unary main_v47 main_v51 (broadcastInDim S64x12x1 ![0, 1] bcast_S64x12_S64x12x1_0_1 : (⟨S64x12, .i32⟩ : BufTy).Contents (Elt F) → (⟨S64x12x1, .i32⟩ : BufTy).Contents (Elt F)) ]
/-- The join of the three index columns. -/
abbrev opsCat : List (HloOp τ sig (Elt F)) :=
  [ nary ![main_v49, main_v50, main_v51] main_v52 (fun u => concatenate S64x12x3 2 [⟨S64x12x1, u 0⟩, ⟨S64x12x1, u 1⟩, ⟨S64x12x1, u 2⟩] concatenates_S64x12x1_S64x12x1_S64x12x1_S64x12x3_d2) ]
theorem opsIndex_eq : (opsIndex : List (HloOp τ sig (Elt F))) = opsIndexA ++ opsCat := rfl
/-- The buffers' contents just before the join. -/
def val7a (V0 : Valuation τ sig (Elt F)) : Valuation τ sig (Elt F) := after opsIndexA (val6 V0)
theorem val7_eq (V0 : Valuation τ sig (Elt F)) : val7 V0 = after opsCat (val7a V0) := by
  unfold val7 val7a; rw [opsIndex_eq, after_append]
set_option maxRecDepth 8192 in
set_option maxHeartbeats 2000000 in
theorem val7a_main_v49 (V0 : Valuation τ sig (Elt F)) : val7a V0 (no_index (Proc.devRef .tc main_v49)) = (col1 (broadcastInDim S64x12 ![0, 1] bcast_S64x1_S64x12_0_1 bidxS) : IVec S64x12x1 32) := by
  unfold val7a
  simp only [opsIndexA]
  after_results_simp
  simp only [val6_main_v37]
  rfl
set_option maxRecDepth 8192 in
set_option maxHeartbeats 2000000 in
theorem val7a_main_v50 (V0 : Valuation τ sig (Elt F)) : val7a V0 (no_index (Proc.devRef .tc main_v50)) = (col1 (wrapS (clipS (pyS (V0 (Proc.devRef .tc main_arg1))))) : IVec S64x12x1 32) := by
  unfold val7a
  simp only [opsIndexA]
  after_results_simp
  simp only [val6_main_v42]
  rfl
set_option maxRecDepth 8192 in
set_option maxHeartbeats 2000000 in
theorem val7a_main_v51 (V0 : Valuation τ sig (Elt F)) : val7a V0 (no_index (Proc.devRef .tc main_v51)) = (col1 (wrapS (clipS (pxS (V0 (Proc.devRef .tc main_arg1))))) : IVec S64x12x1 32) := by
  unfold val7a
  simp only [opsIndexA]
  after_results_simp
  simp only [val6_main_c_14, val6_main_v29]
  rfl
/-- The joined index array: each column read at its own buffer. -/
theorem val7_main_v52 (V0 : Valuation τ sig (Elt F)) : val7 V0 (no_index (Proc.devRef .tc main_v52)) = (idxS (V0 (Proc.devRef .tc main_arg1)) : IVec S64x12x3 32) := by
  rw [val7_eq]
  simp only [opsCat, after_cons, after_nil]
  rw [nary_result]
  show concatenate S64x12x3 2 [⟨S64x12x1, val7a V0 (Proc.devRef .tc main_v49)⟩, ⟨S64x12x1, val7a V0 (Proc.devRef .tc main_v50)⟩,
    ⟨S64x12x1, val7a V0 (Proc.devRef .tc main_v51)⟩] concatenates_S64x12x1_S64x12x1_S64x12x1_S64x12x3_d2 = _
  rw [val7a_main_v49, val7a_main_v50, val7a_main_v51]
  rfl

/-- The buffers' contents after the first 8 stretches. -/
def val8 (V0 : Valuation τ sig (Elt F)) : Valuation τ sig (Elt F) := after opsScore (val7 V0)
/-- The buffers stretch 8 writes. -/
abbrev opsScore_W : List (Ref sig .tc) := [main_v53, main_v54, main_cst_16, main_v55, main_cst_17, main_v56, main_v57, main_v58, main_cst_18, main_v59, main_cst_19, main_v60, main_v61, main_v62, main_cst_20, main_call3.v0.ref, main_call3.v1.ref, main_call3.v2.ref]
set_option maxRecDepth 8192 in
theorem opsScore_writes : (opsScore : List (HloOp τ sig (Elt F))).Forall fun op => op.writes ⊆ (opsScore_W.map (Proc.devRef (τ := τ) .tc)).toFinset := by
  simp only [List.Forall]
  exact ⟨by wr, by wr, by wr, by wr, by wr, by wr, by wr, by wr, by wr, by wr, by wr, by wr,
    by wr, by wr, by wr, by wr, by wr, by wr⟩
/-- A buffer stretch 8 does not write keeps its contents through it. -/
theorem val8_keep (V0 : Valuation τ sig (Elt F)) (r : Ref sig .tc) (h : r ∉ opsScore_W) :
    val8 V0 (Proc.devRef .tc r) = val7 V0 (Proc.devRef .tc r) :=
  after_of_writes_sub opsScore _ opsScore_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
set_option maxRecDepth 8192 in
set_option maxHeartbeats 2000000 in
theorem val8_main_v63 (V0 : Valuation τ sig (Elt F)) : val8 V0 (no_index (Proc.devRef .tc main_v63)) = (perS (img (V0 (Proc.devRef .tc main_arg0))) (V0 (Proc.devRef .tc main_arg1)) : FVec F S64 .f32) := by
  unfold val8
  simp only [opsScore]
  after_results_simp
  simp only [val7_main_v11, val7_main_v52, val7_main_v28]
  rfl

/-- The buffers' contents after the first 9 stretches. -/
def val9 (V0 : Valuation τ sig (Elt F)) : Valuation τ sig (Elt F) := after opsTail (val8 V0)
/-- The buffers stretch 9 writes. -/
abbrev opsTail_W : List (Ref sig .tc) := [main_cst_21, main_v64, main_cst_22, main_v65]
set_option maxRecDepth 8192 in
theorem opsTail_writes : (opsTail : List (HloOp τ sig (Elt F))).Forall fun op => op.writes ⊆ (opsTail_W.map (Proc.devRef (τ := τ) .tc)).toFinset := by
  simp only [List.Forall]
  exact ⟨by wr, by wr, by wr, by wr⟩
/-- A buffer stretch 9 does not write keeps its contents through it. -/
theorem val9_keep (V0 : Valuation τ sig (Elt F)) (r : Ref sig .tc) (h : r ∉ opsTail_W) :
    val9 V0 (Proc.devRef .tc r) = val8 V0 (Proc.devRef .tc r) :=
  after_of_writes_sub opsTail _ opsTail_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
set_option maxRecDepth 8192 in
set_option maxHeartbeats 2000000 in
theorem val9_main_v65 (V0 : Valuation τ sig (Elt F)) : val9 V0 (no_index (Proc.devRef .tc main_v65)) = (outS (V0 (Proc.devRef .tc main_arg0)) (V0 (Proc.devRef .tc main_arg1)) : FVec F S_ .f32) := by
  unfold val9
  simp only [opsTail]
  after_results_simp
  simp only [val8_main_v63]
  rfl

/-- The whole line's fold is the nine stretches' in turn. -/
theorem after_ops (V0 : Valuation τ sig (Elt F)) : after ops V0 = val9 V0 := by
  simp only [ops, opsA, opsB, after_append]
  rfl

/-- The line computes the stages' composition into the result buffer … -/
theorem out_eq (V0 : Valuation τ sig (Elt F)) :
    after ops V0 (Proc.devRef .tc main_v65) = (outS (V0 (Proc.devRef .tc main_arg0)) (V0 (Proc.devRef .tc main_arg1)) : FVec F S_ .f32) := by
  rw [after_ops]; exact val9_main_v65 V0
/-- … and leaves both arguments as they were. -/
theorem arg0_eq (V0 : Valuation τ sig (Elt F)) : after ops V0 (Proc.devRef .tc main_arg0) = V0 (Proc.devRef .tc main_arg0) := by
  rw [after_ops]; exact val9_main_arg0 V0
theorem arg1_eq (V0 : Valuation τ sig (Elt F)) : after ops V0 (Proc.devRef .tc main_arg1) = V0 (Proc.devRef .tc main_arg1) := by
  rw [after_ops]; exact val9_main_arg1 V0

end Cert.ReferenceIdeal.HandRun

end
-- ==== Proof.RefGather.lean ====
/-
  The reference's gather read at an entry of its result.

  The operand is a [64, 512, 512] array, the start indices a [64, 12, 3] array of words, the result [64, 12].  All
  three operand axes are collapsed and all three are named by the start-index map, with slices of size one: the
  result at (b, f) is the operand at the index whose coordinate on axis k is the start index's component
  `idx (b, f, k)`, read as a signed integer and clamped into the axis (0 … 63 on axis 0, 0 … 511 on axes 1 and 2).
  There is neither a batch coordinate nor an offset coordinate to add.
-/
import proofs.«105859_j53317724012633_2_alg».proof.Proof.Gen.ReferenceIdeal
import Idealize.ShloMosaic.Lib.ValueIdx

namespace Cert.ReferenceIdeal.Stages

open Cert.ReferenceIdeal Cert.ReferenceIdeal.Gen Idealize.ShloMosaic Idealize.ShloMosaic.ValueIdx

/-- The gather at (b, f): the operand at the three clamped components of the start index (b, f, ·). -/
theorem gather_apply {α : Type} (x : S64x512x512.Idx → α) (idx : IVec S64x12x3 32) (b : Fin 64) (f : Fin 12) :
    Host.gather gather_S64x512x512_S64x12x3_S64x12_n_012_n_n_012_2_111 x idx (ix2 b f)
      = x (ix3 ⟨min (idx (ix3 b f 0)).toInt.toNat 63, by omega⟩ ⟨min (idx (ix3 b f 1)).toInt.toNat 511, by omega⟩
              ⟨min (idx (ix3 b f 2)).toInt.toNat 511, by omega⟩) := by
  unfold Host.gather
  refine congrArg x (funext fun a => Fin.ext ?_)
  match a with
  | ⟨0, _⟩ =>
    show gather_S64x512x512_S64x12x3_S64x12_n_012_n_n_012_2_111.start (ix2 b f) idx 0 + gather_S64x512x512_S64x12x3_S64x12_n_012_n_n_012_2_111.batchCoord (ix2 b f) 0 + gather_S64x512x512_S64x12x3_S64x12_n_012_n_n_012_2_111.offCoord (ix2 b f) 0
      = min (idx (ix3 b f 0)).toInt.toNat 63
    rw [GatherDims.batchCoord_eq_zero _ _ _ List.not_mem_nil,
      GatherDims.offCoord_eq_zero _ _ _ (fun h => ((GatherDims.mem_sKept _ _).mp h).1 (show (0 : Fin 3) ∈ [0, 1, 2] by decide))]
    simp only [Nat.add_zero]
    unfold GatherDims.start
    rw [dif_pos (show (0 : Fin 3) ∈ gather_S64x512x512_S64x12x3_S64x12_n_012_n_n_012_2_111.startIndexMap from (show (0 : Fin 3) ∈ [0, 1, 2] by decide))]
    have hsi : gather_S64x512x512_S64x12x3_S64x12_n_012_n_n_012_2_111.siIdx (ix2 b f)
        ⟨List.idxOf (0 : Fin 3) gather_S64x512x512_S64x12x3_S64x12_n_012_n_n_012_2_111.startIndexMap,
          List.idxOf_lt_length_iff.2 (show (0 : Fin 3) ∈ [0, 1, 2] by decide)⟩ = ix3 b f 0 := by
      funext c; refine Fin.ext ?_
      match c with
      | ⟨0, _⟩ => rfl
      | ⟨1, _⟩ => rfl
      | ⟨2, _⟩ => rfl
    rw [hsi]
    rfl
  | ⟨1, _⟩ =>
    show gather_S64x512x512_S64x12x3_S64x12_n_012_n_n_012_2_111.start (ix2 b f) idx 1 + gather_S64x512x512_S64x12x3_S64x12_n_012_n_n_012_2_111.batchCoord (ix2 b f) 1 + gather_S64x512x512_S64x12x3_S64x12_n_012_n_n_012_2_111.offCoord (ix2 b f) 1
      = min (idx (ix3 b f 1)).toInt.toNat 511
    rw [GatherDims.batchCoord_eq_zero _ _ _ List.not_mem_nil,
      GatherDims.offCoord_eq_zero _ _ _ (fun h => ((GatherDims.mem_sKept _ _).mp h).1 (show (1 : Fin 3) ∈ [0, 1, 2] by decide))]
    simp only [Nat.add_zero]
    unfold GatherDims.start
    rw [dif_pos (show (1 : Fin 3) ∈ gather_S64x512x512_S64x12x3_S64x12_n_012_n_n_012_2_111.startIndexMap from (show (1 : Fin 3) ∈ [0, 1, 2] by decide))]
    have hsi : gather_S64x512x512_S64x12x3_S64x12_n_012_n_n_012_2_111.siIdx (ix2 b f)
        ⟨List.idxOf (1 : Fin 3) gather_S64x512x512_S64x12x3_S64x12_n_012_n_n_012_2_111.startIndexMap,
          List.idxOf_lt_length_iff.2 (show (1 : Fin 3) ∈ [0, 1, 2] by decide)⟩ = ix3 b f 1 := by
      funext c; refine Fin.ext ?_
      match c with
      | ⟨0, _⟩ => rfl
      | ⟨1, _⟩ => rfl
      | ⟨2, _⟩ => rfl
    rw [hsi]
    rfl
  | ⟨2, _⟩ =>
    show gather_S64x512x512_S64x12x3_S64x12_n_012_n_n_012_2_111.start (ix2 b f) idx 2 + gather_S64x512x512_S64x12x3_S64x12_n_012_n_n_012_2_111.batchCoord (ix2 b f) 2 + gather_S64x512x512_S64x12x3_S64x12_n_012_n_n_012_2_111.offCoord (ix2 b f) 2
      = min (idx (ix3 b f 2)).toInt.toNat 511
    rw [GatherDims.batchCoord_eq_zero _ _ _ List.not_mem_nil,
      GatherDims.offCoord_eq_zero _ _ _ (fun h => ((GatherDims.mem_sKept _ _).mp h).1 (show (2 : Fin 3) ∈ [0, 1, 2] by decide))]
    simp only [Nat.add_zero]
    unfold GatherDims.start
    rw [dif_pos (show (2 : Fin 3) ∈ gather_S64x512x512_S64x12x3_S64x12_n_012_n_n_012_2_111.startIndexMap from (show (2 : Fin 3) ∈ [0, 1, 2] by decide))]
    have hsi : gather_S64x512x512_S64x12x3_S64x12_n_012_n_n_012_2_111.siIdx (ix2 b f)
        ⟨List.idxOf (2 : Fin 3) gather_S64x512x512_S64x12x3_S64x12_n_012_n_n_012_2_111.startIndexMap,
          List.idxOf_lt_length_iff.2 (show (2 : Fin 3) ∈ [0, 1, 2] by decide)⟩ = ix3 b f 2 := by
      funext c; refine Fin.ext ?_
      match c with
      | ⟨0, _⟩ => rfl
      | ⟨1, _⟩ => rfl
      | ⟨2, _⟩ => rfl
    rw [hsi]
    rfl

end Cert.ReferenceIdeal.Stages
-- ==== Proof.RefWords.lean ====
/-
  Index words: clipped coordinates and sample numbers as signed integers.

  A coordinate word clipped into 0 … 511 is non-negative and at most 511 as a signed integer, so reading it signed
  or unsigned gives the same number, adding the axis length to it "when negative" never happens, and clamping it
  into the axis again changes nothing: it names the pixel row (or column) of its own value.  The same holds for a
  sample number below 64 written as a 32-bit word.
-/
import proofs.«105859_j53317724012633_2_alg».proof.Proof.Math

noncomputable section

namespace Cert.NSS

open Idealize.ShloMosaic

/-- A clipped word lies in 0 … 511 as a signed integer. -/
theorem clip511_toInt (v : BitVec 32) : 0 ≤ (clip511 v).toInt ∧ (clip511 v).toInt ≤ 511 := by
  have h0 : (0#32 : BitVec 32).toInt = 0 := by decide
  have h511 : (511#32 : BitVec 32).toInt = 511 := by decide
  unfold clip511 IntOp.minsi IntOp.maxsi
  split_ifs <;> simp only [BitVec.slt, decide_eq_true_eq, not_lt, h0, h511] at * <;> constructor <;> omega

/-- Read signed or unsigned, a clipped word is the same natural number. -/
theorem clip511_toInt_toNat (v : BitVec 32) : (clip511 v).toInt.toNat = (clip511 v).toNat := by
  have hlt := clip511_lt v
  have hc := BitVec.toInt_eq_toNat_cond (clip511 v)
  split at hc <;> omega

/-- A word that is non-negative as a signed integer is not "less than zero". -/
theorem cmpi_slt_zero_of_nonneg (x : BitVec 32) (h : 0 ≤ x.toInt) : IntOp.cmpi .slt x 0#32 = 0#1 := by
  have h0 : (0#32 : BitVec 32).toInt = 0 := by decide
  have hs : x.slt 0#32 = false := by
    rw [BitVec.slt, h0]; exact decide_eq_false (by omega)
  show BitVec.ofBool (x.slt 0#32) = 0#1
  rw [hs]; rfl

/-- Wrapping a clipped word around the axis ("add 512 when negative") leaves it as it is. -/
theorem wrap_clip (v : BitVec 32) :
    Scalar.select (IntOp.cmpi .slt (clip511 v) 0#32) (IntOp.addi (clip511 v) 512#32) (clip511 v) = clip511 v := by
  rw [cmpi_slt_zero_of_nonneg _ (clip511_toInt v).1]
  exact ValueIdx.select_zero _ _

/-- A sample number below 64, as a 32-bit word, is itself as a signed integer. -/
theorem iota_toInt (b : Fin 64) : (BitVec.ofNat 32 b.val).toInt = (b.val : Int) := by
  have hb := b.isLt
  have hn : (BitVec.ofNat 32 b.val).toNat = b.val := by
    rw [BitVec.toNat_ofNat]; exact Nat.mod_eq_of_lt (by omega)
  have hc := BitVec.toInt_eq_toNat_cond (BitVec.ofNat 32 b.val)
  rw [hn] at hc
  split at hc <;> omega

/-- Wrapping a sample number around the batch axis ("add 64 when negative") leaves it as it is. -/
theorem wrap_iota (b : Fin 64) :
    Scalar.select (IntOp.cmpi .slt (BitVec.ofNat 32 b.val) 0#32) (IntOp.addi (BitVec.ofNat 32 b.val) 64#32)
      (BitVec.ofNat 32 b.val) = BitVec.ofNat 32 b.val := by
  rw [cmpi_slt_zero_of_nonneg _ (by rw [iota_toInt]; omega)]
  exact ValueIdx.select_zero _ _

theorem iota_toInt_toNat (b : Fin 64) : (BitVec.ofNat 32 b.val).toInt.toNat = b.val := by
  rw [iota_toInt]; omega

/-- Clamped into the axis, a clipped word names the pixel row of its own value. -/
theorem gather_row (v : BitVec 32) : min (clip511 v).toInt.toNat 511 = (rowOf (clip511 v)).val := by
  have hlt := clip511_lt v
  rw [clip511_toInt_toNat, rowOf_val _ hlt]
  omega

/-- Clamped into the batch axis, a sample number names itself. -/
theorem gather_sample (b : Fin 64) : min (BitVec.ofNat 32 b.val).toInt.toNat 63 = b.val := by
  have hb := b.isLt
  rw [iota_toInt_toNat]
  omega

end Cert.NSS

end
-- ==== Proof.LibReduce12.lean ====
/-
  The host's sum of a rank-3 array over its last two axes, read at an entry of the result, at the ideal values.

  For an array `x` of shape [a, b, c] summed over axes 1 and 2 into shape [a], starting from an initial value, the
  result at `i` is the initial value plus the double sum of the slab `i`:

      out[i] = init + Σ_p Σ_q x[i, p, q]        (`hostReduceAdd_axes12_apply`).

  Along the way: the indices of an [a, b, c] array are the triples of its coordinates, so a sum over all of them is
  the triple sum (`sum_idx3`), and a sum over the indices whose leading coordinate is a given one is the double sum
  over the other two (`sum_filter_lead3`).  The sums are finite sums in a commutative monoid, so they may be
  regrouped freely (the extended reals' addition is commutative and associative at the infinities too).
-/
import Idealize.ShloMosaic.PureOps.Ideal.Laws
import Idealize.ShloMosaic.Lib.ValueIdx

namespace LibReduce12

open Idealize.ShloMosaic Idealize.ShloMosaic.ValueIdx

variable {a b c : Nat}

/-- The indices of an [a, b, c] array are the triples of its coordinates. -/
def idxEquiv3 : (⟨3, ![a, b, c]⟩ : Shape).Idx ≃ Fin a × Fin b × Fin c where
  toFun j := (j 0, j 1, j 2)
  invFun p := ix3 p.1 p.2.1 p.2.2
  left_inv j := (eq_ix3 j).symm
  right_inv _ := rfl

section Sums
variable {M : Type*} [AddCommMonoid M]

/-- The sum over every index of an [a, b, c] array is the triple sum over its coordinates. -/
theorem sum_idx3 (f : (⟨3, ![a, b, c]⟩ : Shape).Idx → M) :
    ∑ j, f j = ∑ A : Fin a, ∑ B : Fin b, ∑ C : Fin c, f (ix3 A B C) := by
  rw [← Equiv.sum_comp (idxEquiv3 (a := a) (b := b) (c := c)).symm f, Fintype.sum_prod_type]
  refine Finset.sum_congr rfl fun A _ => ?_
  rw [Fintype.sum_prod_type]
  rfl

/-- The sum over the indices of an [a, b, c] array whose leading coordinate is `A`: the double sum over the other
    two coordinates. (`lead` is any function that reads the leading coordinate: a reduction's "drop axes 1 and 2".) -/
theorem sum_filter_lead3 {ι : Type*} [DecidableEq ι] (lead : (⟨3, ![a, b, c]⟩ : Shape).Idx → ι) (key : ι) (A : Fin a)
    (hlead : ∀ j, lead j = key ↔ j 0 = A) (f : (⟨3, ![a, b, c]⟩ : Shape).Idx → M) :
    ∑ j ∈ Finset.univ.filter (fun j => lead j = key), f j = ∑ B : Fin b, ∑ C : Fin c, f (ix3 A B C) := by
  rw [Finset.sum_filter, sum_idx3]
  rw [Finset.sum_eq_single A]
  · refine Finset.sum_congr rfl fun B _ => Finset.sum_congr rfl fun C _ => ?_
    rw [if_pos ((hlead _).mpr rfl)]
  · intro A' _ hne
    refine Finset.sum_eq_zero fun B _ => Finset.sum_eq_zero fun C _ => ?_
    rw [if_neg (fun h => hne ((hlead _).mp h))]
  · intro h; exact absurd (Finset.mem_univ A) h

end Sums

/-- Dropping axes 1 and 2 of an index of an [a, b, c] array leaves `i` exactly when its leading coordinate is `i`. -/
theorem drop12_eq_iff (h : (⟨3, ![a, b, c]⟩ : Shape).ReducesTo [1, 2] ⟨1, ![a]⟩) (j : (⟨3, ![a, b, c]⟩ : Shape).Idx)
    (A : Fin a) : h.drop j = ix1 A ↔ j 0 = A := by
  have hv : ((h.drop j 0 : Fin _) : Nat) = (j 0 : Nat) := rfl
  constructor
  · intro e
    apply Fin.ext
    have e0 : ((h.drop j 0 : Fin _) : Nat) = A.val := congrArg (fun t => ((t 0 : Fin _) : Nat)) e
    exact hv.symm.trans e0
  · intro e
    funext d
    match d with
    | ⟨0, _⟩ =>
      apply Fin.ext
      show ((h.drop j 0 : Fin _) : Nat) = A.val
      rw [hv, e]

/-- The host's sum over axes 1 and 2 of an [a, b, c] array, from the first element of an initial-value array, at
    `i`: the initial value plus the double sum of slab `i`. -/
theorem hostReduceAdd_axes12_apply {φ : FTy} {u : Shape} (x : FVec Ideal ⟨3, ![a, b, c]⟩ φ) (init : u.Idx → Ideal φ)
    (h : (⟨3, ![a, b, c]⟩ : Shape).ReducesTo [1, 2] ⟨1, ![a]⟩) (hu : 0 < u.numel) (A : Fin a) :
    Host.reduceAdd x init h hu (ix1 A) = init (Shape.Idx.first hu) + ∑ B : Fin b, ∑ C : Fin c, x (ix3 A B C) := by
  show init (Shape.Idx.first hu) + ∑ k ∈ Finset.univ.filter (fun k => h.drop k = ix1 A), x k = _
  refine congrArg (init (Shape.Idx.first hu) + ·) ?_
  exact sum_filter_lead3 h.drop (ix1 A) A (fun j => drop12_eq_iff h j A) x

/-- The same with a rank-0 initial value, read at its one index. -/
theorem hostReduceAdd_axes12_scalar_apply {φ : FTy} (x : FVec Ideal ⟨3, ![a, b, c]⟩ φ)
    (init : (⟨0, ![]⟩ : Shape).Idx → Ideal φ) (h : (⟨3, ![a, b, c]⟩ : Shape).ReducesTo [1, 2] ⟨1, ![a]⟩)
    (hu : 0 < (⟨0, ![]⟩ : Shape).numel) (A : Fin a) :
    Host.reduceAdd x init h hu (ix1 A) = init ix0 + ∑ B : Fin b, ∑ C : Fin c, x (ix3 A B C) := by
  rw [hostReduceAdd_axes12_apply, eq_ix0 (Shape.Idx.first hu)]

end LibReduce12
-- ==== Proof.RefRead.lean ====
/-
  The reference's stages read at an index, at the exact values.

  One sample `b` at a time: the stages' entries at `b` are the specification's functions of the sample's image
  `fun h w => p (b, h, w)` and coordinates `fun f k => c (b, f, k)`. A sum over both pixel axes is the double sum over
  rows and columns; the unbiased variance's guard holds, so the variance is the quotient; the index words are read
  pointwise; a clipped word is its own wrap, so the gather reads the standardized image at the clipped row and
  column; the masked mean and the batch mean are sums over twelve fixations and 64 samples from the zero word.
-/
import proofs.«105859_j53317724012633_2_alg».proof.Proof.RefStages
import proofs.«105859_j53317724012633_2_alg».proof.Proof.RefGather
import proofs.«105859_j53317724012633_2_alg».proof.Proof.RefWords
import proofs.«105859_j53317724012633_2_alg».proof.Proof.Consts
import proofs.«105859_j53317724012633_2_alg».proof.Proof.LibReduce12
import Idealize.ShloMosaic.Lib.IdealHost
import Idealize.ShloMosaic.Lib.Pipeline.Value

noncomputable section

namespace Cert.ReferenceIdeal.Stages

open Cert.ReferenceIdeal Cert.ReferenceIdeal.Gen Idealize.ShloMosaic Idealize.ShloMosaic.ValueIdx Cert.NSS

/-- Sample `b`'s image out of a `[64,512,512]` array, and its coordinates out of a `[64,12,2]` one. -/
abbrev imgAt (p : FVec Ideal S64x512x512 .f32) (b : Fin 64) : NSS.Img := fun h w => p (ix3 b h w)
abbrev crdAt (c : FVec Ideal S64x12x2 .f32) (b : Fin 64) : NSS.Crd := fun f k => c (ix3 b f k)

/-- The zero word added on the left changes nothing. -/
theorem cZero_add (x : EReal) : cZero + x = x := by rw [cZero_eq, zero_add]

/-! ## Sums -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- The sum over both pixel axes at sample `b`: the zero word plus the double sum over rows and columns. -/
theorem sumHW_apply (p : FVec Ideal S64x512x512 .f32) (b : Fin 64) :
    sumHW (F := Ideal) p (ix1 b) = cZero + ∑ h : Fin 512, ∑ w : Fin 512, p (ix3 b h w) := by
  unfold sumHW
  exact LibReduce12.hostReduceAdd_axes12_scalar_apply p _ reducesTo_S64x512x512_S64_d1_2 h_S_ b

/-- The sum over the fixation axis at sample `b`. -/
theorem sumF_apply (x : FVec Ideal S64x12 .f32) (b : Fin 64) :
    Host.reduceAdd (F := Ideal) x (constant (F := Ideal) S_ .f32 0x00000000#32) reducesTo_S64x12_S64_d1 h_S_ (ix1 b)
      = cZero + ∑ f : Fin 12, x (ix2 b f) := by
  have h : S64x12.Reduces [1] S64 := by decide
  show Ideal.hostReduceAdd reducesTo_S64x12_S64_d1 x cZero (ix1 b) = _
  rw [Ideal.hostReduceAdd_single reducesTo_S64x12_S64_d1 h]
  refine congrArg (cZero + ·) ?_
  refine Finset.sum_congr rfl fun f _ => congrArg x ?_
  funext a
  match a with
  | ⟨0, _⟩ => exact Fin.ext rfl
  | ⟨1, _⟩ => exact Fin.ext rfl

/-- The sum over the 64 samples. -/
theorem sumB_apply (v : FVec Ideal S64 .f32) :
    Host.reduceAdd (F := Ideal) v (constant (F := Ideal) S_ .f32 0x00000000#32) reducesTo_S64_S_d0 h_S_ ix0
      = cZero + ∑ b : Fin 64, v (ix1 b) := by
  show Ideal.hostReduceAdd reducesTo_S64_S_d0 v cZero ix0 = _
  rw [Ideal.hostReduceAdd_total reducesTo_S64_S_d0 (fun b => b.elim0)]
  refine congrArg (cZero + ·) ?_
  rw [← Equiv.sum_comp (idxEquiv1 (n := 64)).symm v]
  rfl

/-! ## Standardizing -/

theorem img_apply (a0 : FVec Ideal S64x1x512x512 .f32) (b : Fin 64) (h w : Fin 512) :
    img (F := Ideal) a0 (ix3 b h w) = a0 (ix4 b 0 h w) := by
  unfold img
  refine shapeCast_apply a0 _ (ix3 b h w) (ix4 b 0 h w) ?_
  rw [Shape.rowMajor_val_four, Shape.rowMajor_val_three]
  show ((b.val * 1 + 0) * 512 + h.val) * 512 + w.val = (b.val * 512 + h.val) * 512 + w.val
  omega

/-- A `[64]` array spread over `[64,1,1]` reads its own entry. -/
theorem bcast_b11 {α : Type} (x : S64.Idx → α) (b : Fin 64) :
    broadcastInDim S64x1x1 ![0] bcast_S64_S64x1x1_0 x (ix3 b 0 0) = x (ix1 b) :=
  broadcastInDim_apply _ _ x (ix3 b 0 0) (ix1 b) fun a => by
    match a with
    | ⟨0, _⟩ => rfl

/-- A `[64,1,1]` array spread over the pixels reads its sample's entry. -/
theorem bcast_bhw {α : Type} (x : S64x1x1.Idx → α) (b : Fin 64) (h w : Fin 512) :
    broadcastInDim S64x512x512 ![0, 1, 2] bcast_S64x1x1_S64x512x512_0_1_2 x (ix3 b h w) = x (ix3 b 0 0) :=
  broadcastInDim_apply _ _ x (ix3 b h w) (ix3 b 0 0) fun a => by
    match a with
    | ⟨0, _⟩ => rfl
    | ⟨1, _⟩ => rfl
    | ⟨2, _⟩ => rfl

theorem meanS_apply (p : FVec Ideal S64x512x512 .f32) (b : Fin 64) :
    meanS (F := Ideal) p (ix3 b 0 0) = NSS.mean (imgAt p b) := by
  show Ideal.div (broadcastInDim S64x1x1 ![0] bcast_S64_S64x1x1_0 (sumHW (F := Ideal) p) (ix3 b 0 0))
      (broadcastInDim S64x1x1 ![] bcast_S_S64x1x1 (constant (F := Ideal) S_ .f32 0x48800000#32) (ix3 b 0 0)) = _
  rw [bcast_b11, broadcastInDim_scalar_apply, sumHW_apply, cZero_add]
  rfl

theorem devS_apply (p : FVec Ideal S64x512x512 .f32) (b : Fin 64) (h w : Fin 512) :
    devS (F := Ideal) p (ix3 b h w) = p (ix3 b h w) - NSS.mean (imgAt p b) := by
  show p (ix3 b h w) - broadcastInDim S64x512x512 ![0, 1, 2] bcast_S64x1x1_S64x512x512_0_1_2 (meanS (F := Ideal) p) (ix3 b h w) = _
  rw [bcast_bhw, meanS_apply]

/-- The variance's divisor is the pixel count less one. -/
theorem nrmS_apply : nrmS (F := Ideal) ix0 = cN - 1 := by
  have e : (1#32 : BitVec 32).toInt = 1 := by decide
  show cN - (((1#32 : BitVec 32).toInt : ℝ) : EReal) = cN - 1
  rw [e, Int.cast_one, EReal.coe_one]

theorem varS_apply (p : FVec Ideal S64x512x512 .f32) (b : Fin 64) :
    varS (F := Ideal) p (ix3 b 0 0) = NSS.varR (imgAt p b) := by
  unfold varS
  rw [select_apply, broadcastInDim_scalar_apply]
  have hc : cmpf (F := Ideal) .ogt (nrmS (F := Ideal)) (constant (F := Ideal) S_ .f32 0x00000000#32) ix0 = 1#1 := by
    show Ideal.cmp .ogt (nrmS (F := Ideal) ix0) cZero = 1#1
    rw [nrmS_apply]; exact cmp_normalizer
  rw [hc, select_one]
  show Ideal.div (broadcastInDim S64x1x1 ![0] bcast_S64_S64x1x1_0 (sumHW (F := Ideal) (mulf (devS (F := Ideal) p) (devS (F := Ideal) p))) (ix3 b 0 0))
      (broadcastInDim S64x1x1 ![] bcast_S_S64x1x1 (nrmS (F := Ideal)) (ix3 b 0 0)) = _
  rw [bcast_b11, broadcastInDim_scalar_apply, sumHW_apply, cZero_add, nrmS_apply]
  unfold NSS.varR NSS.total
  refine congrArg (Ideal.div · (cN - 1)) ?_
  refine Finset.sum_congr rfl fun h _ => Finset.sum_congr rfl fun w _ => ?_
  show devS (F := Ideal) p (ix3 b h w) * devS (F := Ideal) p (ix3 b h w) = _
  rw [devS_apply]

theorem stdS_apply (p : FVec Ideal S64x512x512 .f32) (b : Fin 64) :
    stdS (F := Ideal) p (ix3 b 0 0) = Ideal.sqrt (NSS.varR (imgAt p b)) := by
  show Ideal.sqrt (varS (F := Ideal) p (ix3 b 0 0)) = _
  rw [varS_apply]

theorem pnS_apply (p : FVec Ideal S64x512x512 .f32) (b : Fin 64) (h w : Fin 512) :
    pnS (F := Ideal) p (ix3 b h w) = NSS.pnR (imgAt p b) h w := by
  show Ideal.div (devS (F := Ideal) p (ix3 b h w))
      (broadcastInDim S64x512x512 ![0, 1, 2] bcast_S64x1x1_S64x512x512_0_1_2
        (addf (stdS (F := Ideal) p) (broadcastInDim S64x1x1 ![] bcast_S_S64x1x1 (constant (F := Ideal) S_ .f32 0x322BCC77#32))) (ix3 b h w)) = _
  rw [devS_apply, bcast_bhw]
  show Ideal.div _ (stdS (F := Ideal) p (ix3 b 0 0)
      + broadcastInDim S64x1x1 ![] bcast_S_S64x1x1 (constant (F := Ideal) S_ .f32 0x322BCC77#32) (ix3 b 0 0)) = _
  rw [stdS_apply, broadcastInDim_scalar_apply]
  rfl

/-! ## The fixations -/

theorem colS_apply (c : FVec Ideal S64x12x2 .f32) (b : Fin 64) (f : Fin 12) :
    colS (F := Ideal) c (ix2 b f) = c (ix3 b f 0) := by
  unfold colS
  rw [shapeCast_apply _ _ (ix2 b f) (ix3 b f (0 : Fin 1)) (by
    rw [Shape.rowMajor_val_three, Shape.rowMajor_val_two]
    show (b.val * 12 + f.val) * 1 + 0 = b.val * 12 + f.val
    omega)]
  refine extractStridedSlice_apply _ c _ _ (ix3 b f 0) fun a => ?_
  match a with
  | ⟨0, _⟩ => exact (Nat.zero_add _).symm
  | ⟨1, _⟩ => exact (Nat.zero_add _).symm
  | ⟨2, _⟩ => rfl

theorem rowS_apply (c : FVec Ideal S64x12x2 .f32) (b : Fin 64) (f : Fin 12) :
    rowS (F := Ideal) c (ix2 b f) = c (ix3 b f 1) := by
  unfold rowS
  rw [shapeCast_apply _ _ (ix2 b f) (ix3 b f (0 : Fin 1)) (by
    rw [Shape.rowMajor_val_three, Shape.rowMajor_val_two]
    show (b.val * 12 + f.val) * 1 + 0 = b.val * 12 + f.val
    omega)]
  refine extractStridedSlice_apply _ c _ _ (ix3 b f 1) fun a => ?_
  match a with
  | ⟨0, _⟩ => exact (Nat.zero_add _).symm
  | ⟨1, _⟩ => exact (Nat.zero_add _).symm
  | ⟨2, _⟩ => rfl

theorem pxS_apply (c : FVec Ideal S64x12x2 .f32) (b : Fin 64) (f : Fin 12) :
    pxS (F := Ideal) c (ix2 b f) = NSS.pxRaw (crdAt c b) f := by
  show Ideal.fptosi 32 (colS (F := Ideal) c (ix2 b f)) = _
  rw [colS_apply]; rfl

theorem pyS_apply (c : FVec Ideal S64x12x2 .f32) (b : Fin 64) (f : Fin 12) :
    pyS (F := Ideal) c (ix2 b f) = NSS.pyRaw (crdAt c b) f := by
  show Ideal.fptosi 32 (rowS (F := Ideal) c (ix2 b f)) = _
  rw [rowS_apply]; rfl

theorem bc12_apply (v : BitVec 32) (j : S64x12.Idx) : bc12 v j = v := by
  unfold bc12; rw [broadcastInDim_scalar_apply]; rfl

theorem validS_apply (c : FVec Ideal S64x12x2 .f32) (b : Fin 64) (f : Fin 12) :
    validS (F := Ideal) c (ix2 b f) = NSS.inRange (NSS.pxRaw (crdAt c b) f) (NSS.pyRaw (crdAt c b) f) := by
  show IntOp.andi (IntOp.andi (IntOp.andi
        (IntOp.cmpi .sge (pxS (F := Ideal) c (ix2 b f)) (bc12 0#32 (ix2 b f)))
        (IntOp.cmpi .slt (pxS (F := Ideal) c (ix2 b f)) (bc12 512#32 (ix2 b f))))
        (IntOp.cmpi .sge (pyS (F := Ideal) c (ix2 b f)) (bc12 0#32 (ix2 b f))))
      (IntOp.cmpi .slt (pyS (F := Ideal) c (ix2 b f)) (bc12 512#32 (ix2 b f))) = _
  rw [pxS_apply, pyS_apply, bc12_apply, bc12_apply]
  rfl

theorem clipS_apply (x : IVec S64x12 32) (j : S64x12.Idx) : clipS x j = NSS.clip511 (x j) := by
  show IntOp.minsi (bc12 511#32 j) (IntOp.maxsi (bc12 0#32 j) (x j)) = _
  rw [bc12_apply, bc12_apply]
  rfl

/-- A clipped word is its own wrap: it is not negative. -/
theorem wrapS_clipS_apply (x : IVec S64x12 32) (j : S64x12.Idx) : wrapS (clipS x) j = NSS.clip511 (x j) := by
  show Scalar.select (IntOp.cmpi .slt (clipS x j) (bc12 0#32 j)) (IntOp.addi (clipS x j) (bc12 512#32 j)) (clipS x j) = _
  rw [bc12_apply, bc12_apply, clipS_apply]
  exact NSS.wrap_clip (x j)

/-- The sample-number column reads the sample's number. -/
theorem bidxS_apply (b : Fin 64) : bidxS (ix2 b (0 : Fin 1)) = BitVec.ofNat 32 b.val := by
  have hb : bcolS (ix2 b (0 : Fin 1)) = BitVec.ofNat 32 b.val := by
    unfold bcolS
    rw [broadcastInDim_apply _ _ (iotaInDim S64 32 0) (ix2 b (0 : Fin 1)) (ix1 b) fun a => by
      match a with
      | ⟨0, _⟩ => rfl]
    rfl
  show Scalar.select (IntOp.cmpi .slt (bcolS (ix2 b (0 : Fin 1)))
        (broadcastInDim S64x1 ![] bcast_S_S64x1 (constantI S_ 32 0#32) (ix2 b (0 : Fin 1))))
      (IntOp.addi (bcolS (ix2 b (0 : Fin 1))) (broadcastInDim S64x1 ![] bcast_S_S64x1 (constantI S_ 32 64#32) (ix2 b (0 : Fin 1))))
      (bcolS (ix2 b (0 : Fin 1))) = _
  rw [hb, broadcastInDim_scalar_apply, broadcastInDim_scalar_apply]
  exact NSS.wrap_iota b

theorem col1_apply (x : IVec S64x12 32) (b : Fin 64) (f : Fin 12) : col1 x (ix3 b f (0 : Fin 1)) = x (ix2 b f) :=
  broadcastInDim_apply _ _ x (ix3 b f (0 : Fin 1)) (ix2 b f) fun a => by
    match a with
    | ⟨0, _⟩ => rfl
    | ⟨1, _⟩ => rfl

/-- The three index columns: the sample's number, the clipped row word, the clipped column word. -/
theorem idxS_apply0 (c : FVec Ideal S64x12x2 .f32) (b : Fin 64) (f : Fin 12) :
    idxS (F := Ideal) c (ix3 b f (0 : Fin 3)) = BitVec.ofNat 32 b.val := by
  unfold idxS
  refine (concatenate_apply_piece (t := S64x12x3) (2 : Fin 3) _ _ (ix3 b f (0 : Fin 3)) 0 (by show (0 : Nat) < 3; omega) S64x12x1 _ rfl rfl 0 rfl
    (ix3 b f (0 : Fin 1))
    (fun a ha => by
      match a with
      | ⟨0, _⟩ => rfl
      | ⟨1, _⟩ => rfl
      | ⟨2, _⟩ => exact absurd rfl ha) rfl).trans ?_
  rw [col1_apply]
  rw [broadcastInDim_apply _ _ bidxS (ix2 b f) (ix2 b (0 : Fin 1)) fun a => by
    match a with
    | ⟨0, _⟩ => rfl
    | ⟨1, _⟩ => rfl]
  exact bidxS_apply b

theorem idxS_apply1 (c : FVec Ideal S64x12x2 .f32) (b : Fin 64) (f : Fin 12) :
    idxS (F := Ideal) c (ix3 b f (1 : Fin 3)) = NSS.clip511 (NSS.pyRaw (crdAt c b) f) := by
  unfold idxS
  refine (concatenate_apply_piece (t := S64x12x3) (2 : Fin 3) _ _ (ix3 b f (1 : Fin 3)) 1 (by show (1 : Nat) < 3; omega) S64x12x1 _ rfl rfl 1 rfl
    (ix3 b f (0 : Fin 1))
    (fun a ha => by
      match a with
      | ⟨0, _⟩ => rfl
      | ⟨1, _⟩ => rfl
      | ⟨2, _⟩ => exact absurd rfl ha) rfl).trans ?_
  rw [col1_apply, wrapS_clipS_apply, pyS_apply]

theorem idxS_apply2 (c : FVec Ideal S64x12x2 .f32) (b : Fin 64) (f : Fin 12) :
    idxS (F := Ideal) c (ix3 b f (2 : Fin 3)) = NSS.clip511 (NSS.pxRaw (crdAt c b) f) := by
  unfold idxS
  refine (concatenate_apply_piece (t := S64x12x3) (2 : Fin 3) _ _ (ix3 b f (2 : Fin 3)) 2 (by show (2 : Nat) < 3; omega) S64x12x1 _ rfl rfl 2 rfl
    (ix3 b f (0 : Fin 1))
    (fun a ha => by
      match a with
      | ⟨0, _⟩ => rfl
      | ⟨1, _⟩ => rfl
      | ⟨2, _⟩ => exact absurd rfl ha) rfl).trans ?_
  rw [col1_apply, wrapS_clipS_apply, pxS_apply]

/-! ## The score -/

/-- The gather reads the standardized image at the clipped row and column. -/
theorem valsS_apply (p : FVec Ideal S64x512x512 .f32) (c : FVec Ideal S64x12x2 .f32) (b : Fin 64) (f : Fin 12) :
    valsS (F := Ideal) p c (ix2 b f)
      = NSS.pnR (imgAt p b) (NSS.rowOf (NSS.clip511 (NSS.pyRaw (crdAt c b) f))) (NSS.rowOf (NSS.clip511 (NSS.pxRaw (crdAt c b) f))) := by
  unfold valsS
  rw [gather_apply, ← pnS_apply]
  refine congrArg (pnS (F := Ideal) p) ?_
  funext a
  match a with
  | ⟨0, _⟩ =>
    refine Fin.ext ?_
    show min (idxS (F := Ideal) c (ix3 b f 0)).toInt.toNat 63 = b.val
    rw [idxS_apply0]; exact NSS.gather_sample b
  | ⟨1, _⟩ =>
    refine Fin.ext ?_
    show min (idxS (F := Ideal) c (ix3 b f 1)).toInt.toNat 511 = _
    rw [idxS_apply1]; exact NSS.gather_row _
  | ⟨2, _⟩ =>
    refine Fin.ext ?_
    show min (idxS (F := Ideal) c (ix3 b f 2)).toInt.toNat 511 = _
    rw [idxS_apply2]; exact NSS.gather_row _

theorem maskS_apply (c : FVec Ideal S64x12x2 .f32) (b : Fin 64) (f : Fin 12) :
    maskS (F := Ideal) c (ix2 b f) = NSS.u2f (NSS.inRange (NSS.pxRaw (crdAt c b) f) (NSS.pyRaw (crdAt c b) f)) := by
  show NSS.u2f (validS (F := Ideal) c (ix2 b f)) = _
  rw [validS_apply]

theorem cntS_apply (c : FVec Ideal S64x12x2 .f32) (b : Fin 64) :
    cntS (F := Ideal) c (ix1 b) = ∑ f : Fin 12, NSS.u2f (NSS.inRange (NSS.pxRaw (crdAt c b) f) (NSS.pyRaw (crdAt c b) f)) := by
  unfold cntS
  rw [sumF_apply, cZero_add]
  exact Finset.sum_congr rfl fun f _ => maskS_apply c b f

theorem numS_apply (p : FVec Ideal S64x512x512 .f32) (c : FVec Ideal S64x12x2 .f32) (b : Fin 64) :
    numS (F := Ideal) p c (ix1 b)
      = ∑ f : Fin 12, NSS.pnR (imgAt p b) (NSS.rowOf (NSS.clip511 (NSS.pyRaw (crdAt c b) f))) (NSS.rowOf (NSS.clip511 (NSS.pxRaw (crdAt c b) f)))
          * NSS.u2f (NSS.inRange (NSS.pxRaw (crdAt c b) f) (NSS.pyRaw (crdAt c b) f)) := by
  unfold numS
  rw [sumF_apply, cZero_add]
  refine Finset.sum_congr rfl fun f _ => ?_
  show valsS (F := Ideal) p c (ix2 b f) * maskS (F := Ideal) c (ix2 b f) = _
  rw [valsS_apply, maskS_apply]

/-- Sample `b`'s masked mean is the specification's second arrangement of the sample's image and coordinates. -/
theorem perS_apply (p : FVec Ideal S64x512x512 .f32) (c : FVec Ideal S64x12x2 .f32) (b : Fin 64) :
    perS (F := Ideal) p c (ix1 b) = NSS.sampleR (imgAt p b) (crdAt c b) := by
  show Scalar.select (Ideal.cmp .ogt (cntS (F := Ideal) c (ix1 b))
        (broadcastInDim S64 ![] bcast_S_S64 (constant (F := Ideal) S_ .f32 0x00000000#32) (ix1 b)))
      (Ideal.div (numS (F := Ideal) p c (ix1 b))
        (max (cntS (F := Ideal) c (ix1 b)) (broadcastInDim S64 ![] bcast_S_S64 (constant (F := Ideal) S_ .f32 0x3F800000#32) (ix1 b))))
      (broadcastInDim S64 ![] bcast_S_S64 (constant (F := Ideal) S_ .f32 0x00000000#32) (ix1 b)) = _
  rw [cntS_apply, numS_apply, broadcastInDim_scalar_apply, broadcastInDim_scalar_apply]
  rfl

/-- The batch mean of a `[64]` array. -/
theorem tailS_apply (v : FVec Ideal S64 .f32) : tailS (F := Ideal) v ix0 = NSS.tailMean fun b => v (ix1 b) := by
  show Ideal.div (Host.reduceAdd (F := Ideal) v (constant (F := Ideal) S_ .f32 0x00000000#32) reducesTo_S64_S_d0 h_S_ ix0) c64 = _
  rw [sumB_apply]
  rfl

/-- The reference's result is the specification's second arrangement of its two arguments. -/
theorem outS_eq (a0 : FVec Ideal S64x1x512x512 .f32) (a1 : FVec Ideal S64x12x2 .f32) :
    outS (F := Ideal) a0 a1 = fun _ => NSS.resultR a0 a1 := by
  funext j
  rw [eq_ix0 j]
  unfold outS
  rw [tailS_apply]
  unfold NSS.resultR
  refine congrArg NSS.tailMean (funext fun b => ?_)
  rw [perS_apply]
  refine congrArg (NSS.sampleR · (crdAt a1 b)) ?_
  funext h w
  exact img_apply a0 b h w

end Cert.ReferenceIdeal.Stages

end
-- ==== Proof.RefFinal.lean ====
/-
  The reference's run, read back: every weakly fair execution of the reference program ends with its result buffer
  at the specification's second arrangement of the two arguments' launch contents, and both arguments unchanged.
  The run's fold (RefRun) is the stages' composition (RefOut), which is that arrangement index by index (RefRead).
-/
import proofs.«105859_j53317724012633_2_alg».proof.Proof.RefOut
import proofs.«105859_j53317724012633_2_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

theorem run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = (fun _ => Cert.NSS.resultR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c main_v65).trans ((out_eq (launchContents m c)).trans
        (Stages.outS_eq (launchContents m c (Proc.devRef .tc main_arg0)) (launchContents m c (Proc.devRef .tc main_arg1)))),
      (h c main_arg0).trans (arg0_eq (launchContents m c)),
      (h c main_arg1).trans (arg1_eq (launchContents m c))⟩)
    (run_main (F := Ideal) m ρ)

end Cert.ReferenceIdeal.HandRun

end
-- ==== Proof.lean ====
/-
  The normalized-scanpath-saliency kernel against its jnp reference, over the extended reals.

  Both programs standardize each of 64 images, read the standardized image at twelve truncated and clipped fixation
  coordinates, average the readings of the fixations that fell inside the image, and return the mean of the 64 averages.
  The kernel program's result is `NSS.resultK` of the two argument arrays on EVERY input (its variance from the sum of
  squares and the squared sum, a pixel read as a contraction with two one-hot vectors over sixteen padded slots); the
  reference's is `NSS.resultR` on every input (the centred-squares variance, a gather over twelve slots). On finite
  images the two are one number (`NSS.result_eq`: the variance identity over the reals, a one-hot contraction reads
  one entry, a masked-out slot contributes 0), and the precondition says the images are finite (`NSS.finite_of_pre`).

  The three frames: the two kernel programs' are the generated frame certificates; the reference has no kernel, and
  its frame is its run with the result dropped. The idealization rewrote nothing, so `preserves` is `True`.
-/
import proofs.«105859_j53317724012633_2_alg».proof.Defs
import proofs.«105859_j53317724012633_2_alg».proof.Proof.Gen.Kernel
import proofs.«105859_j53317724012633_2_alg».proof.Proof.Gen.Kernel.Frame
import proofs.«105859_j53317724012633_2_alg».proof.Proof.Gen.KernelIdeal
import proofs.«105859_j53317724012633_2_alg».proof.Proof.Gen.KernelIdeal.Frame
import proofs.«105859_j53317724012633_2_alg».proof.Proof.Gen.ReferenceIdeal
import proofs.«105859_j53317724012633_2_alg».proof.Proof.Gen.Pre_finite_inputs
import proofs.«105859_j53317724012633_2_alg».proof.Proof.Math
import proofs.«105859_j53317724012633_2_alg».proof.Proof.Finite
import proofs.«105859_j53317724012633_2_alg».proof.Proof.KerRun
import proofs.«105859_j53317724012633_2_alg».proof.Proof.RefFinal
import Idealize.ShloMosaic.Adequacy
import Idealize.ShloMosaic.Init

noncomputable section

namespace Cert.Proof

open Idealize.ShloMosaic Idealize.SL.Sem

/-- The kernel program and its idealization run and keep their arguments: the generated frame certificates. -/
theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (@Cert.ReferenceIdeal.HandRun.run Cert.ReferenceIdeal.Gen.facts m ρ)

/-- From memories that agree on the arguments both programs end with the same extended real: the kernel program at
    `resultK`, the reference at `resultR`, equal because the precondition makes the images finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.NSS.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    @Cert.KernelIdeal.KerRun.run Cert.KernelIdeal.Gen.facts m ρ, ?_⟩
  refine (θ_run Cert.ReferenceIdeal.defs _ _).mono (fun _ h c => ⟨(h c).1.trans ?_, (h c).2⟩)
    (@Cert.ReferenceIdeal.HandRun.run Cert.ReferenceIdeal.Gen.facts m' ρ')
  rw [(hagree c).1, (hagree c).2]
  funext _
  exact (Cert.NSS.result_eq _ _ (@Cert.NSS.finite_of_pre Cert.Pre_finite_inputs.Gen.facts _ _ (hpre c))).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
